-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2000 : Shape := ⟨2, ![50000, 2000]⟩
abbrev S50000x1000 : Shape := ⟨2, ![50000, 1000]⟩
abbrev S50000x200 : Shape := ⟨2, ![50000, 200]⟩
abbrev S2000x64 : Shape := ⟨2, ![2000, 64]⟩
abbrev S64 : Shape := ⟨1, ![64]⟩
abbrev S64x64 : Shape := ⟨2, ![64, 64]⟩
abbrev S1000x64 : Shape := ⟨2, ![1000, 64]⟩
abbrev S200x64 : Shape := ⟨2, ![200, 64]⟩
abbrev S192x64 : Shape := ⟨2, ![192, 64]⟩
abbrev S2x64x64 : Shape := ⟨3, ![2, 64, 64]⟩
abbrev S2x64 : Shape := ⟨2, ![2, 64]⟩
abbrev S2x128x64 : Shape := ⟨3, ![2, 128, 64]⟩
abbrev S2x600000 : Shape := ⟨2, ![2, 600000]⟩
abbrev S_ : Shape := ⟨0, ![]⟩

class Facts : Prop where
  bcast_S_S50000x2000 : S_.BroadcastsInDim S50000x2000 (![] : Fin 0 → Fin S50000x2000.rank)
  reducesTo_S50000x2000_S_d0_1 : S50000x2000.ReducesTo [0, 1] S_
  h_S_ : 0 < S_.numel
  bcast_S_S50000x1000 : S_.BroadcastsInDim S50000x1000 (![] : Fin 0 → Fin S50000x1000.rank)
  reducesTo_S50000x1000_S_d0_1 : S50000x1000.ReducesTo [0, 1] S_
  bcast_S_S50000x200 : S_.BroadcastsInDim S50000x200 (![] : Fin 0 → Fin S50000x200.rank)
  reducesTo_S50000x200_S_d0_1 : S50000x200.ReducesTo [0, 1] S_
  bcast_S_S2000x64 : S_.BroadcastsInDim S2000x64 (![] : Fin 0 → Fin S2000x64.rank)
  reducesTo_S2000x64_S_d0_1 : S2000x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1000x64 : S_.BroadcastsInDim S1000x64 (![] : Fin 0 → Fin S1000x64.rank)
  reducesTo_S1000x64_S_d0_1 : S1000x64.ReducesTo [0, 1] S_
  bcast_S_S200x64 : S_.BroadcastsInDim S200x64 (![] : Fin 0 → Fin S200x64.rank)
  reducesTo_S200x64_S_d0_1 : S200x64.ReducesTo [0, 1] S_
  bcast_S_S192x64 : S_.BroadcastsInDim S192x64 (![] : Fin 0 → Fin S192x64.rank)
  reducesTo_S192x64_S_d0_1 : S192x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S2x128x64 : S_.BroadcastsInDim S2x128x64 (![] : Fin 0 → Fin S2x128x64.rank)
  reducesTo_S2x128x64_S_d0_1_2 : S2x128x64.ReducesTo [0, 1, 2] S_

variable [Facts]

def fn_part8 {F : FTy → Type} [FloatOps F] (main_arg28 : FVec F S2x64 .f32) (main_arg29 : FVec F S2x64x64 .f32) (main_arg30 : FVec F S2x64 .f32) (main_v133 : IVec S_ 1) (main_v136 : IVec S2x128x64 1) : IVec S_ 1 :=
  let main_c_53 : IVec S_ 1 := constantI S_ 1 1#1
  let main_v137 : IVec S_ 1 := (fun x v => Host.reduce IntOp.andi x v reducesTo_S2x128x64_S_d0_1_2 h_S_) main_v136 main_c_53
  let main_v138 : IVec S_ 1 := andi main_v133 main_v137
  let main_v139 : FVec F S2x64 .f32 := Host.absf main_arg28
  let main_cst_54 : FVec F S_ .f32 := constant S_ .f32 0x7F800000#32
  let main_v140 : FVec F S2x64 .f32 := broadcastInDim S2x64 ![] bcast_S_S2x64 main_cst_54
  let main_v141 : IVec S2x64 1 := cmpf .olt main_v139 main_v140
  let main_c_55 : IVec S_ 1 := constantI S_ 1 1#1
  let main_v142 : IVec S_ 1 := (fun x v => Host.reduce IntOp.andi x v reducesTo_S2x64_S_d0_1 h_S_) main_v141 main_c_55
  let main_v143 : IVec S_ 1 := andi main_v138 main_v142
  let main_v144 : FVec F S2x64x64 .f32 := Host.absf main_arg29
  let main_cst_56 : FVec F S_ .f32 := constant S_ .f32 0x7F800000#32
  let main_v145 : FVec F S2x64x64 .f32 := broadcastInDim S2x64x64 ![] bcast_S_S2x64x64 main_cst_56
  let main_v146 : IVec S2x64x64 1 := cmpf .olt main_v144 main_v145
  let main_c_57 : IVec S_ 1 := constantI S_ 1 1#1
  let main_v147 : IVec S_ 1 := (fun x v => Host.reduce IntOp.andi x v reducesTo_S2x64x64_S_d0_1_2 h_S_) main_v146 main_c_57
  let main_v148 : IVec S_ 1 := andi main_v143 main_v147
  let main_v149 : FVec F S2x64 .f32 := Host.absf main_arg30
  let main_cst_58 : FVec F S_ .f32 := constant S_ .f32 0x7F800000#32
  let main_v150 : FVec F S2x64 .f32 := broadcastInDim S2x64 ![] bcast_S_S2x64 main_cst_58
  let main_v151 : IVec S2x64 1 := cmpf .olt main_v149 main_v150
  let main_c_59 : IVec S_ 1 := constantI S_ 1 1#1
  let main_v152 : IVec S_ 1 := (fun x v => Host.reduce IntOp.andi x v reducesTo_S2x64_S_d0_1 h_S_) main_v151 main_c_59
  let main_v153 : IVec S_ 1 := andi main_v148 main_v152
  main_v153

def fn_part7 {F : FTy → Type} [FloatOps F] (main_arg25 : FVec F S2x64x64 .f32) (main_arg26 : FVec F S2x64 .f32) (main_arg27 : FVec F S2x128x64 .f32) (main_arg28 : FVec F S2x64 .f32) (main_arg29 : FVec F S2x64x64 .f32) (main_arg30 : FVec F S2x64 .f32) (main_v118 : IVec S_ 1) (main_v119 : FVec F S2x64 .f32) : IVec S_ 1 :=
  let main_cst_46 : FVec F S_ .f32 := constant S_ .f32 0x7F800000#32
  let main_v120 : FVec F S2x64 .f32 := broadcastInDim S2x64 ![] bcast_S_S2x64 main_cst_46
  let main_v121 : IVec S2x64 1 := cmpf .olt main_v119 main_v120
  let main_c_47 : IVec S_ 1 := constantI S_ 1 1#1
  let main_v122 : IVec S_ 1 := (fun x v => Host.reduce IntOp.andi x v reducesTo_S2x64_S_d0_1 h_S_) main_v121 main_c_47
  let main_v123 : IVec S_ 1 := andi main_v118 main_v122
  let main_v124 : FVec F S2x64x64 .f32 := Host.absf main_arg25
  let main_cst_48 : FVec F S_ .f32 := constant S_ .f32 0x7F800000#32
  let main_v125 : FVec F S2x64x64 .f32 := broadcastInDim S2x64x64 ![] bcast_S_S2x64x64 main_cst_48
  let main_v126 : IVec S2x64x64 1 := cmpf .olt main_v124 main_v125
  let main_c_49 : IVec S_ 1 := constantI S_ 1 1#1
  let main_v127 : IVec S_ 1 := (fun x v => Host.reduce IntOp.andi x v reducesTo_S2x64x64_S_d0_1_2 h_S_) main_v126 main_c_49
  let main_v128 : IVec S_ 1 := andi main_v123 main_v127
  let main_v129 : FVec F S2x64 .f32 := Host.absf main_arg26
  let main_cst_50 : FVec F S_ .f32 := constant S_ .f32 0x7F800000#32
  let main_v130 : FVec F S2x64 .f32 := broadcastInDim S2x64 ![] bcast_S_S2x64 main_cst_50
  let main_v131 : IVec S2x64 1 := cmpf .olt main_v129 main_v130
  let main_c_51 : IVec S_ 1 := constantI S_ 1 1#1
  let main_v132 : IVec S_ 1 := (fun x v => Host.reduce IntOp.andi x v reducesTo_S2x64_S_d0_1 h_S_) main_v131 main_c_51
  let main_v133 : IVec S_ 1 := andi main_v128 main_v132
  let main_v134 : FVec F S2x128x64 .f32 := Host.absf main_arg27
  let main_cst_52 : FVec F S_ .f32 := constant S_ .f32 0x7F800000#32
  let main_v135 : FVec F S2x128x64 .f32 := broadcastInDim S2x128x64 ![] bcast_S_S2x128x64 main_cst_52
  let main_v136 : IVec S2x128x64 1 := cmpf .olt main_v134 main_v135
  fn_part8 (F := F) main_arg28 main_arg29 main_arg30 main_v133 main_v136

def fn_part6 {F : FTy → Type} [FloatOps F] (main_arg21 : FVec F S2x64x64 .f32) (main_arg22 : FVec F S2x64 .f32) (main_arg23 : FVec F S2x128x64 .f32) (main_arg24 : FVec F S2x64 .f32) (main_arg25 : FVec F S2x64x64 .f32) (main_arg26 : FVec F S2x64 .f32) (main_arg27 : FVec F S2x128x64 .f32) (main_arg28 : FVec F S2x64 .f32) (main_arg29 : FVec F S2x64x64 .f32) (main_arg30 : FVec F S2x64 .f32) (main_v98 : IVec S_ 1) (main_v101 : IVec S2x64 1) (main_c_39 : IVec S_ 1) : IVec S_ 1 :=
  let main_v102 : IVec S_ 1 := (fun x v => Host.reduce IntOp.andi x v reducesTo_S2x64_S_d0_1 h_S_) main_v101 main_c_39
  let main_v103 : IVec S_ 1 := andi main_v98 main_v102
  let main_v104 : FVec F S2x64x64 .f32 := Host.absf main_arg21
  let main_cst_40 : FVec F S_ .f32 := constant S_ .f32 0x7F800000#32
  let main_v105 : FVec F S2x64x64 .f32 := broadcastInDim S2x64x64 ![] bcast_S_S2x64x64 main_cst_40
  let main_v106 : IVec S2x64x64 1 := cmpf .olt main_v104 main_v105
  let main_c_41 : IVec S_ 1 := constantI S_ 1 1#1
  let main_v107 : IVec S_ 1 := (fun x v => Host.reduce IntOp.andi x v reducesTo_S2x64x64_S_d0_1_2 h_S_) main_v106 main_c_41
  let main_v108 : IVec S_ 1 := andi main_v103 main_v107
  let main_v109 : FVec F S2x64 .f32 := Host.absf main_arg22
  let main_cst_42 : FVec F S_ .f32 := constant S_ .f32 0x7F800000#32
  let main_v110 : FVec F S2x64 .f32 := broadcastInDim S2x64 ![] bcast_S_S2x64 main_cst_42
  let main_v111 : IVec S2x64 1 := cmpf .olt main_v109 main_v110
  let main_c_43 : IVec S_ 1 := constantI S_ 1 1#1
  let main_v112 : IVec S_ 1 := (fun x v => Host.reduce IntOp.andi x v reducesTo_S2x64_S_d0_1 h_S_) main_v111 main_c_43
  let main_v113 : IVec S_ 1 := andi main_v108 main_v112
  let main_v114 : FVec F S2x128x64 .f32 := Host.absf main_arg23
  let main_cst_44 : FVec F S_ .f32 := constant S_ .f32 0x7F800000#32
  let main_v115 : FVec F S2x128x64 .f32 := broadcastInDim S2x128x64 ![] bcast_S_S2x128x64 main_cst_44
  let main_v116 : IVec S2x128x64 1 := cmpf .olt main_v114 main_v115
  let main_c_45 : IVec S_ 1 := constantI S_ 1 1#1
  let main_v117 : IVec S_ 1 := (fun x v => Host.reduce IntOp.andi x v reducesTo_S2x128x64_S_d0_1_2 h_S_) main_v116 main_c_45
  let main_v118 : IVec S_ 1 := andi main_v113 main_v117
  let main_v119 : FVec F S2x64 .f32 := Host.absf main_arg24
  fn_part7 (F := F) main_arg25 main_arg26 main_arg27 main_arg28 main_arg29 main_arg30 main_v118 main_v119

def fn_part5 {F : FTy → Type} [FloatOps F] (main_arg18 : FVec F S64 .f32) (main_arg19 : FVec F S2x64x64 .f32) (main_arg20 : FVec F S2x64 .f32) (main_arg21 : FVec F S2x64x64 .f32) (main_arg22 : FVec F S2x64 .f32) (main_arg23 : FVec F S2x128x64 .f32) (main_arg24 : FVec F S2x64 .f32) (main_arg25 : FVec F S2x64x64 .f32) (main_arg26 : FVec F S2x64 .f32) (main_arg27 : FVec F S2x128x64 .f32) (main_arg28 : FVec F S2x64 .f32) (main_arg29 : FVec F S2x64x64 .f32) (main_arg30 : FVec F S2x64 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S2x64x64 .f32 := Host.absf main_arg19
  let main_cst_36 : FVec F S_ .f32 := constant S_ .f32 0x7F800000#32
  let main_v95 : FVec F S2x64x64 .f32 := broadcastInDim S2x64x64 ![] bcast_S_S2x64x64 main_cst_36
  let main_v96 : IVec S2x64x64 1 := cmpf .olt main_v94 main_v95
  let main_c_37 : IVec S_ 1 := constantI S_ 1 1#1
  let main_v97 : IVec S_ 1 := (fun x v => Host.reduce IntOp.andi x v reducesTo_S2x64x64_S_d0_1_2 h_S_) main_v96 main_c_37
  let main_v98 : IVec S_ 1 := andi main_v93 main_v97
  let main_v99 : FVec F S2x64 .f32 := Host.absf main_arg20
  let main_cst_38 : FVec F S_ .f32 := constant S_ .f32 0x7F800000#32
  let main_v100 : FVec F S2x64 .f32 := broadcastInDim S2x64 ![] bcast_S_S2x64 main_cst_38
  let main_v101 : IVec S2x64 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_v98 main_v101 main_c_39

def fn_part4 {F : FTy → Type} [FloatOps F] (main_arg14 : FVec F S64 .f32) (main_arg15 : FVec F S192x64 .f32) (main_arg16 : FVec F S64 .f32) (main_arg17 : FVec F S64x64 .f32) (main_arg18 : FVec F S64 .f32) (main_arg19 : FVec F S2x64x64 .f32) (main_arg20 : FVec F S2x64 .f32) (main_arg21 : FVec F S2x64x64 .f32) (main_arg22 : FVec F S2x64 .f32) (main_arg23 : FVec F S2x128x64 .f32) (main_arg24 : FVec F S2x64 .f32) (main_arg25 : FVec F S2x64x64 .f32) (main_arg26 : FVec F S2x64 .f32) (main_arg27 : FVec F S2x128x64 .f32) (main_arg28 : FVec F S2x64 .f32) (main_arg29 : FVec F S2x64x64 .f32) (main_arg30 : FVec F S2x64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S192x64 .f32 := Host.absf main_arg15
  let main_cst_28 : FVec F S_ .f32 := constant S_ .f32 0x7F800000#32
  let main_v75 : FVec F S192x64 .f32 := broadcastInDim S192x64 ![] bcast_S_S192x64 main_cst_28
  let main_v76 : IVec S192x64 1 := cmpf .olt main_v74 main_v75
  let main_c_29 : IVec S_ 1 := constantI S_ 1 1#1
  let main_v77 : IVec S_ 1 := (fun x v => Host.reduce IntOp.andi x v reducesTo_S192x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_v83 main_v84 main_cst_32

def fn_part3 {F : FTy → Type} [FloatOps F] (main_arg11 : FVec F S200x64 .f32) (main_arg12 : FVec F S64 .f32) (main_arg13 : FVec F S64x64 .f32) (main_arg14 : FVec F S64 .f32) (main_arg15 : FVec F S192x64 .f32) (main_arg16 : FVec F S64 .f32) (main_arg17 : FVec F S64x64 .f32) (main_arg18 : FVec F S64 .f32) (main_arg19 : FVec F S2x64x64 .f32) (main_arg20 : FVec F S2x64 .f32) (main_arg21 : FVec F S2x64x64 .f32) (main_arg22 : FVec F S2x64 .f32) (main_arg23 : FVec F S2x128x64 .f32) (main_arg24 : FVec F S2x64 .f32) (main_arg25 : FVec F S2x64x64 .f32) (main_arg26 : FVec F S2x64 .f32) (main_arg27 : FVec F S2x128x64 .f32) (main_arg28 : FVec F S2x64 .f32) (main_arg29 : FVec F S2x64x64 .f32) (main_arg30 : FVec F S2x64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S200x64 .f32 := Host.absf main_arg11
  let main_cst_20 : FVec F S_ .f32 := constant S_ .f32 0x7F800000#32
  let main_v55 : FVec F S200x64 .f32 := broadcastInDim S200x64 ![] bcast_S_S200x64 main_cst_20
  let main_v56 : IVec S200x64 1 := cmpf .olt main_v54 main_v55
  let main_c_21 : IVec S_ 1 := constantI S_ 1 1#1
  let main_v57 : IVec S_ 1 := (fun x v => Host.reduce IntOp.andi x v reducesTo_S200x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg13
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg7 : FVec F S1000x64 .f32) (main_arg8 : FVec F S64 .f32) (main_arg9 : FVec F S64x64 .f32) (main_arg10 : FVec F S64 .f32) (main_arg11 : FVec F S200x64 .f32) (main_arg12 : FVec F S64 .f32) (main_arg13 : FVec F S64x64 .f32) (main_arg14 : FVec F S64 .f32) (main_arg15 : FVec F S192x64 .f32) (main_arg16 : FVec F S64 .f32) (main_arg17 : FVec F S64x64 .f32) (main_arg18 : FVec F S64 .f32) (main_arg19 : FVec F S2x64x64 .f32) (main_arg20 : FVec F S2x64 .f32) (main_arg21 : FVec F S2x64x64 .f32) (main_arg22 : FVec F S2x64 .f32) (main_arg23 : FVec F S2x128x64 .f32) (main_arg24 : FVec F S2x64 .f32) (main_arg25 : FVec F S2x64x64 .f32) (main_arg26 : FVec F S2x64 .f32) (main_arg27 : FVec F S2x128x64 .f32) (main_arg28 : FVec F S2x64 .f32) (main_arg29 : FVec F S2x64x64 .f32) (main_arg30 : FVec F S2x64 .f32) (main_v33 : IVec S_ 1) : IVec S_ 1 :=
  let main_v34 : FVec F S1000x64 .f32 := Host.absf main_arg7
  let main_cst_12 : FVec F S_ .f32 := constant S_ .f32 0x7F800000#32
  let main_v35 : FVec F S1000x64 .f32 := broadcastInDim S1000x64 ![] bcast_S_S1000x64 main_cst_12
  let main_v36 : IVec S1000x64 1 := cmpf .olt main_v34 main_v35
  let main_c_13 : IVec S_ 1 := constantI S_ 1 1#1
  let main_v37 : IVec S_ 1 := (fun x v => Host.reduce IntOp.andi x v reducesTo_S1000x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg4 : FVec F S64 .f32) (main_arg5 : FVec F S64x64 .f32) (main_arg6 : FVec F S64 .f32) (main_arg7 : FVec F S1000x64 .f32) (main_arg8 : FVec F S64 .f32) (main_arg9 : FVec F S64x64 .f32) (main_arg10 : FVec F S64 .f32) (main_arg11 : FVec F S200x64 .f32) (main_arg12 : FVec F S64 .f32) (main_arg13 : FVec F S64x64 .f32) (main_arg14 : FVec F S64 .f32) (main_arg15 : FVec F S192x64 .f32) (main_arg16 : FVec F S64 .f32) (main_arg17 : FVec F S64x64 .f32) (main_arg18 : FVec F S64 .f32) (main_arg19 : FVec F S2x64x64 .f32) (main_arg20 : FVec F S2x64 .f32) (main_arg21 : FVec F S2x64x64 .f32) (main_arg22 : FVec F S2x64 .f32) (main_arg23 : FVec F S2x128x64 .f32) (main_arg24 : FVec F S2x64 .f32) (main_arg25 : FVec F S2x64x64 .f32) (main_arg26 : FVec F S2x64 .f32) (main_arg27 : FVec F S2x128x64 .f32) (main_arg28 : FVec F S2x64 .f32) (main_arg29 : FVec F S2x64x64 .f32) (main_arg30 : FVec F S2x64 .f32) (main_v13 : IVec S_ 1) (main_v16 : IVec S2000x64 1) : IVec S_ 1 :=
  let main_c_5 : IVec S_ 1 := constantI S_ 1 1#1
  let main_v17 : IVec S_ 1 := (fun x v => Host.reduce IntOp.andi x v reducesTo_S2000x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S50000x2000 .f32) (main_arg1 : FVec F S50000x1000 .f32) (main_arg2 : FVec F S50000x200 .f32) (main_arg3 : FVec F S2000x64 .f32) (main_arg4 : FVec F S64 .f32) (main_arg5 : FVec F S64x64 .f32) (main_arg6 : FVec F S64 .f32) (main_arg7 : FVec F S1000x64 .f32) (main_arg8 : FVec F S64 .f32) (main_arg9 : FVec F S64x64 .f32) (main_arg10 : FVec F S64 .f32) (main_arg11 : FVec F S200x64 .f32) (main_arg12 : FVec F S64 .f32) (main_arg13 : FVec F S64x64 .f32) (main_arg14 : FVec F S64 .f32) (main_arg15 : FVec F S192x64 .f32) (main_arg16 : FVec F S64 .f32) (main_arg17 : FVec F S64x64 .f32) (main_arg18 : FVec F S64 .f32) (main_arg19 : FVec F S2x64x64 .f32) (main_arg20 : FVec F S2x64 .f32) (main_arg21 : FVec F S2x64x64 .f32) (main_arg22 : FVec F S2x64 .f32) (main_arg23 : FVec F S2x128x64 .f32) (main_arg24 : FVec F S2x64 .f32) (main_arg25 : FVec F S2x64x64 .f32) (main_arg26 : FVec F S2x64 .f32) (main_arg27 : FVec F S2x128x64 .f32) (main_arg28 : FVec F S2x64 .f32) (main_arg29 : FVec F S2x64x64 .f32) (main_arg30 : FVec F S2x64 .f32) (main_arg31 : IVec S2x600000 32) : IVec S_ 1 :=
  let main_v0 : FVec F S50000x2000 .f32 := Host.absf main_arg0
  let main_cst : FVec F S_ .f32 := constant S_ .f32 0x7F800000#32
  let main_v1 : FVec F S50000x2000 .f32 := broadcastInDim S50000x2000 ![] bcast_S_S50000x2000 main_cst
  let main_v2 : IVec S50000x2000 1 := cmpf .olt main_v0 main_v1
  let main_c : IVec S_ 1 := constantI S_ 1 1#1
  let main_v3 : IVec S_ 1 := (fun x v => Host.reduce IntOp.andi x v reducesTo_S50000x2000_S_d0_1 h_S_) main_v2 main_c
  let main_v4 : FVec F S50000x1000 .f32 := Host.absf main_arg1
  let main_cst_0 : FVec F S_ .f32 := constant S_ .f32 0x7F800000#32
  let main_v5 : FVec F S50000x1000 .f32 := broadcastInDim S50000x1000 ![] bcast_S_S50000x1000 main_cst_0
  let main_v6 : IVec S50000x1000 1 := cmpf .olt main_v4 main_v5
  let main_c_1 : IVec S_ 1 := constantI S_ 1 1#1
  let main_v7 : IVec S_ 1 := (fun x v => Host.reduce IntOp.andi x v reducesTo_S50000x1000_S_d0_1 h_S_) main_v6 main_c_1
  let main_v8 : IVec S_ 1 := andi main_v3 main_v7
  let main_v9 : FVec F S50000x200 .f32 := Host.absf main_arg2
  let main_cst_2 : FVec F S_ .f32 := constant S_ .f32 0x7F800000#32
  let main_v10 : FVec F S50000x200 .f32 := broadcastInDim S50000x200 ![] bcast_S_S50000x200 main_cst_2
  let main_v11 : IVec S50000x200 1 := cmpf .olt main_v9 main_v10
  let main_c_3 : IVec S_ 1 := constantI S_ 1 1#1
  let main_v12 : IVec S_ 1 := (fun x v => Host.reduce IntOp.andi x v reducesTo_S50000x200_S_d0_1 h_S_) main_v11 main_c_3
  let main_v13 : IVec S_ 1 := andi main_v8 main_v12
  let main_v14 : FVec F S2000x64 .f32 := Host.absf main_arg3
  let main_cst_4 : FVec F S_ .f32 := constant S_ .f32 0x7F800000#32
  let main_v15 : FVec F S2000x64 .f32 := broadcastInDim S2000x64 ![] bcast_S_S2000x64 main_cst_4
  let main_v16 : IVec S2000x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S50000x2000 : Shape := ⟨2, ![50000, 2000]⟩
abbrev S50000x1000 : Shape := ⟨2, ![50000, 1000]⟩
abbrev S50000x200 : Shape := ⟨2, ![50000, 200]⟩
abbrev S2000x64 : Shape := ⟨2, ![2000, 64]⟩
abbrev S64 : Shape := ⟨1, ![64]⟩
abbrev S64x64 : Shape := ⟨2, ![64, 64]⟩
abbrev S1000x64 : Shape := ⟨2, ![1000, 64]⟩
abbrev S200x64 : Shape := ⟨2, ![200, 64]⟩
abbrev S192x64 : Shape := ⟨2, ![192, 64]⟩
abbrev S2x64x64 : Shape := ⟨3, ![2, 64, 64]⟩
abbrev S2x64 : Shape := ⟨2, ![2, 64]⟩
abbrev S2x128x64 : Shape := ⟨3, ![2, 128, 64]⟩
abbrev S2x600000 : Shape := ⟨2, ![2, 600000]⟩
abbrev S50000x64 : Shape := ⟨2, ![50000, 64]⟩
abbrev S1000x2000 : Shape := ⟨2, ![1000, 2000]⟩
abbrev S1000x1000 : Shape := ⟨2, ![1000, 1000]⟩
abbrev S1000x200 : Shape := ⟨2, ![1000, 200]⟩
abbrev S1x64 : Shape := ⟨2, ![1, 64]⟩
abbrev S1000x192 : Shape := ⟨2, ![1000, 192]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x64 : Shape := ⟨2, ![600000, 64]⟩
abbrev S1x64x64 : Shape := ⟨3, ![1, 64, 64]⟩
abbrev S1x128x64 : Shape := ⟨3, ![1, 128, 64]⟩
abbrev S128x64 : Shape := ⟨2, ![128, 64]⟩
abbrev S6000x64 : Shape := ⟨2, ![6000, 64]⟩
abbrev S6000x128 : Shape := ⟨2, ![6000, 128]⟩
abbrev S5000x64 : Shape := ⟨2, ![5000, 64]⟩
abbrev S5000x128 : Shape := ⟨2, ![5000, 128]⟩

abbrev nBuf : Space → Nat
  | .hbm => 133
  | .vmem => 72
  | .smem => 0
  | _ => 0

abbrev hbmTy0_0 (i : Nat) : BufTy := match i % 128 with
  | 0 => ⟨S50000x2000, .f32⟩
  | 1 => ⟨S50000x1000, .f32⟩
  | 2 => ⟨S50000x200, .f32⟩
  | 3 => ⟨S2000x64, .f32⟩
  | 4 => ⟨S64, .f32⟩
  | 5 => ⟨S64x64, .f32⟩
  | 6 => ⟨S64, .f32⟩
  | 7 => ⟨S1000x64, .f32⟩
  | 8 => ⟨S64, .f32⟩
  | 9 => ⟨S64x64, .f32⟩
  | 10 => ⟨S64, .f32⟩
  | 11 => ⟨S200x64, .f32⟩
  | 12 => ⟨S64, .f32⟩
  | 13 => ⟨S64x64, .f32⟩
  | 14 => ⟨S64, .f32⟩
  | 15 => ⟨S192x64, .f32⟩
  | 16 => ⟨S64, .f32⟩
  | 17 => ⟨S64x64, .f32⟩
  | 18 => ⟨S64, .f32⟩
  | 19 => ⟨S2x64x64, .f32⟩
  | 20 => ⟨S2x64, .f32⟩
  | 21 => ⟨S2x64x64, .f32⟩
  | 22 => ⟨S2x64, .f32⟩
  | 23 => ⟨S2x128x64, .f32⟩
  | 24 => ⟨S2x64, .f32⟩
  | 25 => ⟨S2x64x64, .f32⟩
  | 26 => ⟨S2x64, .f32⟩
  | 27 => ⟨S2x128x64, .f32⟩
  | 28 => ⟨S2x64, .f32⟩
  | 29 => ⟨S2x64x64, .f32⟩
  | 30 => ⟨S2x64, .f32⟩
  | 31 => ⟨S2x600000, .i32⟩
  | 32 => ⟨S50000x64, .f32⟩
  | 33 => ⟨S1x600000, .i32⟩
  | 34 => ⟨S600000, .i32⟩
  | 35 => ⟨S1x600000, .i32⟩
  | 36 => ⟨S600000, .i32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000x64, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000x64, .f32⟩
  | 55 => ⟨S1x64x64, .f32⟩
  | 56 => ⟨S64x64, .f32⟩
  | 57 => ⟨S1x64, .f32⟩
  | 58 => ⟨S64, .f32⟩
  | 59 => ⟨S1x64x64, .f32⟩
  | 60 => ⟨S64x64, .f32⟩
  | 61 => ⟨S1x64, .f32⟩
  | 62 => ⟨S64, .f32⟩
  | 63 => ⟨S1x128x64, .f32⟩
  | 64 => ⟨S128x64, .f32⟩
  | 65 => ⟨S1x64, .f32⟩
  | 66 => ⟨S64, .f32⟩
  | 67 => ⟨S1x64x64, .f32⟩
  | 68 => ⟨S64x64, .f32⟩
  | 69 => ⟨S1x64, .f32⟩
  | 70 => ⟨S64, .f32⟩
  | 71 => ⟨S600000x64, .f32⟩
  | 72 => ⟨S_, .f32⟩
  | 73 => ⟨S50000x64, .f32⟩
  | 74 => ⟨S600000x1, .i32⟩
  | 75 => ⟨S50000x64, .f32⟩
  | 76 => ⟨S1x128x64, .f32⟩
  | 77 => ⟨S128x64, .f32⟩
  | 78 => ⟨S1x64, .f32⟩
  | 79 => ⟨S64, .f32⟩
  | 80 => ⟨S1x64x64, .f32⟩
  | 81 => ⟨S64x64, .f32⟩
  | 82 => ⟨S1x64, .f32⟩
  | 83 => ⟨S64, .f32⟩
  | 84 => ⟨S50000x64, .f32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S600000x64, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000x64, .f32⟩
  | 103 => ⟨S1x64x64, .f32⟩
  | 104 => ⟨S64x64, .f32⟩
  | 105 => ⟨S1x64, .f32⟩
  | 106 => ⟨S64, .f32⟩
  | 107 => ⟨S1x64x64, .f32⟩
  | 108 => ⟨S64x64, .f32⟩
  | 109 => ⟨S1x64, .f32⟩
  | 110 => ⟨S64, .f32⟩
  | 111 => ⟨S1x128x64, .f32⟩
  | 112 => ⟨S128x64, .f32⟩
  | 113 => ⟨S1x64, .f32⟩
  | 114 => ⟨S64, .f32⟩
  | 115 => ⟨S1x64x64, .f32⟩
  | 116 => ⟨S64x64, .f32⟩
  | 117 => ⟨S1x64, .f32⟩
  | 118 => ⟨S64, .f32⟩
  | 119 => ⟨S600000x64, .f32⟩
  | 120 => ⟨S_, .f32⟩
  | 121 => ⟨S50000x64, .f32⟩
  | 122 => ⟨S600000x1, .i32⟩
  | 123 => ⟨S50000x64, .f32⟩
  | 124 => ⟨S1x128x64, .f32⟩
  | 125 => ⟨S128x64, .f32⟩
  | 126 => ⟨S1x64, .f32⟩
  | 127 => ⟨S64, .f32⟩
  | _ => ⟨S50000x2000, .f32⟩

abbrev hbmTy0_1 (i : Nat) : BufTy := match i % 128 with
  | 0 => ⟨S1x64x64, .f32⟩
  | 1 => ⟨S64x64, .f32⟩
  | 2 => ⟨S1x64, .f32⟩
  | 3 => ⟨S64, .f32⟩
  | 4 => ⟨S50000x64, .f32⟩
  | _ => ⟨S50000x2000, .f32⟩

abbrev hbmTy (i : Nat) : BufTy := match i / 128 with
  | 0 => hbmTy0_0 i
  | 1 => hbmTy0_1 i
  | _ => ⟨S50000x2000, .f32⟩

abbrev bufTy : (tb : Table) → Fin (tcTables nBuf tb) → BufTy
  | .hbm, ⟨i, _⟩ => hbmTy i
  | .local _ .vmem, ⟨0, _⟩ => ⟨S1000x2000, .f32⟩
  | .local _ .vmem, ⟨1, _⟩ => ⟨S1000x2000, .f32⟩
  | .local _ .vmem, ⟨2, _⟩ => ⟨S1000x1000, .f32⟩
  | .local _ .vmem, ⟨3, _⟩ => ⟨S1000x1000, .f32⟩
  | .local _ .vmem, ⟨4, _⟩ => ⟨S1000x200, .f32⟩
  | .local _ .vmem, ⟨5, _⟩ => ⟨S1000x200, .f32⟩
  | .local _ .vmem, ⟨6, _⟩ => ⟨S2000x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S1000x64, .f32⟩
  | .local _ .vmem, ⟨11, _⟩ => ⟨S64, .f32⟩
  | .local _ .vmem, ⟨12, _⟩ => ⟨S64x64, .f32⟩
  | .local _ .vmem, ⟨13, _⟩ => ⟨S64, .f32⟩
  | .local _ .vmem, ⟨14, _⟩ => ⟨S200x64, .f32⟩
  | .local _ .vmem, ⟨15, _⟩ => ⟨S64, .f32⟩
  | .local _ .vmem, ⟨16, _⟩ => ⟨S64x64, .f32⟩
  | .local _ .vmem, ⟨17, _⟩ => ⟨S64, .f32⟩
  | .local _ .vmem, ⟨18, _⟩ => ⟨S192x64, .f32⟩
  | .local _ .vmem, ⟨19, _⟩ => ⟨S64, .f32⟩
  | .local _ .vmem, ⟨20, _⟩ => ⟨S64x64, .f32⟩
  | .local _ .vmem, ⟨21, _⟩ => ⟨S64, .f32⟩
  | .local _ .vmem, ⟨22, _⟩ => ⟨S1000x64, .f32⟩
  | .local _ .vmem, ⟨23, _⟩ => ⟨S1000x64, .f32⟩
  | .local _ .vmem, ⟨24, _⟩ => ⟨S6000x64, .f32⟩
  | .local _ .vmem, ⟨25, _⟩ => ⟨S6000x64, .f32⟩
  | .local _ .vmem, ⟨26, _⟩ => ⟨S6000x64, .f32⟩
  | .local _ .vmem, ⟨27, _⟩ => ⟨S6000x64, .f32⟩
  | .local _ .vmem, ⟨28, _⟩ => ⟨S64x64, .f32⟩
  | .local _ .vmem, ⟨29, _⟩ => ⟨S64, .f32⟩
  | .local _ .vmem, ⟨30, _⟩ => ⟨S64x64, .f32⟩
  | .local _ .vmem, ⟨31, _⟩ => ⟨S64, .f32⟩
  | .local _ .vmem, ⟨32, _⟩ => ⟨S128x64, .f32⟩
  | .local _ .vmem, ⟨33, _⟩ => ⟨S64, .f32⟩
  | .local _ .vmem, ⟨34, _⟩ => ⟨S64x64, .f32⟩
  | .local _ .vmem, ⟨35, _⟩ => ⟨S64, .f32⟩
  | .local _ .vmem, ⟨36, _⟩ => ⟨S6000x64, .f32⟩
  | .local _ .vmem, ⟨37, _⟩ => ⟨S6000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S128x64, .f32⟩
  | .local _ .vmem, ⟨43, _⟩ => ⟨S64, .f32⟩
  | .local _ .vmem, ⟨44, _⟩ => ⟨S64x64, .f32⟩
  | .local _ .vmem, ⟨45, _⟩ => ⟨S64, .f32⟩
  | .local _ .vmem, ⟨46, _⟩ => ⟨S5000x64, .f32⟩
  | .local _ .vmem, ⟨47, _⟩ => ⟨S5000x64, .f32⟩
  | .local _ .vmem, ⟨48, _⟩ => ⟨S6000x64, .f32⟩
  | .local _ .vmem, ⟨49, _⟩ => ⟨S6000x64, .f32⟩
  | .local _ .vmem, ⟨50, _⟩ => ⟨S6000x64, .f32⟩
  | .local _ .vmem, ⟨51, _⟩ => ⟨S6000x64, .f32⟩
  | .local _ .vmem, ⟨52, _⟩ => ⟨S64x64, .f32⟩
  | .local _ .vmem, ⟨53, _⟩ => ⟨S64, .f32⟩
  | .local _ .vmem, ⟨54, _⟩ => ⟨S64x64, .f32⟩
  | .local _ .vmem, ⟨55, _⟩ => ⟨S64, .f32⟩
  | .local _ .vmem, ⟨56, _⟩ => ⟨S128x64, .f32⟩
  | .local _ .vmem, ⟨57, _⟩ => ⟨S64, .f32⟩
  | .local _ .vmem, ⟨58, _⟩ => ⟨S64x64, .f32⟩
  | .local _ .vmem, ⟨59, _⟩ => ⟨S64, .f32⟩
  | .local _ .vmem, ⟨60, _⟩ => ⟨S6000x64, .f32⟩
  | .local _ .vmem, ⟨61, _⟩ => ⟨S6000x64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S5000x64, .f32⟩
  | .local _ .vmem, ⟨66, _⟩ => ⟨S128x64, .f32⟩
  | .local _ .vmem, ⟨67, _⟩ => ⟨S64, .f32⟩
  | .local _ .vmem, ⟨68, _⟩ => ⟨S64x64, .f32⟩
  | .local _ .vmem, ⟨69, _⟩ => ⟨S64, .f32⟩
  | .local _ .vmem, ⟨70, _⟩ => ⟨S5000x64, .f32⟩
  | .local _ .vmem, ⟨71, _⟩ => ⟨S5000x64, .f32⟩
  | _, _ => ⟨S50000x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_c : Ref sig .tc := ⟨.hbm, 37, rfl⟩
abbrev main_v5 : Ref sig .tc := ⟨.hbm, 38, rfl⟩
abbrev main_v6 : Ref sig .tc := ⟨.hbm, 39, rfl⟩
abbrev main_c_0 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_c_1 : Ref sig .tc := ⟨.hbm, 46, rfl⟩
abbrev main_v12 : Ref sig .tc := ⟨.hbm, 47, rfl⟩
abbrev main_v13 : Ref sig .tc := ⟨.hbm, 48, rfl⟩
abbrev main_c_2 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_c_3 : Ref sig .tc := ⟨.hbm, 85, rfl⟩
abbrev main_v48 : Ref sig .tc := ⟨.hbm, 86, rfl⟩
abbrev main_v49 : Ref sig .tc := ⟨.hbm, 87, rfl⟩
abbrev main_c_4 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_c_5 : Ref sig .tc := ⟨.hbm, 94, rfl⟩
abbrev main_v55 : Ref sig .tc := ⟨.hbm, 95, rfl⟩
abbrev main_v56 : Ref sig .tc := ⟨.hbm, 96, rfl⟩
abbrev main_c_6 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_7 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg3_0 : Ref sig .tc := ⟨.vmem, 29, rfl⟩
abbrev cc1_stg4_0 : Ref sig .tc := ⟨.vmem, 30, rfl⟩
abbrev cc1_stg5_0 : Ref sig .tc := ⟨.vmem, 31, rfl⟩
abbrev cc1_stg6_0 : Ref sig .tc := ⟨.vmem, 32, rfl⟩
abbrev cc1_stg7_0 : Ref sig .tc := ⟨.vmem, 33, rfl⟩
abbrev cc1_stg8_0 : Ref sig .tc := ⟨.vmem, 34, rfl⟩
abbrev cc1_stg9_0 : Ref sig .tc := ⟨.vmem, 35, rfl⟩
abbrev cc1_stg10_0 : Ref sig .tc := ⟨.vmem, 36, rfl⟩
abbrev cc1_stg10_1 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg1_1 : Ref sig .tc := ⟨.vmem, 41, rfl⟩
abbrev cc2_stg2_0 : Ref sig .tc := ⟨.vmem, 42, rfl⟩
abbrev cc2_stg3_0 : Ref sig .tc := ⟨.vmem, 43, rfl⟩
abbrev cc2_stg4_0 : Ref sig .tc := ⟨.vmem, 44, rfl⟩
abbrev cc2_stg5_0 : Ref sig .tc := ⟨.vmem, 45, rfl⟩
abbrev cc2_stg6_0 : Ref sig .tc := ⟨.vmem, 46, rfl⟩
abbrev cc2_stg6_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg3_0 : Ref sig .tc := ⟨.vmem, 53, rfl⟩
abbrev cc3_stg4_0 : Ref sig .tc := ⟨.vmem, 54, rfl⟩
abbrev cc3_stg5_0 : Ref sig .tc := ⟨.vmem, 55, rfl⟩
abbrev cc3_stg6_0 : Ref sig .tc := ⟨.vmem, 56, rfl⟩
abbrev cc3_stg7_0 : Ref sig .tc := ⟨.vmem, 57, rfl⟩
abbrev cc3_stg8_0 : Ref sig .tc := ⟨.vmem, 58, rfl⟩
abbrev cc3_stg9_0 : Ref sig .tc := ⟨.vmem, 59, rfl⟩
abbrev cc3_stg10_0 : Ref sig .tc := ⟨.vmem, 60, rfl⟩
abbrev cc3_stg10_1 : Ref sig .tc := ⟨.vmem, 61, rfl⟩
abbrev cc4_stg0_0 : Ref sig .tc := ⟨.vmem, 62, rfl⟩
abbrev cc4_stg0_1 : Ref sig .tc := ⟨.vmem, 63, rfl⟩
abbrev cc4_stg1_0 : Ref sig .tc := ⟨.vmem, 64, rfl⟩
abbrev cc4_stg1_1 : Ref sig .tc := ⟨.vmem, 65, rfl⟩
abbrev cc4_stg2_0 : Ref sig .tc := ⟨.vmem, 66, rfl⟩
abbrev cc4_stg3_0 : Ref sig .tc := ⟨.vmem, 67, rfl⟩
abbrev cc4_stg4_0 : Ref sig .tc := ⟨.vmem, 68, rfl⟩
abbrev cc4_stg5_0 : Ref sig .tc := ⟨.vmem, 69, rfl⟩
abbrev cc4_stg6_0 : Ref sig .tc := ⟨.vmem, 70, rfl⟩
abbrev cc4_stg6_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem3_0 : DmaSem sig := 29
abbrev cc1_sem4_0 : DmaSem sig := 30
abbrev cc1_sem5_0 : DmaSem sig := 31
abbrev cc1_sem6_0 : DmaSem sig := 32
abbrev cc1_sem7_0 : DmaSem sig := 33
abbrev cc1_sem8_0 : DmaSem sig := 34
abbrev cc1_sem9_0 : DmaSem sig := 35
abbrev cc1_sem10_0 : DmaSem sig := 36
abbrev cc1_sem10_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem3_0 : DmaSem sig := 43
abbrev cc2_sem4_0 : DmaSem sig := 44
abbrev cc2_sem5_0 : DmaSem sig := 45
abbrev cc2_sem6_0 : DmaSem sig := 46
abbrev cc2_sem6_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem3_0 : DmaSem sig := 53
abbrev cc3_sem4_0 : DmaSem sig := 54
abbrev cc3_sem5_0 : DmaSem sig := 55
abbrev cc3_sem6_0 : DmaSem sig := 56
abbrev cc3_sem7_0 : DmaSem sig := 57
abbrev cc3_sem8_0 : DmaSem sig := 58
abbrev cc3_sem9_0 : DmaSem sig := 59
abbrev cc3_sem10_0 : DmaSem sig := 60
abbrev cc3_sem10_1 : DmaSem sig := 61
abbrev cc4_sem0_0 : DmaSem sig := 62
abbrev cc4_sem0_1 : DmaSem sig := 63
abbrev cc4_sem1_0 : DmaSem sig := 64
abbrev cc4_sem1_1 : DmaSem sig := 65
abbrev cc4_sem2_0 : DmaSem sig := 66
abbrev cc4_sem3_0 : DmaSem sig := 67
abbrev cc4_sem4_0 : DmaSem sig := 68
abbrev cc4_sem5_0 : DmaSem sig := 69
abbrev cc4_sem6_0 : DmaSem sig := 70
abbrev cc4_sem6_1 : DmaSem sig := 71

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2000x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1000x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S200x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S192x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1000x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S6000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S6000x64 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  inb_S1000x2000_S1000x2000_0_0 : ∀ a, (![0, 0] : Fin 2 → Nat) a + S1000x2000.size a ≤ S1000x2000.size a
  h_S1000x2000 : 0 < S1000x2000.numel
  inb_S2000x64_S2000x64_0_0 : ∀ a, (![0, 0] : Fin 2 → Nat) a + S2000x64.size a ≤ S2000x64.size a
  h_S2000x64 : 0 < S2000x64.numel
  inb_S64_S64_0 : ∀ a, (![0] : Fin 1 → Nat) a + S64.size a ≤ S64.size a
  h_S64 : 0 < S64.numel
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  shapeCasts_S64_S1x64 : S64.ShapeCasts S1x64
  broadcasts_S1x64_S1000x64 : S1x64.Broadcasts S1000x64
  inb_S1000x1000_S1000x1000_0_0 : ∀ a, (![0, 0] : Fin 2 → Nat) a + S1000x1000.size a ≤ S1000x1000.size a
  h_S1000x1000 : 0 < S1000x1000.numel
  inb_S1000x64_S1000x64_0_0 : ∀ a, (![0, 0] : Fin 2 → Nat) a + S1000x64.size a ≤ S1000x64.size a
  h_S1000x64 : 0 < S1000x64.numel
  inb_S1000x200_S1000x200_0_0 : ∀ a, (![0, 0] : Fin 2 → Nat) a + S1000x200.size a ≤ S1000x200.size a
  h_S1000x200 : 0 < S1000x200.numel
  inb_S200x64_S200x64_0_0 : ∀ a, (![0, 0] : Fin 2 → Nat) a + S200x64.size a ≤ S200x64.size a
  h_S200x64 : 0 < S200x64.numel
  concatenates_S1000x64_S1000x64_S1000x64_S1000x192_d1 : Shape.Concatenates [S1000x64, S1000x64, S1000x64] S1000x192 1
  inb_S192x64_S192x64_0_0 : ∀ a, (![0, 0] : Fin 2 → Nat) a + S192x64.size a ≤ S192x64.size a
  h_S192x64 : 0 < S192x64.numel
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  slices_S2x128x64_S1x128x64_0_0_0 : S2x128x64.Slices ![0, 0, 0] S1x128x64
  shapeCasts_S1x128x64_S128x64 : S1x128x64.ShapeCasts S128x64
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  shapeCasts_S64x64_S64x64 : S64x64.ShapeCasts S64x64
  shapeCasts_S64_S64 : S64.ShapeCasts S64
  broadcasts_S1x64_S6000x64 : S1x64.Broadcasts S6000x64
  concatenates_S6000x64_S6000x64_S6000x128_d1 : Shape.Concatenates [S6000x64, S6000x64] S6000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  broadcasts_S1x64_S5000x64 : S1x64.Broadcasts S5000x64
  slices_S2x64x64_S1x64x64_1_0_0 : S2x64x64.Slices ![1, 0, 0] S1x64x64
  slices_S2x64_S1x64_1_0 : S2x64.Slices ![1, 0] S1x64
  slices_S2x128x64_S1x128x64_1_0_0 : S2x128x64.Slices ![1, 0, 0] S1x128x64
  dot_S1000x2000_S2000x64_S1000x64_1_0_0_1_n_n_wf : DotDims.WF S1000x2000 S2000x64 S1000x64 [1] [0] [0] [1] [] []
  dot_S1000x64_S64x64_S1000x64_1_0_0_1_n_n_wf : DotDims.WF S1000x64 S64x64 S1000x64 [1] [0] [0] [1] [] []
  dot_S1000x1000_S1000x64_S1000x64_1_0_0_1_n_n_wf : DotDims.WF S1000x1000 S1000x64 S1000x64 [1] [0] [0] [1] [] []
  dot_S1000x200_S200x64_S1000x64_1_0_0_1_n_n_wf : DotDims.WF S1000x200 S200x64 S1000x64 [1] [0] [0] [1] [] []
  dot_S1000x192_S192x64_S1000x64_1_0_0_1_n_n_wf : DotDims.WF S1000x192 S192x64 S1000x64 [1] [0] [0] [1] [] []
  gather_S50000x64_S600000x1_S600000x64_1_0_n_n_0_1_164_wf : GatherDims.WF S50000x64 S600000x1 S600000x64 [1] [0] [] [0] [] 1 ![1, 64]
  dot_S6000x64_S64x64_S6000x64_1_0_0_1_n_n_wf : DotDims.WF S6000x64 S64x64 S6000x64 [1] [0] [0] [1] [] []
  dot_S6000x128_S128x64_S6000x64_1_0_0_1_n_n_wf : DotDims.WF S6000x128 S128x64 S6000x64 [1] [0] [0] [1] [] []
  scatter_S50000x64_S600000x1_S600000x64_1_0_0_1_wf : ScatterDims.WF S50000x64 S600000x1 S600000x64 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2000.size a ≤ S50000x2000.size a
  hwx0_0 : ∀ i : grid0.Coords, EltTy.bits .f32 = 32 ∨ (Rect.block (s := S50000x2000) S1000x2000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1000.size a ≤ S50000x1000.size a
  hwx0_1 : ∀ i : grid0.Coords, EltTy.bits .f32 = 32 ∨ (Rect.block (s := S50000x1000) S1000x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x200.size a ≤ S50000x200.size a
  hwx0_2 : ∀ i : grid0.Coords, EltTy.bits .f32 = 32 ∨ (Rect.block (s := S50000x200) S1000x200.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S2000x64.size a
  hwx0_3 : ∀ i : grid0.Coords, EltTy.bits .f32 = 32 ∨ (Rect.block (s := S2000x64) S2000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1000x64.size a ≤ S1000x64.size a
  hwx0_7 : ∀ i : grid0.Coords, EltTy.bits .f32 = 32 ∨ (Rect.block (s := S1000x64) S1000x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S200x64.size a ≤ S200x64.size a
  hwx0_11 : ∀ i : grid0.Coords, EltTy.bits .f32 = 32 ∨ (Rect.block (s := S200x64) S200x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x64.size a ≤ S64x64.size a
  hwx0_13 : ∀ i : grid0.Coords, EltTy.bits .f32 = 32 ∨ (Rect.block (s := S64x64) S64x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64.size a ≤ S64.size a
  hwx0_14 : ∀ i : grid0.Coords, EltTy.bits .f32 = 32 ∨ (Rect.block (s := S64) S64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S192x64.size a ≤ S192x64.size a
  hwx0_15 : ∀ i : grid0.Coords, EltTy.bits .f32 = 32 ∨ (Rect.block (s := S192x64) S192x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S64.size a ≤ S64.size a
  hwx0_16 : ∀ i : grid0.Coords, EltTy.bits .f32 = 32 ∨ (Rect.block (s := S64) S64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S64x64.size a ≤ S64x64.size a
  hwx0_17 : ∀ i : grid0.Coords, EltTy.bits .f32 = 32 ∨ (Rect.block (s := S64x64) S64x64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S64.size a ≤ S64.size a
  hwx0_18 : ∀ i : grid0.Coords, EltTy.bits .f32 = 32 ∨ (Rect.block (s := S64) S64.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1000x64.size a ≤ S50000x64.size a
  hwx0_19 : ∀ i : grid0.Coords, EltTy.bits .f32 = 32 ∨ (Rect.block (s := S50000x64) S1000x64.size (cc0_transform_19 i) (hinb0_19 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S600000x64.size a
  hwx1_0 : ∀ i : grid1.Coords, EltTy.bits .f32 = 32 ∨ (Rect.block (s := S600000x64) S6000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x64.size a ≤ S600000x64.size a
  hwx1_1 : ∀ i : grid1.Coords, EltTy.bits .f32 = 32 ∨ (Rect.block (s := S600000x64) S6000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x64.size a ≤ S128x64.size a
  hwx1_6 : ∀ i : grid1.Coords, EltTy.bits .f32 = 32 ∨ (Rect.block (s := S128x64) S128x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64.size a ≤ S64.size a
  hwx1_9 : ∀ i : grid1.Coords, EltTy.bits .f32 = 32 ∨ (Rect.block (s := S64) S64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S6000x64.size a ≤ S600000x64.size a
  hwx1_10 : ∀ i : grid1.Coords, EltTy.bits .f32 = 32 ∨ (Rect.block (s := S600000x64) S6000x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6000x64.size a ≤ S600000x64.size a
  hwx3_0 : ∀ i : grid3.Coords, EltTy.bits .f32 = 32 ∨ (Rect.block (s := S600000x64) S6000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6000x64.size a ≤ S600000x64.size a
  hwx3_1 : ∀ i : grid3.Coords, EltTy.bits .f32 = 32 ∨ (Rect.block (s := S600000x64) S6000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64.size a ≤ S64.size a
  hwx3_5 : ∀ i : grid3.Coords, EltTy.bits .f32 = 32 ∨ (Rect.block (s := S64) S64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x64.size a ≤ S128x64.size a
  hwx3_6 : ∀ i : grid3.Coords, EltTy.bits .f32 = 32 ∨ (Rect.block (s := S128x64) S128x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64.size a ≤ S64.size a
  hwx3_7 : ∀ i : grid3.Coords, EltTy.bits .f32 = 32 ∨ (Rect.block (s := S64) S64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x64.size a ≤ S64x64.size a
  hwx3_8 : ∀ i : grid3.Coords, EltTy.bits .f32 = 32 ∨ (Rect.block (s := S64x64) S64x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64.size a ≤ S64.size a
  hwx3_9 : ∀ i : grid3.Coords, EltTy.bits .f32 = 32 ∨ (Rect.block (s := S64) S64.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S6000x64.size a ≤ S600000x64.size a
  hwx3_10 : ∀ i : grid3.Coords, EltTy.bits .f32 = 32 ∨ (Rect.block (s := S600000x64) S6000x64.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64.size a ≤ S64.size a
  hwx4_5 : ∀ i : grid4.Coords, EltTy.bits .f32 = 32 ∨ (Rect.block (s := S64) S64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S50000x64.size a
  hwx4_6 : ∀ i : grid4.Coords, EltTy.bits .f32 = 32 ∨ (Rect.block (s := S50000x64) S5000x64.size (cc4_transform_6 i) (hinb4_6 i)).WholeWords (EltTy.packing .f32)

variable [Facts₀]

def dot_S1000x2000_S2000x64_S1000x64_1_0_0_1_n_n : DotDims S1000x2000 S2000x64 S1000x64 where
  lhsContracting := [1]
  rhsContracting := [0]
  lhsNonContracting := [0]
  rhsNonContracting := [1]
  lhsBatch := []
  rhsBatch := []
  wf := dot_S1000x2000_S2000x64_S1000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x1000_S1000x64_S1000x64_1_0_0_1_n_n : DotDims S1000x1000 S1000x64 S1000x64 where
  lhsContracting := [1]
  rhsContracting := [0]
  lhsNonContracting := [0]
  rhsNonContracting := [1]
  lhsBatch := []
  rhsBatch := []
  wf := dot_S1000x1000_S1000x64_S1000x64_1_0_0_1_n_n_wf
def dot_S1000x200_S200x64_S1000x64_1_0_0_1_n_n : DotDims S1000x200 S200x64 S1000x64 where
  lhsContracting := [1]
  rhsContracting := [0]
  lhsNonContracting := [0]
  rhsNonContracting := [1]
  lhsBatch := []
  rhsBatch := []
  wf := dot_S1000x200_S200x64_S1000x64_1_0_0_1_n_n_wf
def dot_S1000x192_S192x64_S1000x64_1_0_0_1_n_n : DotDims S1000x192 S192x64 S1000x64 where
  lhsContracting := [1]
  rhsContracting := [0]
  lhsNonContracting := [0]
  rhsNonContracting := [1]
  lhsBatch := []
  rhsBatch := []
  wf := dot_S1000x192_S192x64_S1000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def dot_S6000x64_S64x64_S6000x64_1_0_0_1_n_n : DotDims S6000x64 S64x64 S6000x64 where
  lhsContracting := [1]
  rhsContracting := [0]
  lhsNonContracting := [0]
  rhsNonContracting := [1]
  lhsBatch := []
  rhsBatch := []
  wf := dot_S6000x64_S64x64_S6000x64_1_0_0_1_n_n_wf
def dot_S6000x128_S128x64_S6000x64_1_0_0_1_n_n : DotDims S6000x128 S128x64 S6000x64 where
  lhsContracting := [1]
  rhsContracting := [0]
  lhsNonContracting := [0]
  rhsNonContracting := [1]
  lhsBatch := []
  rhsBatch := []
  wf := dot_S6000x128_S128x64_S6000x64_1_0_0_1_n_n_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S1000x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2000x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1000x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S200x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S64x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S192x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S64x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v0) S1000x64.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

abbrev win1_0 : Pipeline.Window sig grid1 :=
  Pipeline.Window.ofSpec (Memref.whole main_v11) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S6000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S128x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v32) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v34) S64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v35) S6000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v38) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v54) S6000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S6000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v63) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v71) S128x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v73) S64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v75) S64x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v77) S64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v78) S6000x64.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v81) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v83) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v85) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v89) S64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v90) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x2000 : Shape := ⟨2, ![50000, 2000]⟩
abbrev S50000x1000 : Shape := ⟨2, ![50000, 1000]⟩
abbrev S50000x200 : Shape := ⟨2, ![50000, 200]⟩
abbrev S2000x64 : Shape := ⟨2, ![2000, 64]⟩
abbrev S64 : Shape := ⟨1, ![64]⟩
abbrev S64x64 : Shape := ⟨2, ![64, 64]⟩
abbrev S1000x64 : Shape := ⟨2, ![1000, 64]⟩
abbrev S200x64 : Shape := ⟨2, ![200, 64]⟩
abbrev S192x64 : Shape := ⟨2, ![192, 64]⟩
abbrev S2x64x64 : Shape := ⟨3, ![2, 64, 64]⟩
abbrev S2x64 : Shape := ⟨2, ![2, 64]⟩
abbrev S2x128x64 : Shape := ⟨3, ![2, 128, 64]⟩
abbrev S2x600000 : Shape := ⟨2, ![2, 600000]⟩
abbrev S50000x64 : Shape := ⟨2, ![50000, 64]⟩
abbrev S1x64 : Shape := ⟨2, ![1, 64]⟩
abbrev S_ : Shape := ⟨0, ![]⟩
abbrev S50000x192 : Shape := ⟨2, ![50000, 192]⟩
abbrev S1x600000 : Shape := ⟨2, ![1, 600000]⟩
abbrev S600000 : Shape := ⟨1, ![600000]⟩
abbrev S600000x1 : Shape := ⟨2, ![600000, 1]⟩
abbrev S600000x64 : Shape := ⟨2, ![600000, 64]⟩
abbrev S1x64x64 : Shape := ⟨3, ![1, 64, 64]⟩
abbrev S600000x128 : Shape := ⟨2, ![600000, 128]⟩
abbrev S1x128x64 : Shape := ⟨3, ![1, 128, 64]⟩
abbrev S128x64 : Shape := ⟨2, ![128, 64]⟩
abbrev S50000x128 : Shape := ⟨2, ![50000, 128]⟩

abbrev nBuf : Space → Nat
  | .hbm => 255
  | .vmem => 0
  | .smem => 0
  | _ => 0

abbrev hbmTy0_0 (i : Nat) : BufTy := match i % 128 with
  | 0 => ⟨S50000x2000, .f32⟩
  | 1 => ⟨S50000x1000, .f32⟩
  | 2 => ⟨S50000x200, .f32⟩
  | 3 => ⟨S2000x64, .f32⟩
  | 4 => ⟨S64, .f32⟩
  | 5 => ⟨S64x64, .f32⟩
  | 6 => ⟨S64, .f32⟩
  | 7 => ⟨S1000x64, .f32⟩
  | 8 => ⟨S64, .f32⟩
  | 9 => ⟨S64x64, .f32⟩
  | 10 => ⟨S64, .f32⟩
  | 11 => ⟨S200x64, .f32⟩
  | 12 => ⟨S64, .f32⟩
  | 13 => ⟨S64x64, .f32⟩
  | 14 => ⟨S64, .f32⟩
  | 15 => ⟨S192x64, .f32⟩
  | 16 => ⟨S64, .f32⟩
  | 17 => ⟨S64x64, .f32⟩
  | 18 => ⟨S64, .f32⟩
  | 19 => ⟨S2x64x64, .f32⟩
  | 20 => ⟨S2x64, .f32⟩
  | 21 => ⟨S2x64x64, .f32⟩
  | 22 => ⟨S2x64, .f32⟩
  | 23 => ⟨S2x128x64, .f32⟩
  | 24 => ⟨S2x64, .f32⟩
  | 25 => ⟨S2x64x64, .f32⟩
  | 26 => ⟨S2x64, .f32⟩
  | 27 => ⟨S2x128x64, .f32⟩
  | 28 => ⟨S2x64, .f32⟩
  | 29 => ⟨S2x64x64, .f32⟩
  | 30 => ⟨S2x64, .f32⟩
  | 31 => ⟨S2x600000, .i32⟩
  | 32 => ⟨S50000x64, .f32⟩
  | 33 => ⟨S1x64, .f32⟩
  | 34 => ⟨S50000x64, .f32⟩
  | 35 => ⟨S50000x64, .f32⟩
  | 36 => ⟨S_, .f32⟩
  | 37 => ⟨S50000x64, .f32⟩
  | 38 => ⟨S50000x64, .f32⟩
  | 39 => ⟨S50000x64, .f32⟩
  | 40 => ⟨S1x64, .f32⟩
  | 41 => ⟨S50000x64, .f32⟩
  | 42 => ⟨S50000x64, .f32⟩
  | 43 => ⟨S50000x64, .f32⟩
  | 44 => ⟨S1x64, .f32⟩
  | 45 => ⟨S50000x64, .f32⟩
  | 46 => ⟨S50000x64, .f32⟩
  | 47 => ⟨S_, .f32⟩
  | 48 => ⟨S50000x64, .f32⟩
  | 49 => ⟨S50000x64, .f32⟩
  | 50 => ⟨S50000x64, .f32⟩
  | 51 => ⟨S1x64, .f32⟩
  | 52 => ⟨S50000x64, .f32⟩
  | 53 => ⟨S50000x64, .f32⟩
  | 54 => ⟨S50000x64, .f32⟩
  | 55 => ⟨S1x64, .f32⟩
  | 56 => ⟨S50000x64, .f32⟩
  | 57 => ⟨S50000x64, .f32⟩
  | 58 => ⟨S_, .f32⟩
  | 59 => ⟨S50000x64, .f32⟩
  | 60 => ⟨S50000x64, .f32⟩
  | 61 => ⟨S50000x64, .f32⟩
  | 62 => ⟨S1x64, .f32⟩
  | 63 => ⟨S50000x64, .f32⟩
  | 64 => ⟨S50000x64, .f32⟩
  | 65 => ⟨S50000x192, .f32⟩
  | 66 => ⟨S50000x64, .f32⟩
  | 67 => ⟨S1x64, .f32⟩
  | 68 => ⟨S50000x64, .f32⟩
  | 69 => ⟨S50000x64, .f32⟩
  | 70 => ⟨S_, .f32⟩
  | 71 => ⟨S50000x64, .f32⟩
  | 72 => ⟨S50000x64, .f32⟩
  | 73 => ⟨S50000x64, .f32⟩
  | 74 => ⟨S1x64, .f32⟩
  | 75 => ⟨S50000x64, .f32⟩
  | 76 => ⟨S50000x64, .f32⟩
  | 77 => ⟨S1x600000, .i32⟩
  | 78 => ⟨S600000, .i32⟩
  | 79 => ⟨S1x600000, .i32⟩
  | 80 => ⟨S600000, .i32⟩
  | 81 => ⟨S_, .i32⟩
  | 82 => ⟨S600000, .i32⟩
  | 83 => ⟨S600000, .i1⟩
  | 84 => ⟨S_, .i32⟩
  | 85 => ⟨S600000, .i32⟩
  | 86 => ⟨S600000, .i32⟩
  | 87 => ⟨S600000, .i32⟩
  | 88 => ⟨S600000x1, .i32⟩
  | 89 => ⟨S600000x64, .f32⟩
  | 90 => ⟨S1x64x64, .f32⟩
  | 91 => ⟨S64x64, .f32⟩
  | 92 => ⟨S600000x64, .f32⟩
  | 93 => ⟨S1x64, .f32⟩
  | 94 => ⟨S64, .f32⟩
  | 95 => ⟨S1x64, .f32⟩
  | 96 => ⟨S600000x64, .f32⟩
  | 97 => ⟨S600000x64, .f32⟩
  | 98 => ⟨S_, .f32⟩
  | 99 => ⟨S600000x64, .f32⟩
  | 100 => ⟨S600000x64, .f32⟩
  | 101 => ⟨S_, .i32⟩
  | 102 => ⟨S600000, .i32⟩
  | 103 => ⟨S600000, .i1⟩
  | 104 => ⟨S_, .i32⟩
  | 105 => ⟨S600000, .i32⟩
  | 106 => ⟨S600000, .i32⟩
  | 107 => ⟨S600000, .i32⟩
  | 108 => ⟨S600000x1, .i32⟩
  | 109 => ⟨S600000x64, .f32⟩
  | 110 => ⟨S1x64x64, .f32⟩
  | 111 => ⟨S64x64, .f32⟩
  | 112 => ⟨S600000x64, .f32⟩
  | 113 => ⟨S1x64, .f32⟩
  | 114 => ⟨S64, .f32⟩
  | 115 => ⟨S1x64, .f32⟩
  | 116 => ⟨S600000x64, .f32⟩
  | 117 => ⟨S600000x64, .f32⟩
  | 118 => ⟨S_, .f32⟩
  | 119 => ⟨S600000x64, .f32⟩
  | 120 => ⟨S600000x64, .f32⟩
  | 121 => ⟨S600000x128, .f32⟩
  | 122 => ⟨S1x128x64, .f32⟩
  | 123 => ⟨S128x64, .f32⟩
  | 124 => ⟨S1x64, .f32⟩
  | 125 => ⟨S64, .f32⟩
  | 126 => ⟨S1x64x64, .f32⟩
  | 127 => ⟨S64x64, .f32⟩
  | _ => ⟨S50000x2000, .f32⟩

abbrev hbmTy0_1 (i : Nat) : BufTy := match i % 128 with
  | 0 => ⟨S1x64, .f32⟩
  | 1 => ⟨S64, .f32⟩
  | 2 => ⟨S600000x64, .f32⟩
  | 3 => ⟨S1x64, .f32⟩
  | 4 => ⟨S600000x64, .f32⟩
  | 5 => ⟨S600000x64, .f32⟩
  | 6 => ⟨S_, .f32⟩
  | 7 => ⟨S600000x64, .f32⟩
  | 8 => ⟨S600000x64, .f32⟩
  | 9 => ⟨S600000x64, .f32⟩
  | 10 => ⟨S1x64, .f32⟩
  | 11 => ⟨S600000x64, .f32⟩
  | 12 => ⟨S600000x64, .f32⟩
  | 13 => ⟨S_, .f32⟩
  | 14 => ⟨S50000x64, .f32⟩
  | 15 => ⟨S600000x1, .i32⟩
  | 16 => ⟨S50000x64, .f32⟩
  | 17 => ⟨S50000x128, .f32⟩
  | 18 => ⟨S1x128x64, .f32⟩
  | 19 => ⟨S128x64, .f32⟩
  | 20 => ⟨S1x64, .f32⟩
  | 21 => ⟨S64, .f32⟩
  | 22 => ⟨S1x64x64, .f32⟩
  | 23 => ⟨S64x64, .f32⟩
  | 24 => ⟨S1x64, .f32⟩
  | 25 => ⟨S64, .f32⟩
  | 26 => ⟨S50000x64, .f32⟩
  | 27 => ⟨S1x64, .f32⟩
  | 28 => ⟨S50000x64, .f32⟩
  | 29 => ⟨S50000x64, .f32⟩
  | 30 => ⟨S_, .f32⟩
  | 31 => ⟨S50000x64, .f32⟩
  | 32 => ⟨S50000x64, .f32⟩
  | 33 => ⟨S50000x64, .f32⟩
  | 34 => ⟨S1x64, .f32⟩
  | 35 => ⟨S50000x64, .f32⟩
  | 36 => ⟨S50000x64, .f32⟩
  | 37 => ⟨S_, .f32⟩
  | 38 => ⟨S50000x64, .f32⟩
  | 39 => ⟨S50000x64, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000x64, .f32⟩
  | 49 => ⟨S1x64x64, .f32⟩
  | 50 => ⟨S64x64, .f32⟩
  | 51 => ⟨S600000x64, .f32⟩
  | 52 => ⟨S1x64, .f32⟩
  | 53 => ⟨S64, .f32⟩
  | 54 => ⟨S1x64, .f32⟩
  | 55 => ⟨S600000x64, .f32⟩
  | 56 => ⟨S600000x64, .f32⟩
  | 57 => ⟨S_, .f32⟩
  | 58 => ⟨S600000x64, .f32⟩
  | 59 => ⟨S600000x64, .f32⟩
  | 60 => ⟨S_, .i32⟩
  | 61 => ⟨S600000, .i32⟩
  | 62 => ⟨S600000, .i1⟩
  | 63 => ⟨S_, .i32⟩
  | 64 => ⟨S600000, .i32⟩
  | 65 => ⟨S600000, .i32⟩
  | 66 => ⟨S600000, .i32⟩
  | 67 => ⟨S600000x1, .i32⟩
  | 68 => ⟨S600000x64, .f32⟩
  | 69 => ⟨S1x64x64, .f32⟩
  | 70 => ⟨S64x64, .f32⟩
  | 71 => ⟨S600000x64, .f32⟩
  | 72 => ⟨S1x64, .f32⟩
  | 73 => ⟨S64, .f32⟩
  | 74 => ⟨S1x64, .f32⟩
  | 75 => ⟨S600000x64, .f32⟩
  | 76 => ⟨S600000x64, .f32⟩
  | 77 => ⟨S_, .f32⟩
  | 78 => ⟨S600000x64, .f32⟩
  | 79 => ⟨S600000x64, .f32⟩
  | 80 => ⟨S600000x128, .f32⟩
  | 81 => ⟨S1x128x64, .f32⟩
  | 82 => ⟨S128x64, .f32⟩
  | 83 => ⟨S1x64, .f32⟩
  | 84 => ⟨S64, .f32⟩
  | 85 => ⟨S1x64x64, .f32⟩
  | 86 => ⟨S64x64, .f32⟩
  | 87 => ⟨S1x64, .f32⟩
  | 88 => ⟨S64, .f32⟩
  | 89 => ⟨S600000x64, .f32⟩
  | 90 => ⟨S1x64, .f32⟩
  | 91 => ⟨S600000x64, .f32⟩
  | 92 => ⟨S600000x64, .f32⟩
  | 93 => ⟨S_, .f32⟩
  | 94 => ⟨S600000x64, .f32⟩
  | 95 => ⟨S600000x64, .f32⟩
  | 96 => ⟨S600000x64, .f32⟩
  | 97 => ⟨S1x64, .f32⟩
  | 98 => ⟨S600000x64, .f32⟩
  | 99 => ⟨S600000x64, .f32⟩
  | 100 => ⟨S_, .f32⟩
  | 101 => ⟨S50000x64, .f32⟩
  | 102 => ⟨S600000x1, .i32⟩
  | 103 => ⟨S50000x64, .f32⟩
  | 104 => ⟨S50000x128, .f32⟩
  | 105 => ⟨S1x128x64, .f32⟩
  | 106 => ⟨S128x64, .f32⟩
  | 107 => ⟨S1x64, .f32⟩
  | 108 => ⟨S64, .f32⟩
  | 109 => ⟨S1x64x64, .f32⟩
  | 110 => ⟨S64x64, .f32⟩
  | 111 => ⟨S1x64, .f32⟩
  | 112 => ⟨S64, .f32⟩
  | 113 => ⟨S50000x64, .f32⟩
  | 114 => ⟨S1x64, .f32⟩
  | 115 => ⟨S50000x64, .f32⟩
  | 116 => ⟨S50000x64, .f32⟩
  | 117 => ⟨S_, .f32⟩
  | 118 => ⟨S50000x64, .f32⟩
  | 119 => ⟨S50000x64, .f32⟩
  | 120 => ⟨S50000x64, .f32⟩
  | 121 => ⟨S1x64, .f32⟩
  | 122 => ⟨S50000x64, .f32⟩
  | 123 => ⟨S50000x64, .f32⟩
  | 124 => ⟨S_, .f32⟩
  | 125 => ⟨S50000x64, .f32⟩
  | 126 => ⟨S50000x64, .f32⟩
  | _ => ⟨S50000x2000, .f32⟩

abbrev hbmTy (i : Nat) : BufTy := match i / 128 with
  | 0 => hbmTy0_0 i
  | 1 => hbmTy0_1 i
  | _ => ⟨S50000x2000, .f32⟩

abbrev bufTy : (tb : Table) → Fin (tcTables nBuf tb) → BufTy
  | .hbm, ⟨i, _⟩ => hbmTy i
  | _, _ => ⟨S50000x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_cst : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_0 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_1 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_2 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_c : Ref sig .tc := ⟨.hbm, 81, rfl⟩
abbrev main_v45 : Ref sig .tc := ⟨.hbm, 82, rfl⟩
abbrev main_v46 : Ref sig .tc := ⟨.hbm, 83, rfl⟩
abbrev main_c_3 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_4 : Ref sig .tc := ⟨.hbm, 98, rfl⟩
abbrev main_v60 : Ref sig .tc := ⟨.hbm, 99, rfl⟩
abbrev main_v61 : Ref sig .tc := ⟨.hbm, 100, rfl⟩
abbrev main_c_5 : Ref sig .tc := ⟨.hbm, 101, rfl⟩
abbrev main_v62 : Ref sig .tc := ⟨.hbm, 102, rfl⟩
abbrev main_v63 : Ref sig .tc := ⟨.hbm, 103, rfl⟩
abbrev main_c_6 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_7 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_8 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_9 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_10 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_11 : Ref sig .tc := ⟨.hbm, 165, rfl⟩
abbrev main_v120 : Ref sig .tc := ⟨.hbm, 166, rfl⟩
abbrev main_v121 : Ref sig .tc := ⟨.hbm, 167, rfl⟩
abbrev main_c_12 : Ref sig .tc := ⟨.hbm, 168, rfl⟩
abbrev main_v122 : Ref sig .tc := ⟨.hbm, 169, rfl⟩
abbrev main_v123 : Ref sig .tc := ⟨.hbm, 170, rfl⟩
abbrev main_c_13 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_14 : Ref sig .tc := ⟨.hbm, 185, rfl⟩
abbrev main_v137 : Ref sig .tc := ⟨.hbm, 186, rfl⟩
abbrev main_v138 : Ref sig .tc := ⟨.hbm, 187, rfl⟩
abbrev main_c_15 : Ref sig .tc := ⟨.hbm, 188, rfl⟩
abbrev main_v139 : Ref sig .tc := ⟨.hbm, 189, rfl⟩
abbrev main_v140 : Ref sig .tc := ⟨.hbm, 190, rfl⟩
abbrev main_c_16 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_cst_17 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_cst_18 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_cst_19 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_cst_20 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_cst_21 : Ref sig .tc := ⟨.hbm, 252, rfl⟩
abbrev main_v197 : Ref sig .tc := ⟨.hbm, 253, rfl⟩
abbrev main_v198 : Ref sig .tc := ⟨.hbm, 254, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  concatenates_S50000x64_S50000x64_S50000x64_S50000x192_d1 : Shape.Concatenates [S50000x64, S50000x64, S50000x64] S50000x192 1
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  bcast_S1x64_S600000x64_0_1 : S1x64.BroadcastsInDim S600000x64 (![0, 1] : Fin 2 → Fin S600000x64.rank)
  bcast_S_S600000x64 : S_.BroadcastsInDim S600000x64 (![] : Fin 0 → Fin S600000x64.rank)
  concatenates_S600000x64_S600000x64_S600000x128_d1 : Shape.Concatenates [S600000x64, S600000x64] S600000x128 1
  slices_S2x128x64_S1x128x64_0_0_0 : S2x128x64.Slices ![0, 0, 0] S1x128x64
  shapeCasts_S1x128x64_S128x64 : S1x128x64.ShapeCasts S128x64
  concatenates_S50000x64_S50000x64_S50000x128_d1 : Shape.Concatenates [S50000x64, S50000x64] S50000x128 1
  slices_S2x64x64_S1x64x64_1_0_0 : S2x64x64.Slices ![1, 0, 0] S1x64x64
  slices_S2x64_S1x64_1_0 : S2x64.Slices ![1, 0] S1x64
  slices_S2x128x64_S1x128x64_1_0_0 : S2x128x64.Slices ![1, 0, 0] S1x128x64
  dot_S50000x2000_S2000x64_S50000x64_1_0_0_1_n_n_wf : DotDims.WF S50000x2000 S2000x64 S50000x64 [1] [0] [0] [1] [] []
  dot_S50000x64_S64x64_S50000x64_1_0_0_1_n_n_wf : DotDims.WF S50000x64 S64x64 S50000x64 [1] [0] [0] [1] [] []
  dot_S50000x1000_S1000x64_S50000x64_1_0_0_1_n_n_wf : DotDims.WF S50000x1000 S1000x64 S50000x64 [1] [0] [0] [1] [] []
  dot_S50000x200_S200x64_S50000x64_1_0_0_1_n_n_wf : DotDims.WF S50000x200 S200x64 S50000x64 [1] [0] [0] [1] [] []
  dot_S50000x192_S192x64_S50000x64_1_0_0_1_n_n_wf : DotDims.WF S50000x192 S192x64 S50000x64 [1] [0] [0] [1] [] []
  gather_S50000x64_S600000x1_S600000x64_1_0_n_n_0_1_164_wf : GatherDims.WF S50000x64 S600000x1 S600000x64 [1] [0] [] [0] [] 1 ![1, 64]
  dot_S600000x64_S64x64_S600000x64_1_0_0_1_n_n_wf : DotDims.WF S600000x64 S64x64 S600000x64 [1] [0] [0] [1] [] []
  dot_S600000x128_S128x64_S600000x64_1_0_0_1_n_n_wf : DotDims.WF S600000x128 S128x64 S600000x64 [1] [0] [0] [1] [] []
  scatter_S50000x64_S600000x1_S600000x64_1_0_0_1_wf : ScatterDims.WF S50000x64 S600000x1 S600000x64 [1] [0] [0] 1
  dot_S50000x128_S128x64_S50000x64_1_0_0_1_n_n_wf : DotDims.WF S50000x128 S128x64 S50000x64 [1] [0] [0] [1] [] []

variable [Facts₀]

def dot_S50000x2000_S2000x64_S50000x64_1_0_0_1_n_n : DotDims S50000x2000 S2000x64 S50000x64 where
  lhsContracting := [1]
  rhsContracting := [0]
  lhsNonContracting := [0]
  rhsNonContracting := [1]
  lhsBatch := []
  rhsBatch := []
  wf := dot_S50000x2000_S2000x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x1000_S1000x64_S50000x64_1_0_0_1_n_n : DotDims S50000x1000 S1000x64 S50000x64 where
  lhsContracting := [1]
  rhsContracting := [0]
  lhsNonContracting := [0]
  rhsNonContracting := [1]
  lhsBatch := []
  rhsBatch := []
  wf := dot_S50000x1000_S1000x64_S50000x64_1_0_0_1_n_n_wf
def dot_S50000x200_S200x64_S50000x64_1_0_0_1_n_n : DotDims S50000x200 S200x64 S50000x64 where
  lhsContracting := [1]
  rhsContracting := [0]
  lhsNonContracting := [0]
  rhsNonContracting := [1]
  lhsBatch := []
  rhsBatch := []
  wf := dot_S50000x200_S200x64_S50000x64_1_0_0_1_n_n_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def dot_S600000x64_S64x64_S600000x64_1_0_0_1_n_n : DotDims S600000x64 S64x64 S600000x64 where
  lhsContracting := [1]
  rhsContracting := [0]
  lhsNonContracting := [0]
  rhsNonContracting := [1]
  lhsBatch := []
  rhsBatch := []
  wf := dot_S600000x64_S64x64_S600000x64_1_0_0_1_n_n_wf
def dot_S600000x128_S128x64_S600000x64_1_0_0_1_n_n : DotDims S600000x128 S128x64 S600000x64 where
  lhsContracting := [1]
  rhsContracting := [0]
  lhsNonContracting := [0]
  rhsNonContracting := [1]
  lhsBatch := []
  rhsBatch := []
  wf := dot_S600000x128_S128x64_S600000x64_1_0_0_1_n_n_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The kernel program's run, with every buffer named: each weakly fair execution of the five-region program ends, nothing
  faulting, with every unscoped buffer of each core at the contents the fold through the regions and the host stretches
  gives it (`Gen.W9`). The argument arrays and the result array are read off this one statement.
-/
import proofs.«157614_j5866925326769_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.KernelIdeal.Run

end
-- ==== Proof.KHost.lean ====
/-
  The host operations between the kernel program's five regions, named once.

  Between the regions the program slices the two rows of the edge index (`srcOf`, `dstOf`), wraps negative indices and
  gathers node rows (`gat`), sums edge rows per target node from a zero array (`seg`), and slices each stacked layer
  parameter at layer 0 or 1 (`w64a`/`w64b`, `w128a`/`w128b`, `b64a`/`b64b`). For each of the four stretches: what every
  buffer a later region reads holds after the stretch, as one of these functions of the buffers before it, and that a
  buffer the stretch does not write keeps its contents. None of the operations is opened.
-/
import proofs.«157614_j5866925326769_1_alg».proof.Proof.Gen.KernelIdeal.Launch
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.ShloMosaic.StableHlo

variable {F : FTy → Type} [FloatOps F]

/-- Row 0 of the edge index: the message sources. -/
def srcOf (E : (⟨S2x600000, .i32⟩ : BufTy).Contents (Elt F)) : (⟨S600000, .i32⟩ : BufTy).Contents (Elt F) :=
  shapeCast S600000 (extractStridedSlice S1x600000 ![0, 0] E slices_S2x600000_S1x600000_0_0) shapeCasts_S1x600000_S600000
/-- Row 1 of the edge index: the message targets. -/
def dstOf (E : (⟨S2x600000, .i32⟩ : BufTy).Contents (Elt F)) : (⟨S600000, .i32⟩ : BufTy).Contents (Elt F) :=
  shapeCast S600000 (extractStridedSlice S1x600000 ![1, 0] E slices_S2x600000_S1x600000_1_0) shapeCasts_S1x600000_S600000
/-- Negative indices count from the end; the result as a column of start indices. -/
def wrapIdx (e : (⟨S600000, .i32⟩ : BufTy).Contents (Elt F)) : (⟨S600000x1, .i32⟩ : BufTy).Contents (Elt F) :=
  broadcastInDim S600000x1 ![0] bcast_S600000_S600000x1_0
    (select (cmpi .slt e (broadcastInDim S600000 ![] bcast_S_S600000 (constantI S_ 32 0#32)))
      (addi e (broadcastInDim S600000 ![] bcast_S_S600000 (constantI S_ 32 50000#32))) e)
/-- The node rows at the indices `e`. -/
def gat (e : (⟨S600000, .i32⟩ : BufTy).Contents (Elt F)) (x : (⟨S50000x64, .f32⟩ : BufTy).Contents (Elt F)) : (⟨S600000x64, .f32⟩ : BufTy).Contents (Elt F) :=
  Host.gather gather_S50000x64_S600000x1_S600000x64_1_0_n_n_0_1_164 x (wrapIdx e)
/-- The edge rows summed per target node, from zero. -/
def seg (d : (⟨S600000, .i32⟩ : BufTy).Contents (Elt F)) (u : (⟨S600000x64, .f32⟩ : BufTy).Contents (Elt F)) : (⟨S50000x64, .f32⟩ : BufTy).Contents (Elt F) :=
  Host.scatterAdd scatter_S50000x64_S600000x1_S600000x64_1_0_0_1
    (broadcastInDim S50000x64 ![] bcast_S_S50000x64 (constant S_ .f32 0x00000000#32))
    (broadcastInDim S600000x1 ![0] bcast_S600000_S600000x1_0 d) u
/-- Layer 0 of a stacked [2,64,64] parameter. -/
def w64a (W : (⟨S2x64x64, .f32⟩ : BufTy).Contents (Elt F)) : (⟨S64x64, .f32⟩ : BufTy).Contents (Elt F) :=
  shapeCast S64x64 (extractStridedSlice S1x64x64 ![0, 0, 0] W slices_S2x64x64_S1x64x64_0_0_0) shapeCasts_S1x64x64_S64x64
/-- Layer 1 of a stacked [2,64,64] parameter. -/
def w64b (W : (⟨S2x64x64, .f32⟩ : BufTy).Contents (Elt F)) : (⟨S64x64, .f32⟩ : BufTy).Contents (Elt F) :=
  shapeCast S64x64 (extractStridedSlice S1x64x64 ![1, 0, 0] W slices_S2x64x64_S1x64x64_1_0_0) shapeCasts_S1x64x64_S64x64
/-- Layer 0 of a stacked [2,128,64] parameter. -/
def w128a (W : (⟨S2x128x64, .f32⟩ : BufTy).Contents (Elt F)) : (⟨S128x64, .f32⟩ : BufTy).Contents (Elt F) :=
  shapeCast S128x64 (extractStridedSlice S1x128x64 ![0, 0, 0] W slices_S2x128x64_S1x128x64_0_0_0) shapeCasts_S1x128x64_S128x64
/-- Layer 1 of a stacked [2,128,64] parameter. -/
def w128b (W : (⟨S2x128x64, .f32⟩ : BufTy).Contents (Elt F)) : (⟨S128x64, .f32⟩ : BufTy).Contents (Elt F) :=
  shapeCast S128x64 (extractStridedSlice S1x128x64 ![1, 0, 0] W slices_S2x128x64_S1x128x64_1_0_0) shapeCasts_S1x128x64_S128x64
/-- Layer 0 of a stacked [2,64] bias. -/
def b64a (b : (⟨S2x64, .f32⟩ : BufTy).Contents (Elt F)) : (⟨S64, .f32⟩ : BufTy).Contents (Elt F) :=
  shapeCast S64 (extractStridedSlice S1x64 ![0, 0] b slices_S2x64_S1x64_0_0) shapeCasts_S1x64_S64
/-- Layer 1 of a stacked [2,64] bias. -/
def b64b (b : (⟨S2x64, .f32⟩ : BufTy).Contents (Elt F)) : (⟨S64, .f32⟩ : BufTy).Contents (Elt F) :=
  shapeCast S64 (extractStridedSlice S1x64 ![1, 0] b slices_S2x64_S1x64_1_0) shapeCasts_S1x64_S64

/-! ## Stretch 1 -/

/-- The buffers stretch 1 writes. -/
abbrev written1 : List (Ref sig .tc) := [main_v1, main_v2, main_v3, main_v4, main_c, main_v5, main_v6, main_c_0, main_v7, main_v8, main_v9, main_v10, main_v11, main_c_1, main_v12, main_v13, main_c_2, main_v14, main_v15, main_v16, main_v17, main_v18, main_v19, main_v20, main_v21, main_v22, main_v23, main_v24, main_v25, main_v26, main_v27, main_v28, main_v29, main_v30, main_v31, main_v32, main_v33, main_v34]

theorem writes1 : (hostOps1 : List (HloOp τ sig (Elt F))).Forall fun op => op.writes ⊆ (written1.map (Proc.devRef (τ := τ) .tc)).toFinset := by
  simp only [hostOps1, List.Forall, nullary_writes, unary_writes, binary_writes, ternary_writes, reshape_writes, Finset.singleton_subset_iff, List.mem_toFinset]
  repeat' apply And.intro
  all_goals exact List.mem_map_of_mem (by decide)

/-- A buffer stretch 1 does not write keeps its contents. -/
theorem keep1 (Vin : Valuation τ sig (Elt F)) (r : Ref sig .tc) (h : r ∉ written1) :
    after hostOps1 Vin (Proc.devRef .tc r) = Vin (Proc.devRef .tc r) :=
  after_of_writes_sub hostOps1 _ writes1 h

set_option maxHeartbeats 2000000 in
theorem s1_v2 (Vin : Valuation τ sig (Elt F)) :
    after hostOps1 Vin (Proc.devRef .tc main_v2) = srcOf (Vin (Proc.devRef .tc main_arg31)) := by
  simp only [hostOps1]
  after_results_simp
  rfl

set_option maxHeartbeats 2000000 in
theorem s1_v4 (Vin : Valuation τ sig (Elt F)) :
    after hostOps1 Vin (Proc.devRef .tc main_v4) = dstOf (Vin (Proc.devRef .tc main_arg31)) := by
  simp only [hostOps1]
  after_results_simp
  rfl

set_option maxHeartbeats 2000000 in
theorem s1_v11 (Vin : Valuation τ sig (Elt F)) :
    after hostOps1 Vin (Proc.devRef .tc main_v11) = gat (dstOf (Vin (Proc.devRef .tc main_arg31))) (Vin (Proc.devRef .tc main_v0)) := by
  simp only [hostOps1]
  after_results_simp
  rfl

set_option maxHeartbeats 2000000 in
theorem s1_v18 (Vin : Valuation τ sig (Elt F)) :
    after hostOps1 Vin (Proc.devRef .tc main_v18) = gat (srcOf (Vin (Proc.devRef .tc main_arg31))) (Vin (Proc.devRef .tc main_v0)) := by
  simp only [hostOps1]
  after_results_simp
  rfl

set_option maxHeartbeats 2000000 in
theorem s1_v20 (Vin : Valuation τ sig (Elt F)) :
    after hostOps1 Vin (Proc.devRef .tc main_v20) = w64a (Vin (Proc.devRef .tc main_arg19)) := by
  simp only [hostOps1]
  after_results_simp
  rfl

set_option maxHeartbeats 2000000 in
theorem s1_v22 (Vin : Valuation τ sig (Elt F)) :
    after hostOps1 Vin (Proc.devRef .tc main_v22) = b64a (Vin (Proc.devRef .tc main_arg20)) := by
  simp only [hostOps1]
  after_results_simp
  rfl

set_option maxHeartbeats 2000000 in
theorem s1_v24 (Vin : Valuation τ sig (Elt F)) :
    after hostOps1 Vin (Proc.devRef .tc main_v24) = w64a (Vin (Proc.devRef .tc main_arg21)) := by
  simp only [hostOps1]
  after_results_simp
  rfl

set_option maxHeartbeats 2000000 in
theorem s1_v26 (Vin : Valuation τ sig (Elt F)) :
    after hostOps1 Vin (Proc.devRef .tc main_v26) = b64a (Vin (Proc.devRef .tc main_arg22)) := by
  simp only [hostOps1]
  after_results_simp
  rfl

set_option maxHeartbeats 2000000 in
theorem s1_v28 (Vin : Valuation τ sig (Elt F)) :
    after hostOps1 Vin (Proc.devRef .tc main_v28) = w128a (Vin (Proc.devRef .tc main_arg23)) := by
  simp only [hostOps1]
  after_results_simp
  rfl

set_option maxHeartbeats 2000000 in
theorem s1_v30 (Vin : Valuation τ sig (Elt F)) :
    after hostOps1 Vin (Proc.devRef .tc main_v30) = b64a (Vin (Proc.devRef .tc main_arg24)) := by
  simp only [hostOps1]
  after_results_simp
  rfl

set_option maxHeartbeats 2000000 in
theorem s1_v32 (Vin : Valuation τ sig (Elt F)) :
    after hostOps1 Vin (Proc.devRef .tc main_v32) = w64a (Vin (Proc.devRef .tc main_arg25)) := by
  simp only [hostOps1]
  after_results_simp
  rfl

set_option maxHeartbeats 2000000 in
theorem s1_v34 (Vin : Valuation τ sig (Elt F)) :
    after hostOps1 Vin (Proc.devRef .tc main_v34) = b64a (Vin (Proc.devRef .tc main_arg26)) := by
  simp only [hostOps1]
  after_results_simp
  rfl

/-! ## Stretch 2 -/

/-- The buffers stretch 2 writes. -/
abbrev written2 : List (Ref sig .tc) := [main_cst, main_v36, main_v37, main_v38, main_v39, main_v40, main_v41, main_v42, main_v43, main_v44, main_v45, main_v46]

theorem writes2 : (hostOps2 : List (HloOp τ sig (Elt F))).Forall fun op => op.writes ⊆ (written2.map (Proc.devRef (τ := τ) .tc)).toFinset := by
  simp only [hostOps2, List.Forall, nullary_writes, unary_writes, binary_writes, ternary_writes, reshape_writes, Finset.singleton_subset_iff, List.mem_toFinset]
  repeat' apply And.intro
  all_goals exact List.mem_map_of_mem (by decide)

/-- A buffer stretch 2 does not write keeps its contents. -/
theorem keep2 (Vin : Valuation τ sig (Elt F)) (r : Ref sig .tc) (h : r ∉ written2) :
    after hostOps2 Vin (Proc.devRef .tc r) = Vin (Proc.devRef .tc r) :=
  after_of_writes_sub hostOps2 _ writes2 h

set_option maxHeartbeats 2000000 in
theorem s2_v38 (Vin : Valuation τ sig (Elt F)) :
    after hostOps2 Vin (Proc.devRef .tc main_v38) = seg (Vin (Proc.devRef .tc main_v4)) (Vin (Proc.devRef .tc main_v35)) := by
  simp only [hostOps2]
  after_results_simp
  rfl

set_option maxHeartbeats 2000000 in
theorem s2_v40 (Vin : Valuation τ sig (Elt F)) :
    after hostOps2 Vin (Proc.devRef .tc main_v40) = w128a (Vin (Proc.devRef .tc main_arg27)) := by
  simp only [hostOps2]
  after_results_simp
  rfl

set_option maxHeartbeats 2000000 in
theorem s2_v42 (Vin : Valuation τ sig (Elt F)) :
    after hostOps2 Vin (Proc.devRef .tc main_v42) = b64a (Vin (Proc.devRef .tc main_arg28)) := by
  simp only [hostOps2]
  after_results_simp
  rfl

set_option maxHeartbeats 2000000 in
theorem s2_v44 (Vin : Valuation τ sig (Elt F)) :
    after hostOps2 Vin (Proc.devRef .tc main_v44) = w64a (Vin (Proc.devRef .tc main_arg29)) := by
  simp only [hostOps2]
  after_results_simp
  rfl

set_option maxHeartbeats 2000000 in
theorem s2_v46 (Vin : Valuation τ sig (Elt F)) :
    after hostOps2 Vin (Proc.devRef .tc main_v46) = b64a (Vin (Proc.devRef .tc main_arg30)) := by
  simp only [hostOps2]
  after_results_simp
  rfl

/-! ## Stretch 3 -/

/-- The buffers stretch 3 writes. -/
abbrev written3 : List (Ref sig .tc) := [main_c_3, main_v48, main_v49, main_c_4, main_v50, main_v51, main_v52, main_v53, main_v54, main_c_5, main_v55, main_v56, main_c_6, main_v57, main_v58, main_v59, main_v60, main_v61, main_v62, main_v63, main_v64, main_v65, main_v66, main_v67, main_v68, main_v69, main_v70, main_v71, main_v72, main_v73, main_v74, main_v75, main_v76, main_v77]

theorem writes3 : (hostOps3 : List (HloOp τ sig (Elt F))).Forall fun op => op.writes ⊆ (written3.map (Proc.devRef (τ := τ) .tc)).toFinset := by
  simp only [hostOps3, List.Forall, nullary_writes, unary_writes, binary_writes, ternary_writes, reshape_writes, Finset.singleton_subset_iff, List.mem_toFinset]
  repeat' apply And.intro
  all_goals exact List.mem_map_of_mem (by decide)

/-- A buffer stretch 3 does not write keeps its contents. -/
theorem keep3 (Vin : Valuation τ sig (Elt F)) (r : Ref sig .tc) (h : r ∉ written3) :
    after hostOps3 Vin (Proc.devRef .tc r) = Vin (Proc.devRef .tc r) :=
  after_of_writes_sub hostOps3 _ writes3 h

set_option maxHeartbeats 2000000 in
theorem s3_v54 (Vin : Valuation τ sig (Elt F)) :
    after hostOps3 Vin (Proc.devRef .tc main_v54) = gat (Vin (Proc.devRef .tc main_v4)) (Vin (Proc.devRef .tc main_v47)) := by
  simp only [hostOps3]
  after_results_simp
  rfl

set_option maxHeartbeats 2000000 in
theorem s3_v61 (Vin : Valuation τ sig (Elt F)) :
    after hostOps3 Vin (Proc.devRef .tc main_v61) = gat (Vin (Proc.devRef .tc main_v2)) (Vin (Proc.devRef .tc main_v47)) := by
  simp only [hostOps3]
  after_results_simp
  rfl

set_option maxHeartbeats 2000000 in
theorem s3_v63 (Vin : Valuation τ sig (Elt F)) :
    after hostOps3 Vin (Proc.devRef .tc main_v63) = w64b (Vin (Proc.devRef .tc main_arg19)) := by
  simp only [hostOps3]
  after_results_simp
  rfl

set_option maxHeartbeats 2000000 in
theorem s3_v65 (Vin : Valuation τ sig (Elt F)) :
    after hostOps3 Vin (Proc.devRef .tc main_v65) = b64b (Vin (Proc.devRef .tc main_arg20)) := by
  simp only [hostOps3]
  after_results_simp
  rfl

set_option maxHeartbeats 2000000 in
theorem s3_v67 (Vin : Valuation τ sig (Elt F)) :
    after hostOps3 Vin (Proc.devRef .tc main_v67) = w64b (Vin (Proc.devRef .tc main_arg21)) := by
  simp only [hostOps3]
  after_results_simp
  rfl

set_option maxHeartbeats 2000000 in
theorem s3_v69 (Vin : Valuation τ sig (Elt F)) :
    after hostOps3 Vin (Proc.devRef .tc main_v69) = b64b (Vin (Proc.devRef .tc main_arg22)) := by
  simp only [hostOps3]
  after_results_simp
  rfl

set_option maxHeartbeats 2000000 in
theorem s3_v71 (Vin : Valuation τ sig (Elt F)) :
    after hostOps3 Vin (Proc.devRef .tc main_v71) = w128b (Vin (Proc.devRef .tc main_arg23)) := by
  simp only [hostOps3]
  after_results_simp
  rfl

set_option maxHeartbeats 2000000 in
theorem s3_v73 (Vin : Valuation τ sig (Elt F)) :
    after hostOps3 Vin (Proc.devRef .tc main_v73) = b64b (Vin (Proc.devRef .tc main_arg24)) := by
  simp only [hostOps3]
  after_results_simp
  rfl

set_option maxHeartbeats 2000000 in
theorem s3_v75 (Vin : Valuation τ sig (Elt F)) :
    after hostOps3 Vin (Proc.devRef .tc main_v75) = w64b (Vin (Proc.devRef .tc main_arg25)) := by
  simp only [hostOps3]
  after_results_simp
  rfl

set_option maxHeartbeats 2000000 in
theorem s3_v77 (Vin : Valuation τ sig (Elt F)) :
    after hostOps3 Vin (Proc.devRef .tc main_v77) = b64b (Vin (Proc.devRef .tc main_arg26)) := by
  simp only [hostOps3]
  after_results_simp
  rfl

/-! ## Stretch 4 -/

/-- The buffers stretch 4 writes. -/
abbrev written4 : List (Ref sig .tc) := [main_cst_7, main_v79, main_v80, main_v81, main_v82, main_v83, main_v84, main_v85, main_v86, main_v87, main_v88, main_v89]

theorem writes4 : (hostOps4 : List (HloOp τ sig (Elt F))).Forall fun op => op.writes ⊆ (written4.map (Proc.devRef (τ := τ) .tc)).toFinset := by
  simp only [hostOps4, List.Forall, nullary_writes, unary_writes, binary_writes, ternary_writes, reshape_writes, Finset.singleton_subset_iff, List.mem_toFinset]
  repeat' apply And.intro
  all_goals exact List.mem_map_of_mem (by decide)

/-- A buffer stretch 4 does not write keeps its contents. -/
theorem keep4 (Vin : Valuation τ sig (Elt F)) (r : Ref sig .tc) (h : r ∉ written4) :
    after hostOps4 Vin (Proc.devRef .tc r) = Vin (Proc.devRef .tc r) :=
  after_of_writes_sub hostOps4 _ writes4 h

set_option maxHeartbeats 2000000 in
theorem s4_v81 (Vin : Valuation τ sig (Elt F)) :
    after hostOps4 Vin (Proc.devRef .tc main_v81) = seg (Vin (Proc.devRef .tc main_v4)) (Vin (Proc.devRef .tc main_v78)) := by
  simp only [hostOps4]
  after_results_simp
  rfl

set_option maxHeartbeats 2000000 in
theorem s4_v83 (Vin : Valuation τ sig (Elt F)) :
    after hostOps4 Vin (Proc.devRef .tc main_v83) = w128b (Vin (Proc.devRef .tc main_arg27)) := by
  simp only [hostOps4]
  after_results_simp
  rfl

set_option maxHeartbeats 2000000 in
theorem s4_v85 (Vin : Valuation τ sig (Elt F)) :
    after hostOps4 Vin (Proc.devRef .tc main_v85) = b64b (Vin (Proc.devRef .tc main_arg28)) := by
  simp only [hostOps4]
  after_results_simp
  rfl

set_option maxHeartbeats 2000000 in
theorem s4_v87 (Vin : Valuation τ sig (Elt F)) :
    after hostOps4 Vin (Proc.devRef .tc main_v87) = w64b (Vin (Proc.devRef .tc main_arg29)) := by
  simp only [hostOps4]
  after_results_simp
  rfl

set_option maxHeartbeats 2000000 in
theorem s4_v89 (Vin : Valuation τ sig (Elt F)) :
    after hostOps4 Vin (Proc.devRef .tc main_v89) = b64b (Vin (Proc.devRef .tc main_arg30)) := by
  simp only [hostOps4]
  after_results_simp
  rfl

end Cert.KernelIdeal.Glue

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibConcatPair.lean ====
/-
  A concatenation of two arrays read at an entry, by coordinates.

  Two arrays of rank 2 stacked along the rows (axis 0) or side by side along the columns (axis 1), and two arrays of
  rank 1 joined end to end: an entry of the result whose coordinate on the joined axis lies below the first piece's
  extent is the first piece's entry at the same coordinates; past it, the second piece's entry with the first
  extent subtracted on that axis. The statements name the entry by its coordinates, so that a value proof meets no
  case analysis on the axis; the result's extent on the joined axis is any `c` for which the shapes concatenate.
-/
import Idealize.ShloMosaic.Lib.Pipeline.Value
import Idealize.ShloMosaic.Lib.ValueIdx

noncomputable section

namespace Idealize.ShloMosaic.ConcatPair

open Idealize.ShloMosaic Idealize.ShloMosaic.ValueIdx

variable {α : Type} {a b c n : Nat}

/-- Stacked rows, an entry in the upper piece. -/
theorem rows_fst (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin a) (q : Fin n) (hr : r.val < c) :
    concatenate ⟨2, ![c, n]⟩ (0 : Fin 2) [⟨⟨2, ![a, n]⟩, x₁⟩, ⟨⟨2, ![b, n]⟩, x₂⟩] h (ix2 ⟨r.val, hr⟩ q) = x₁ (ix2 r q) :=
  concatenate_pair_apply_left (t := ⟨2, ![c, n]⟩) (s₁ := ⟨2, ![a, n]⟩) (s₂ := ⟨2, ![b, n]⟩) (0 : Fin 2) x₁ x₂ h
    (ix2 ⟨r.val, hr⟩ q) rfl (ix2 r q) (fun d => match d with | ⟨0, _⟩ => rfl | ⟨1, _⟩ => rfl)

/-- Stacked rows, an entry in the lower piece. -/
theorem rows_snd (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin b) (q : Fin n) (hr : a + r.val < c) :
    concatenate ⟨2, ![c, n]⟩ (0 : Fin 2) [⟨⟨2, ![a, n]⟩, x₁⟩, ⟨⟨2, ![b, n]⟩, x₂⟩] h (ix2 ⟨a + r.val, hr⟩ q) = x₂ (ix2 r q) :=
  concatenate_pair_apply_right (t := ⟨2, ![c, n]⟩) (s₁ := ⟨2, ![a, n]⟩) (s₂ := ⟨2, ![b, n]⟩) (0 : Fin 2) x₁ x₂ h
    (ix2 ⟨a + r.val, hr⟩ q) rfl rfl (ix2 r q)
    (fun d hd => match d, hd with | ⟨0, _⟩, hd => absurd rfl hd | ⟨1, _⟩, _ => rfl)
    (Nat.add_comm r.val a)

/-- Side by side, an entry in the left piece. -/
theorem cols_fst (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin a) (hq : q.val < c) :
    concatenate ⟨2, ![n, c]⟩ (1 : Fin 2) [⟨⟨2, ![n, a]⟩, x₁⟩, ⟨⟨2, ![n, b]⟩, x₂⟩] h (ix2 r ⟨q.val, hq⟩) = x₁ (ix2 r q) :=
  concatenate_pair_apply_left (t := ⟨2, ![n, c]⟩) (s₁ := ⟨2, ![n, a]⟩) (s₂ := ⟨2, ![n, b]⟩) (1 : Fin 2) x₁ x₂ h
    (ix2 r ⟨q.val, hq⟩) rfl (ix2 r q) (fun d => match d with | ⟨0, _⟩ => rfl | ⟨1, _⟩ => rfl)

/-- Side by side, an entry in the right piece. -/
theorem cols_snd (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin b) (hq : a + q.val < c) :
    concatenate ⟨2, ![n, c]⟩ (1 : Fin 2) [⟨⟨2, ![n, a]⟩, x₁⟩, ⟨⟨2, ![n, b]⟩, x₂⟩] h (ix2 r ⟨a + q.val, hq⟩) = x₂ (ix2 r q) :=
  concatenate_pair_apply_right (t := ⟨2, ![n, c]⟩) (s₁ := ⟨2, ![n, a]⟩) (s₂ := ⟨2, ![n, b]⟩) (1 : Fin 2) x₁ x₂ h
    (ix2 r ⟨a + q.val, hq⟩) rfl rfl (ix2 r q)
    (fun d hd => match d, hd with | ⟨0, _⟩, _ => rfl | ⟨1, _⟩, hd => absurd rfl hd)
    (Nat.add_comm q.val a)

/-- End to end, an entry in the first piece. -/
theorem vec_fst (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin a) (hq : q.val < c) :
    concatenate ⟨1, ![c]⟩ (0 : Fin 1) [⟨⟨1, ![a]⟩, x₁⟩, ⟨⟨1, ![b]⟩, x₂⟩] h (ix1 ⟨q.val, hq⟩) = x₁ (ix1 q) :=
  concatenate_pair_apply_left (t := ⟨1, ![c]⟩) (s₁ := ⟨1, ![a]⟩) (s₂ := ⟨1, ![b]⟩) (0 : Fin 1) x₁ x₂ h
    (ix1 ⟨q.val, hq⟩) rfl (ix1 q) (fun d => match d with | ⟨0, _⟩ => rfl)

/-- End to end, an entry in the second piece. -/
theorem vec_snd (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin b) (hq : a + q.val < c) :
    concatenate ⟨1, ![c]⟩ (0 : Fin 1) [⟨⟨1, ![a]⟩, x₁⟩, ⟨⟨1, ![b]⟩, x₂⟩] h (ix1 ⟨a + q.val, hq⟩) = x₂ (ix1 q) :=
  concatenate_pair_apply_right (t := ⟨1, ![c]⟩) (s₁ := ⟨1, ![a]⟩) (s₂ := ⟨1, ![b]⟩) (0 : Fin 1) x₁ x₂ h
    (ix1 ⟨a + q.val, hq⟩) rfl rfl (ix1 q)
    (fun d hd => match d, hd with | ⟨0, _⟩, hd => absurd rfl hd)
    (Nat.add_comm q.val a)

end Idealize.ShloMosaic.ConcatPair

end
-- ==== Proof.LibDense.lean ====
/-
  GENERAL LEMMAS: an affine layer of a multi-layer perceptron, read one output at a time on the extended reals.

  Row `p` of a product of an M×K matrix with a K×N matrix, plus a bias row, depends on row `p` of the left matrix only:
  output `c` is `∑ k, x k · w k c + b c` (`lin`). The positive part (`relu`) and the joining of two rows end to end
  (`cat`) are pointwise in the row as well. The lemmas below read the two spellings of such a layer at an entry
  `(p, c)`: the vector program's (a product into the zero accumulator, the bias a `[1, N]` row broadcast down the rows,
  the positive part against a splat zero) and the host's (a `dot_general`, the bias an `[N]` array broadcast twice,
  the positive part against a broadcast scalar zero). Changes of float format are the identity on the extended reals.
  Also here: two blocks joined side by side read at an entry (`concat_cols_apply`), an `[N]` row broadcast over the rows
  (`rowBias_apply`) and an `[A]` column broadcast over the columns (`colBcast_apply`), each a double `broadcast_in_dim`.
-/
import Idealize.ShloMosaic.PureOps.Ideal.Laws
import Idealize.ShloMosaic.Lib.ValueIdx
import Idealize.ShloMosaic.Lib.ValueLayout
import Idealize.ShloMosaic.Lib.Pipeline.Value
import proofs.«157614_j5866925326769_1_alg».proof.Proof.LibPlainDot
import proofs.«157614_j5866925326769_1_alg».proof.Proof.LibConcatPair

noncomputable section

open scoped BigOperators

namespace Idealize.ShloMosaic.Dense

open Idealize.ShloMosaic Idealize.ShloMosaic.ValueIdx

/-- One output of an affine map: the row `x` against column `c` of `w`, plus the bias at `c`. -/
def lin {K N : Nat} (x : Fin K → EReal) (w : Fin K → Fin N → EReal) (b : Fin N → EReal) (c : Fin N) : EReal :=
  (∑ k : Fin K, x k * w k c) + b c

/-- The positive part, against the zero word (the same word on both sides: never evaluated). -/
def relu (v : EReal) : EReal := max v (Ideal.ofBits .f32 0x00000000#32)

/-- Two rows of lengths `a` and `b` joined end to end. -/
def cat {a b c : Nat} (hc : c = a + b) (u : Fin a → EReal) (v : Fin b → EReal) (j : Fin c) : EReal :=
  if h : j.val < a then u ⟨j.val, h⟩ else v ⟨j.val - a, by have := j.isLt; omega⟩

variable {M K N : Nat}

/-- Two blocks side by side, read at `(r, j)`: row `r` of the first joined with row `r` of the second. -/
theorem concat_cols_apply {n a b c : Nat} (hc : c = a + b) (x₁ : (⟨2, ![n, a]⟩ : Shape).Idx → EReal) (x₂ : (⟨2, ![n, b]⟩ : Shape).Idx → EReal)
    (h : Shape.Concatenates [(⟨2, ![n, a]⟩ : Shape), ⟨2, ![n, b]⟩] ⟨2, ![n, c]⟩ (1 : Fin 2)) (r : Fin n) (j : Fin c) :
    concatenate ⟨2, ![n, c]⟩ (1 : Fin 2) [⟨⟨2, ![n, a]⟩, x₁⟩, ⟨⟨2, ![n, b]⟩, x₂⟩] h (ix2 r j)
      = cat hc (fun q => x₁ (ix2 r q)) (fun q => x₂ (ix2 r q)) j := by
  unfold cat
  split
  · rename_i hlt
    exact ConcatPair.cols_fst x₁ x₂ h r ⟨j.val, hlt⟩ j.isLt
  · rename_i hge
    have hj := j.isLt
    have hlt : a + (j.val - a) < c := by omega
    have e : j = ⟨a + (j.val - a), hlt⟩ := Fin.ext (by show j.val = a + (j.val - a); omega)
    refine (congrArg (fun q => concatenate ⟨2, ![n, c]⟩ (1 : Fin 2) [⟨⟨2, ![n, a]⟩, x₁⟩, ⟨⟨2, ![n, b]⟩, x₂⟩] h (ix2 r q)) e).trans ?_
    exact ConcatPair.cols_snd x₁ x₂ h r ⟨j.val - a, by omega⟩ hlt

/-! ## The vector program's spelling -/

/-- A product into the zero accumulator plus a `[1, N]` bias row broadcast down the rows. -/
theorem matmul_bias_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨2, ![1, N]⟩ .f32)
    (hb : (⟨2, ![1, N]⟩ : Shape).Broadcasts ⟨2, ![M, N]⟩) (p : Fin M) (c : Fin N) :
    addf (matmul D none l r (constant (F := Ideal) ⟨2, ![M, N]⟩ .f32 0x00000000#32)) (broadcastTo ⟨2, ![M, N]⟩ b hb) (ix2 p c)
      = lin (fun k => l (ix2 p k)) (fun k n => r (ix2 k n)) (fun n => b (ix2 (0 : Fin 1) n)) c := by
  rw [addf_apply, PlainDot.matmul_zero_apply D hD none l r (ix2 p c), broadcastTo_1b_ab_apply b hb p c]
  rfl

/-- The same followed by the positive part against a splat zero. -/
theorem matmul_bias_relu_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨2, ![1, N]⟩ .f32)
    (hb : (⟨2, ![1, N]⟩ : Shape).Broadcasts ⟨2, ![M, N]⟩) (p : Fin M) (c : Fin N) :
    maximumf (addf (matmul D none l r (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 p c)
      = relu (lin (fun k => l (ix2 p k)) (fun k n => r (ix2 k n)) (fun n => b (ix2 (0 : Fin 1) n)) c) := by
  rw [maximumf_apply, matmul_bias_apply D hD l r b hb p c]
  rfl

/-! ## The host's spelling -/

/-- An `[N]` bias broadcast to a `[1, N]` row and then down `M` rows reads, at `(p, c)`, the bias at `c`. -/
theorem rowBias_apply {α : Type} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (c : Fin N) :
    broadcastInDim ⟨2, ![M, N]⟩ ![0, 1] h2 (broadcastInDim ⟨2, ![1, N]⟩ ![1] h1 b) (ix2 p c) = b (ix1 c) := by
  refine (broadcastInDim_apply _ h2 _ (ix2 p c) (ix2 (0 : Fin 1) c) fun a => ?_).trans
    (broadcastInDim_apply _ h1 b (ix2 (0 : Fin 1) c) (ix1 c) fun a => ?_)
  · match a with
    | ⟨0, _⟩ => show 0 = if (1 : Nat) = 1 then 0 else p.val; rw [if_pos rfl]
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A column `[A]` broadcast to `[A, 1]` and then over `B` columns reads, at `(e, q)`, the column at `e`. -/
theorem colBcast_apply {α : Type} {A B : Nat} (w : (⟨1, ![A]⟩ : Shape).Idx → α)
    (h1 : (⟨1, ![A]⟩ : Shape).BroadcastsInDim ⟨2, ![A, 1]⟩ ![0]) (h2 : (⟨2, ![A, 1]⟩ : Shape).BroadcastsInDim ⟨2, ![A, B]⟩ ![0, 1])
    (e : Fin A) (q : Fin B) :
    broadcastInDim ⟨2, ![A, B]⟩ ![0, 1] h2 (broadcastInDim ⟨2, ![A, 1]⟩ ![0] h1 w) (ix2 e q) = w (ix1 e) := by
  refine (broadcastInDim_apply _ h2 _ (ix2 e q) (ix2 e (0 : Fin 1)) fun a => ?_).trans
    (broadcastInDim_apply _ h1 w (ix2 e (0 : Fin 1)) (ix1 e) fun a => ?_)
  · match a with
    | ⟨0, _⟩ =>
      show e.val = if A = 1 then 0 else e.val
      split
      · have := e.isLt; omega
      · rfl
    | ⟨1, _⟩ => show 0 = if (1 : Nat) = 1 then 0 else q.val; rw [if_pos rfl]
  · match a with
    | ⟨0, _⟩ =>
      show e.val = if A = 1 then 0 else e.val
      split
      · have := e.isLt; omega
      · rfl

/-- A `dot_general` plus an `[N]` bias broadcast over the rows. -/
theorem hostDot_bias_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (c : Fin N) :
    addf (Host.dotGeneral D none l r) (broadcastInDim ⟨2, ![M, N]⟩ ![0, 1] h2 (broadcastInDim ⟨2, ![1, N]⟩ ![1] h1 b)) (ix2 p c)
      = lin (fun k => l (ix2 p k)) (fun k n => r (ix2 k n)) (fun n => b (ix1 n)) c := by
  rw [addf_apply, PlainDot.hostDot_apply D hD none l r (ix2 p c), rowBias_apply b h1 h2 p c]
  rfl

/-- The same followed by the positive part against a broadcast scalar zero. -/
theorem hostDot_bias_relu_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (h0 : (⟨0, ![]⟩ : Shape).BroadcastsInDim ⟨2, ![M, N]⟩ ![]) (p : Fin M) (c : Fin N) :
    maximumf (addf (Host.dotGeneral D none l r) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 p c)
      = relu (lin (fun k => l (ix2 p k)) (fun k n => r (ix2 k n)) (fun n => b (ix1 n)) c) := by
  rw [maximumf_apply, hostDot_bias_apply D hD l r b h1 h2 p c,
    broadcastInDim_apply _ h0 _ (ix2 p c) ix0 (fun a => a.elim0)]
  rfl

end Idealize.ShloMosaic.Dense

end
-- ==== Proof.Spec.lean ====
/-
  The network both programs compute, one node or one edge at a time, on the extended reals.

  Every layer here acts on a ROW: an affine map (`Dense.lin`), the positive part (`Dense.relu`), rows joined end to end.
  * `mlp`     : Linear, ReLU, Linear — `y_c = ∑_h relu(∑_k x_k·W1[k,h] + b1[h])·W2[h,c] + b2[c]`.
  * `encRow`  : a node's three modality encoders, their outputs joined (64+64+64) and integrated by a fourth `mlp`.
  * `edgeRow` : an edge's message — the two endpoint projections `relu(x_i·Wpi + bpi)`, `relu(x_j·Wpj + bpj)` joined (64+64)
                 and passed through the message `mlp`.
  * `updRow`  : a node's update — the aggregated messages joined with the node's state, an `mlp`, then the positive part.
  The array forms `Enc`, `Edge`, `Upd` apply the row function to every row of their row-aligned operands; `Layer` is one
  round of message passing with the row gathers and the segment sum left as parameters (both programs spell them with the
  same host operations, which are never opened), and `Net` is the encoder followed by two rounds.
-/
import proofs.«157614_j5866925326769_1_alg».proof.Proof.LibDense

noncomputable section

namespace Cert.Gnn

open Idealize.ShloMosaic Idealize.ShloMosaic.ValueIdx Idealize.ShloMosaic.Dense

/-- A matrix of extended reals with `a` rows and `b` columns. -/
abbrev Mat (a b : Nat) := (⟨2, ![a, b]⟩ : Shape).Idx → EReal
/-- A one-axis array of extended reals of length `a`. -/
abbrev Arr (a : Nat) := (⟨1, ![a]⟩ : Shape).Idx → EReal

/-- A weight matrix by coordinates. -/
def wt {K N : Nat} (W : Mat K N) : Fin K → Fin N → EReal := fun k n => W (ix2 k n)
/-- A bias by coordinate. -/
def bs {N : Nat} (b : Arr N) : Fin N → EReal := fun n => b (ix1 n)
/-- Row `r` of a matrix. -/
def rowOf {n a : Nat} (x : Mat n a) (r : Fin n) : Fin a → EReal := fun k => x (ix2 r k)

/-- Linear, ReLU, Linear on one row. -/
def mlp {K : Nat} (x : Fin K → EReal) (W1 : Mat K 64) (b1 : Arr 64) (W2 : Mat 64 64) (b2 : Arr 64) : Fin 64 → EReal :=
  fun c => lin (fun h => relu (lin x (wt W1) (bs b1) h)) (wt W2) (bs b2) c

/-- Three rows of length 64 joined end to end. -/
def cat3 (u v w : Fin 64 → EReal) (j : Fin 192) : EReal :=
  if h1 : j.val < 64 then u ⟨j.val, h1⟩
  else if h2 : j.val < 64 + 64 then v ⟨j.val - 64, by have := j.isLt; omega⟩
  else w ⟨j.val - (64 + 64), by have := j.isLt; omega⟩

/-- A node's encoding: the three modality encoders joined and integrated. -/
def encRow (rna : Fin 2000 → EReal) (atac : Fin 1000 → EReal) (prot : Fin 200 → EReal)
    (rW1 : Mat 2000 64) (rb1 : Arr 64) (rW2 : Mat 64 64) (rb2 : Arr 64)
    (aW1 : Mat 1000 64) (ab1 : Arr 64) (aW2 : Mat 64 64) (ab2 : Arr 64)
    (pW1 : Mat 200 64) (pb1 : Arr 64) (pW2 : Mat 64 64) (pb2 : Arr 64)
    (iW1 : Mat 192 64) (ib1 : Arr 64) (iW2 : Mat 64 64) (ib2 : Arr 64) : Fin 64 → EReal :=
  mlp (cat3 (mlp rna rW1 rb1 rW2 rb2) (mlp atac aW1 ab1 aW2 ab2) (mlp prot pW1 pb1 pW2 pb2)) iW1 ib1 iW2 ib2

/-- An edge's message from its two endpoint rows. -/
def edgeRow (xi xj : Fin 64 → EReal) (Wpi : Mat 64 64) (bpi : Arr 64) (Wpj : Mat 64 64) (bpj : Arr 64)
    (Wm1 : Mat 128 64) (bm1 : Arr 64) (Wm2 : Mat 64 64) (bm2 : Arr 64) : Fin 64 → EReal :=
  mlp (cat (c := 128) rfl (fun h => relu (lin xi (wt Wpi) (bs bpi) h)) (fun h => relu (lin xj (wt Wpj) (bs bpj) h)))
    Wm1 bm1 Wm2 bm2

/-- A node's update from its aggregated messages and its state. -/
def updRow (ag x : Fin 64 → EReal) (Wu1 : Mat 128 64) (bu1 : Arr 64) (Wu2 : Mat 64 64) (bu2 : Arr 64) : Fin 64 → EReal :=
  fun c => relu (mlp (cat (c := 128) rfl ag x) Wu1 bu1 Wu2 bu2 c)

/-- The encoder on every node. -/
def Enc {n : Nat} (rna : Mat n 2000) (atac : Mat n 1000) (prot : Mat n 200)
    (rW1 : Mat 2000 64) (rb1 : Arr 64) (rW2 : Mat 64 64) (rb2 : Arr 64)
    (aW1 : Mat 1000 64) (ab1 : Arr 64) (aW2 : Mat 64 64) (ab2 : Arr 64)
    (pW1 : Mat 200 64) (pb1 : Arr 64) (pW2 : Mat 64 64) (pb2 : Arr 64)
    (iW1 : Mat 192 64) (ib1 : Arr 64) (iW2 : Mat 64 64) (ib2 : Arr 64) : Mat n 64 :=
  fun i => encRow (rowOf rna (i 0)) (rowOf atac (i 0)) (rowOf prot (i 0))
    rW1 rb1 rW2 rb2 aW1 ab1 aW2 ab2 pW1 pb1 pW2 pb2 iW1 ib1 iW2 ib2 (i 1)

/-- The message on every edge, from the gathered endpoint rows. -/
def Edge {n : Nat} (xi xj : Mat n 64) (Wpi : Mat 64 64) (bpi : Arr 64) (Wpj : Mat 64 64) (bpj : Arr 64)
    (Wm1 : Mat 128 64) (bm1 : Arr 64) (Wm2 : Mat 64 64) (bm2 : Arr 64) : Mat n 64 :=
  fun i => edgeRow (rowOf xi (i 0)) (rowOf xj (i 0)) Wpi bpi Wpj bpj Wm1 bm1 Wm2 bm2 (i 1)

/-- The update on every node. -/
def Upd {n : Nat} (ag x : Mat n 64) (Wu1 : Mat 128 64) (bu1 : Arr 64) (Wu2 : Mat 64 64) (bu2 : Arr 64) : Mat n 64 :=
  fun i => updRow (rowOf ag (i 0)) (rowOf x (i 0)) Wu1 bu1 Wu2 bu2 (i 1)

/-- One round of message passing: gather the target and source rows (`gi`, `gj`), compute every edge's message, sum the
    messages per target node (`seg`), update every node. -/
def Layer {N E : Nat} (gi gj : Mat N 64 → Mat E 64) (seg : Mat E 64 → Mat N 64) (x : Mat N 64)
    (Wpi : Mat 64 64) (bpi : Arr 64) (Wpj : Mat 64 64) (bpj : Arr 64)
    (Wm1 : Mat 128 64) (bm1 : Arr 64) (Wm2 : Mat 64 64) (bm2 : Arr 64)
    (Wu1 : Mat 128 64) (bu1 : Arr 64) (Wu2 : Mat 64 64) (bu2 : Arr 64) : Mat N 64 :=
  Upd (seg (Edge (gi x) (gj x) Wpi bpi Wpj bpj Wm1 bm1 Wm2 bm2)) x Wu1 bu1 Wu2 bu2

end Cert.Gnn

end
-- ==== Proof.LibBiasRow.lean ====
/-
  GENERAL LEMMAS: an affine layer whose bias is a one-axis array, read one output at a time on the extended reals.

  The vector program keeps a bias as an `[N]` array, recasts it as a `[1, N]` row and broadcasts the row down the rows
  of the product. Recasting changes no entry: the row at `(0, n)` is the array at `n`. So the layer at entry `(p, c)` is
  `∑ k, x k · w k c + b c` with `x` row `p` of the left matrix, as for a `[1, N]` bias (`Dense.matmul_bias_apply`).
  Also here: the positive part against a splat zero at an entry, and the fact that an affine map and a joined row depend
  on their rows only through the rows' entries (`lin_congr`, `cat_congr`), which lets a layer be read from the inside out.
-/
import proofs.«157614_j5866925326769_1_alg».proof.Proof.LibDense

noncomputable section

namespace Idealize.ShloMosaic.Dense

open Idealize.ShloMosaic Idealize.ShloMosaic.ValueIdx

variable {M K N : Nat}

/-- An `[N]` array recast as a `[1, N]` row reads, at `(0, n)`, the array at `n`. -/
theorem shapeCast_row_apply {α : Type} (b : (⟨1, ![N]⟩ : Shape).Idx → α)
    (h : (⟨1, ![N]⟩ : Shape).ShapeCasts ⟨2, ![1, N]⟩) (n : Fin N) :
    shapeCast ⟨2, ![1, N]⟩ b h (ix2 (0 : Fin 1) n) = b (ix1 n) := by
  refine (shapeCast_addUnit_apply ![N] b h (ix2 (0 : Fin 1) n)).trans (congrArg b ?_)
  funext a
  match a with
  | ⟨0, _⟩ => rfl

/-- A product into the zero accumulator plus an `[N]` bias recast as a row and broadcast down the rows. -/
theorem matmul_arrBias_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (c : Fin N) :
    addf (matmul D none l r (constant (F := Ideal) ⟨2, ![M, N]⟩ .f32 0x00000000#32))
        (broadcastTo ⟨2, ![M, N]⟩ (shapeCast ⟨2, ![1, N]⟩ b hc) hb) (ix2 p c)
      = lin (fun k => l (ix2 p k)) (fun k n => r (ix2 k n)) (fun n => b (ix1 n)) c := by
  refine (matmul_bias_apply D hD l r (shapeCast ⟨2, ![1, N]⟩ b hc) hb p c).trans ?_
  exact congrArg (fun f => lin (fun k => l (ix2 p k)) (fun k n => r (ix2 k n)) f c)
    (funext fun n => shapeCast_row_apply b hc n)

/-- The same followed by the positive part against a splat zero. -/
theorem matmul_arrBias_relu_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (c : Fin N) :
    maximumf (addf (matmul D none l r (constant (F := Ideal) ⟨2, ![M, N]⟩ .f32 0x00000000#32))
          (broadcastTo ⟨2, ![M, N]⟩ (shapeCast ⟨2, ![1, N]⟩ b hc) hb))
        (broadcast ⟨2, ![M, N]⟩ (Scalar.ofBits (F := Ideal) .f32 0x00000000#32)) (ix2 p c)
      = relu (lin (fun k => l (ix2 p k)) (fun k n => r (ix2 k n)) (fun n => b (ix1 n)) c) := by
  refine (matmul_bias_relu_apply D hD l r (shapeCast ⟨2, ![1, N]⟩ b hc) hb p c).trans ?_
  exact congrArg (fun f => relu (lin (fun k => l (ix2 p k)) (fun k n => r (ix2 k n)) f c))
    (funext fun n => shapeCast_row_apply b hc n)

/-- The positive part against a splat zero, at an entry. -/
theorem maximumf_zero_apply {s : Shape} (v : FVec Ideal s .f32) (i : s.Idx) :
    maximumf v (broadcast s (Scalar.ofBits (F := Ideal) .f32 0x00000000#32)) i = relu (v i) := rfl

/-- Two rows joined end to end depend on the rows only through their entries. -/
theorem cat_congr {a b c : Nat} (hc : c = a + b) {u u' : Fin a → EReal} {v v' : Fin b → EReal}
    (hu : ∀ q, u q = u' q) (hv : ∀ q, v q = v' q) (j : Fin c) : cat hc u v j = cat hc u' v' j :=
  congrArg₂ (fun f g => cat hc f g j) (funext hu) (funext hv)

/-- The affine map depends on its row only through the row's entries. -/
theorem lin_congr {x y : Fin K → EReal} (h : ∀ k, x k = y k) (w : Fin K → Fin N → EReal) (b : Fin N → EReal) (c : Fin N) :
    lin x w b c = lin y w b c :=
  congrArg (fun z => lin z w b c) (funext h)

end Idealize.ShloMosaic.Dense

end
-- ==== Proof.LibConcatCols.lean ====
/-
  Blocks laid side by side (a concatenation of rank-2 arrays along the second axis) read by coordinates: two, three
  and four blocks of any widths, and a family of one-column blocks.
-/
import Idealize.ShloMosaic.Lib.ValueIdx
import Idealize.ShloMosaic.Lib.Pipeline.Value

noncomputable section

namespace Idealize.ShloMosaic.ConcatCols

open Idealize.ShloMosaic Idealize.ShloMosaic.ValueIdx

variable {α : Type}

/-- Four blocks side by side, read at `(r, j)`: the block whose column span holds `j`. -/
theorem cols4_apply {n a b c d t : Nat} (x1 : (⟨2, ![n, a]⟩ : Shape).Idx → α) (x2 : (⟨2, ![n, b]⟩ : Shape).Idx → α) (x3 : (⟨2, ![n, c]⟩ : Shape).Idx → α) (x4 : (⟨2, ![n, d]⟩ : Shape).Idx → α)
    (h : Shape.Concatenates [(⟨2, ![n, a]⟩ : Shape), ⟨2, ![n, b]⟩, ⟨2, ![n, c]⟩, ⟨2, ![n, d]⟩] ⟨2, ![n, t]⟩ (1 : Fin 2))
    (ht : t = a + b + c + d) (r : Fin n) (j : Fin t) :
    concatenate ⟨2, ![n, t]⟩ (1 : Fin 2) [⟨⟨2, ![n, a]⟩, x1⟩, ⟨⟨2, ![n, b]⟩, x2⟩, ⟨⟨2, ![n, c]⟩, x3⟩, ⟨⟨2, ![n, d]⟩, x4⟩] h (ix2 r j)
      = if h1 : j.val < a then x1 (ix2 r ⟨j.val, h1⟩)
        else if h2 : j.val < a + b then x2 (ix2 r ⟨j.val - (a), by have := j.isLt; omega⟩)
        else if h3 : j.val < a + b + c then x3 (ix2 r ⟨j.val - (a + b), by have := j.isLt; omega⟩)
        else x4 (ix2 r ⟨j.val - (a + b + c), by have := j.isLt; omega⟩) := by
  have hj := j.isLt
  split
  · rename_i hc0
    refine concatenate_apply_piece (t := ⟨2, ![n, t]⟩) (1 : Fin 2) [⟨⟨2, ![n, a]⟩, x1⟩, ⟨⟨2, ![n, b]⟩, x2⟩, ⟨⟨2, ![n, c]⟩, x3⟩, ⟨⟨2, ![n, d]⟩, x4⟩] h (ix2 r j) 0 (by show 0 < 4; omega) _ x1 rfl rfl (0) rfl (ix2 r ⟨j.val, by omega⟩) (fun b hb => ?_) (by show (0) + (j.val) = j.val; omega)
    match b with
    | ⟨0, _⟩ => rfl
    | ⟨1, _⟩ => exact absurd rfl hb
  · rename_i hc0
    split
    · rename_i hc1
      refine concatenate_apply_piece (t := ⟨2, ![n, t]⟩) (1 : Fin 2) [⟨⟨2, ![n, a]⟩, x1⟩, ⟨⟨2, ![n, b]⟩, x2⟩, ⟨⟨2, ![n, c]⟩, x3⟩, ⟨⟨2, ![n, d]⟩, x4⟩] h (ix2 r j) 1 (by show 1 < 4; omega) _ x2 rfl rfl (a) rfl (ix2 r ⟨j.val - (a), by omega⟩) (fun b hb => ?_) (by show (a) + (j.val - (a)) = j.val; omega)
      match b with
      | ⟨0, _⟩ => rfl
      | ⟨1, _⟩ => exact absurd rfl hb
    · rename_i hc1
      split
      · rename_i hc2
        refine concatenate_apply_piece (t := ⟨2, ![n, t]⟩) (1 : Fin 2) [⟨⟨2, ![n, a]⟩, x1⟩, ⟨⟨2, ![n, b]⟩, x2⟩, ⟨⟨2, ![n, c]⟩, x3⟩, ⟨⟨2, ![n, d]⟩, x4⟩] h (ix2 r j) 2 (by show 2 < 4; omega) _ x3 rfl rfl (a + b) rfl (ix2 r ⟨j.val - (a + b), by omega⟩) (fun b hb => ?_) (by show (a + b) + (j.val - (a + b)) = j.val; omega)
        match b with
        | ⟨0, _⟩ => rfl
        | ⟨1, _⟩ => exact absurd rfl hb
      · rename_i hc2
        refine concatenate_apply_piece (t := ⟨2, ![n, t]⟩) (1 : Fin 2) [⟨⟨2, ![n, a]⟩, x1⟩, ⟨⟨2, ![n, b]⟩, x2⟩, ⟨⟨2, ![n, c]⟩, x3⟩, ⟨⟨2, ![n, d]⟩, x4⟩] h (ix2 r j) 3 (by show 3 < 4; omega) _ x4 rfl rfl (a + (b + c)) rfl (ix2 r ⟨j.val - (a + b + c), by omega⟩) (fun b hb => ?_) (by show (a + (b + c)) + (j.val - (a + b + c)) = j.val; omega)
        match b with
        | ⟨0, _⟩ => rfl
        | ⟨1, _⟩ => exact absurd rfl hb

/-- Three blocks side by side, read at `(r, j)`. -/
theorem cols3_apply {n a b c t : Nat} (x1 : (⟨2, ![n, a]⟩ : Shape).Idx → α) (x2 : (⟨2, ![n, b]⟩ : Shape).Idx → α) (x3 : (⟨2, ![n, c]⟩ : Shape).Idx → α)
    (h : Shape.Concatenates [(⟨2, ![n, a]⟩ : Shape), ⟨2, ![n, b]⟩, ⟨2, ![n, c]⟩] ⟨2, ![n, t]⟩ (1 : Fin 2))
    (ht : t = a + b + c) (r : Fin n) (j : Fin t) :
    concatenate ⟨2, ![n, t]⟩ (1 : Fin 2) [⟨⟨2, ![n, a]⟩, x1⟩, ⟨⟨2, ![n, b]⟩, x2⟩, ⟨⟨2, ![n, c]⟩, x3⟩] h (ix2 r j)
      = if h1 : j.val < a then x1 (ix2 r ⟨j.val, h1⟩)
        else if h2 : j.val < a + b then x2 (ix2 r ⟨j.val - (a), by have := j.isLt; omega⟩)
        else x3 (ix2 r ⟨j.val - (a + b), by have := j.isLt; omega⟩) := by
  have hj := j.isLt
  split
  · rename_i hc0
    refine concatenate_apply_piece (t := ⟨2, ![n, t]⟩) (1 : Fin 2) [⟨⟨2, ![n, a]⟩, x1⟩, ⟨⟨2, ![n, b]⟩, x2⟩, ⟨⟨2, ![n, c]⟩, x3⟩] h (ix2 r j) 0 (by show 0 < 3; omega) _ x1 rfl rfl (0) rfl (ix2 r ⟨j.val, by omega⟩) (fun b hb => ?_) (by show (0) + (j.val) = j.val; omega)
    match b with
    | ⟨0, _⟩ => rfl
    | ⟨1, _⟩ => exact absurd rfl hb
  · rename_i hc0
    split
    · rename_i hc1
      refine concatenate_apply_piece (t := ⟨2, ![n, t]⟩) (1 : Fin 2) [⟨⟨2, ![n, a]⟩, x1⟩, ⟨⟨2, ![n, b]⟩, x2⟩, ⟨⟨2, ![n, c]⟩, x3⟩] h (ix2 r j) 1 (by show 1 < 3; omega) _ x2 rfl rfl (a) rfl (ix2 r ⟨j.val - (a), by omega⟩) (fun b hb => ?_) (by show (a) + (j.val - (a)) = j.val; omega)
      match b with
      | ⟨0, _⟩ => rfl
      | ⟨1, _⟩ => exact absurd rfl hb
    · rename_i hc1
      refine concatenate_apply_piece (t := ⟨2, ![n, t]⟩) (1 : Fin 2) [⟨⟨2, ![n, a]⟩, x1⟩, ⟨⟨2, ![n, b]⟩, x2⟩, ⟨⟨2, ![n, c]⟩, x3⟩] h (ix2 r j) 2 (by show 2 < 3; omega) _ x3 rfl rfl (a + b) rfl (ix2 r ⟨j.val - (a + b), by omega⟩) (fun b hb => ?_) (by show (a + b) + (j.val - (a + b)) = j.val; omega)
      match b with
      | ⟨0, _⟩ => rfl
      | ⟨1, _⟩ => exact absurd rfl hb

/-- Two blocks side by side, read at `(r, j)`. -/
theorem cols2_apply {n a b t : Nat} (x1 : (⟨2, ![n, a]⟩ : Shape).Idx → α) (x2 : (⟨2, ![n, b]⟩ : Shape).Idx → α)
    (h : Shape.Concatenates [(⟨2, ![n, a]⟩ : Shape), ⟨2, ![n, b]⟩] ⟨2, ![n, t]⟩ (1 : Fin 2))
    (ht : t = a + b) (r : Fin n) (j : Fin t) :
    concatenate ⟨2, ![n, t]⟩ (1 : Fin 2) [⟨⟨2, ![n, a]⟩, x1⟩, ⟨⟨2, ![n, b]⟩, x2⟩] h (ix2 r j)
      = if h1 : j.val < a then x1 (ix2 r ⟨j.val, h1⟩)
        else x2 (ix2 r ⟨j.val - (a), by have := j.isLt; omega⟩) := by
  have hj := j.isLt
  split
  · rename_i hc0
    refine concatenate_apply_piece (t := ⟨2, ![n, t]⟩) (1 : Fin 2) [⟨⟨2, ![n, a]⟩, x1⟩, ⟨⟨2, ![n, b]⟩, x2⟩] h (ix2 r j) 0 (by show 0 < 2; omega) _ x1 rfl rfl (0) rfl (ix2 r ⟨j.val, by omega⟩) (fun b hb => ?_) (by show (0) + (j.val) = j.val; omega)
    match b with
    | ⟨0, _⟩ => rfl
    | ⟨1, _⟩ => exact absurd rfl hb
  · rename_i hc0
    refine concatenate_apply_piece (t := ⟨2, ![n, t]⟩) (1 : Fin 2) [⟨⟨2, ![n, a]⟩, x1⟩, ⟨⟨2, ![n, b]⟩, x2⟩] h (ix2 r j) 1 (by show 1 < 2; omega) _ x2 rfl rfl (a) rfl (ix2 r ⟨j.val - (a), by omega⟩) (fun b hb => ?_) (by show (a) + (j.val - (a)) = j.val; omega)
    match b with
    | ⟨0, _⟩ => rfl
    | ⟨1, _⟩ => exact absurd rfl hb

/-- `N` one-column blocks `[n,1]` side by side, given as a list built from a family: entry `(r, k)` is entry `r` of column `k`. -/
theorem unitCols_apply {n N : Nat} (f : Fin N → ((⟨2, ![n, 1]⟩ : Shape).Idx → α))
    (h : Shape.Concatenates ((List.ofFn fun k => (⟨⟨2, ![n, 1]⟩, f k⟩ : (s : Shape) × (s.Idx → α))).map (·.1)) ⟨2, ![n, N]⟩ (1 : Fin 2))
    (r : Fin n) (k : Fin N) :
    concatenate ⟨2, ![n, N]⟩ (1 : Fin 2) (List.ofFn fun k => (⟨⟨2, ![n, 1]⟩, f k⟩ : (s : Shape) × (s.Idx → α))) h (ix2 r k) = f k (ix2 r (0 : Fin 1)) := by
  refine concatenate_ofFn_unit_apply (t := ⟨2, ![n, N]⟩) (s₁ := ⟨2, ![n, 1]⟩) 1 f h rfl rfl (ix2 r k) k rfl
    (ix2 r (0 : Fin 1)) fun b hb => ?_
  match b with
  | ⟨0, _⟩ => rfl
  | ⟨1, _⟩ => exact absurd rfl hb

end Idealize.ShloMosaic.ConcatCols

end
-- ==== Proof.BodyEnc.lean ====
/-
  The encoder region's body, read one entry at a time on the extended reals.

  The region loads its nineteen whole buffers (the three modalities' blocks, and for each of the three modality encoders
  and the integrator two weight matrices and two biases) and stores once, over the whole output block, row by row: each
  modality through Linear, ReLU, Linear; the three 64-wide results joined (192); the integrator's Linear, ReLU, Linear.
  The body carries the second modality's last product and its last bias as two values and adds them before the join.
  Changes of float format are the identity on the extended reals, so entry `(p, c)` of the block is `encRow` of row `p`
  of the three modality blocks.
-/
import proofs.«157614_j5866925326769_1_alg».proof.Proof.Spec
import proofs.«157614_j5866925326769_1_alg».proof.Proof.LibBiasRow
import proofs.«157614_j5866925326769_1_alg».proof.Proof.LibConcatCols
import proofs.«157614_j5866925326769_1_alg».proof.Proof.Gen.KernelIdeal.Frame
import Idealize.ShloMosaic.Lib.Pipeline.Value

noncomputable section

namespace Cert.KernelIdeal.Body

open Cert.KernelIdeal Cert.KernelIdeal.Gen Idealize.ShloMosaic Idealize.ShloMosaic.ValueIdx Idealize.ShloMosaic.Dense Cert.Gnn

/-- The offset of a whole-buffer rectangle of a two-axis buffer is zero on both axes. -/
private theorem hz2 : (![0, 0] : Fin 2 → Nat) = fun _ => 0 := funext fun a => by fin_cases a <;> rfl
/-- The offset of a whole-buffer rectangle of a one-axis buffer is zero. -/
private theorem hz1 : (![0] : Fin 1 → Nat) = fun _ => 0 := funext fun a => by fin_cases a <;> rfl

/-- Three blocks of width 64 side by side, read at `(r, j)`: the three rows joined. -/
theorem cols3_cat3 {n : Nat} (x1 x2 x3 : (⟨2, ![n, 64]⟩ : Shape).Idx → EReal)
    (h : Shape.Concatenates [(⟨2, ![n, 64]⟩ : Shape), ⟨2, ![n, 64]⟩, ⟨2, ![n, 64]⟩] ⟨2, ![n, 192]⟩ (1 : Fin 2))
    (r : Fin n) (j : Fin 192) :
    concatenate ⟨2, ![n, 192]⟩ (1 : Fin 2) [⟨⟨2, ![n, 64]⟩, x1⟩, ⟨⟨2, ![n, 64]⟩, x2⟩, ⟨⟨2, ![n, 64]⟩, x3⟩] h (ix2 r j)
      = cat3 (fun q => x1 (ix2 r q)) (fun q => x2 (ix2 r q)) (fun q => x3 (ix2 r q)) j :=
  (ConcatCols.cols3_apply x1 x2 x3 h rfl r j).trans rfl

/-- Three rows joined depend on the rows only through their entries. -/
theorem cat3_congr {u u' v v' w w' : Fin 64 → EReal} (hu : ∀ q, u q = u' q) (hv : ∀ q, v q = v' q)
    (hw : ∀ q, w q = w' q) (j : Fin 192) : cat3 u v w j = cat3 u' v' w' j := by
  rw [funext hu, funext hv, funext hw]

/-- The first modality's encoder (Linear, ReLU, Linear) at an entry. -/
theorem k0_pay1_apply (x0 : Vec Ideal S1000x2000 .f32) (x3 : Vec Ideal S2000x64 .f32) (x4 : Vec Ideal S64 .f32)
    (x5 : Vec Ideal S64x64 .f32) (x6 : Vec Ideal S64 .f32) (p : Fin 1000) (q : Fin 64) :
    k0_pay1 (F := Ideal) x0 x3 x4 x5 x6 (ix2 p q) = mlp (fun k => x0 (ix2 p k)) x3 x4 x5 x6 q := by
  unfold k0_pay1
  refine (matmul_arrBias_apply _ rfl _ _ _ _ _ p q).trans ?_
  refine lin_congr (fun h => ?_) _ _ _
  refine (truncf_apply (ψ := .bf16) _ bitsLt_bf16_f32 _).trans ?_
  exact (matmul_arrBias_relu_apply _ rfl _ _ _ _ _ p h).trans rfl

/-- The second modality's encoder: its last product and its last bias arrive separately and are added. -/
theorem k0_pay2_pay3_apply (x1 : Vec Ideal S1000x1000 .f32) (x7 : Vec Ideal S1000x64 .f32) (x8 : Vec Ideal S64 .f32)
    (x9 : Vec Ideal S64x64 .f32) (x10 : Vec Ideal S64 .f32) (p : Fin 1000) (q : Fin 64) :
    addf (k0_pay2 (F := Ideal) x1 x7 x8 x9) (k0_pay3 (F := Ideal) x10) (ix2 p q)
      = mlp (fun k => x1 (ix2 p k)) x7 x8 x9 x10 q := by
  unfold k0_pay2 k0_pay3
  refine (matmul_arrBias_apply _ rfl _ _ _ _ _ p q).trans ?_
  refine lin_congr (fun h => ?_) _ _ _
  refine (truncf_apply (ψ := .bf16) _ bitsLt_bf16_f32 _).trans ?_
  exact (matmul_arrBias_relu_apply _ rfl _ _ _ _ _ p h).trans rfl

/-- The encoder region's stored value at entry `(p, c)`: the integrator (Linear, ReLU, Linear) applied to the three
    encoders' rows joined; the third encoder is read in place. -/
theorem k0_pay4_apply (x0 : Vec Ideal S1000x2000 .f32) (x1 : Vec Ideal S1000x1000 .f32) (x2 : Vec Ideal S1000x200 .f32)
    (x3 : Vec Ideal S2000x64 .f32) (x4 : Vec Ideal S64 .f32) (x5 : Vec Ideal S64x64 .f32) (x6 : Vec Ideal S64 .f32)
    (x7 : Vec Ideal S1000x64 .f32) (x8 : Vec Ideal S64 .f32) (x9 : Vec Ideal S64x64 .f32) (x10 : Vec Ideal S64 .f32)
    (x11 : Vec Ideal S200x64 .f32) (x12 : Vec Ideal S64 .f32) (x13 : Vec Ideal S64x64 .f32) (x14 : Vec Ideal S64 .f32)
    (x15 : Vec Ideal S192x64 .f32) (x16 : Vec Ideal S64 .f32) (x17 : Vec Ideal S64x64 .f32) (x18 : Vec Ideal S64 .f32)
    (p : Fin 1000) (c : Fin 64) :
    k0_pay4 (F := Ideal) (k0_pay1 x0 x3 x4 x5 x6) (k0_pay2 x1 x7 x8 x9) (k0_pay3 x10) x2 x11 x12 x13 x14 x15 x16 x17 x18 (ix2 p c)
      = encRow (fun k => x0 (ix2 p k)) (fun k => x1 (ix2 p k)) (fun k => x2 (ix2 p k))
          x3 x4 x5 x6 x7 x8 x9 x10 x11 x12 x13 x14 x15 x16 x17 x18 c := by
  unfold k0_pay4
  refine (matmul_arrBias_apply _ rfl _ _ _ _ _ p c).trans ?_
  refine lin_congr (fun h => ?_) _ _ _
  refine (truncf_apply (ψ := .bf16) _ bitsLt_bf16_f32 _).trans ?_
  refine (matmul_arrBias_relu_apply _ rfl _ _ _ _ _ p h).trans ?_
  refine congrArg relu (lin_congr (fun j => ?_) _ _ _)
  refine (truncf_apply (ψ := .bf16) _ bitsLt_bf16_f32 _).trans ?_
  refine (cols3_cat3 _ _ _ concatenates_S1000x64_S1000x64_S1000x64_S1000x192_d1 p j).trans ?_
  refine cat3_congr (fun q => ?_) (fun q => ?_) (fun q => ?_) j
  · exact k0_pay1_apply x0 x3 x4 x5 x6 p q
  · exact k0_pay2_pay3_apply x1 x7 x8 x9 x10 p q
  · refine (matmul_arrBias_apply _ rfl _ _ _ _ _ p q).trans ?_
    refine lin_congr (fun h => ?_) _ _ _
    refine (truncf_apply (ψ := .bf16) _ bitsLt_bf16_f32 _).trans ?_
    exact (matmul_arrBias_relu_apply _ rfl _ _ _ _ _ p h).trans rfl

/-- The encoder region's output block after the body, at entry `(p, c)`: the encoding of node row `p`. The body loads
    whole buffers and stores the whole block once, so the block is the stored value. -/
theorem out0_19_apply (x0 : Vec Ideal S1000x2000 .f32) (x1 : Vec Ideal S1000x1000 .f32) (x2 : Vec Ideal S1000x200 .f32)
    (x3 : Vec Ideal S2000x64 .f32) (x4 : Vec Ideal S64 .f32) (x5 : Vec Ideal S64x64 .f32) (x6 : Vec Ideal S64 .f32)
    (x7 : Vec Ideal S1000x64 .f32) (x8 : Vec Ideal S64 .f32) (x9 : Vec Ideal S64x64 .f32) (x10 : Vec Ideal S64 .f32)
    (x11 : Vec Ideal S200x64 .f32) (x12 : Vec Ideal S64 .f32) (x13 : Vec Ideal S64x64 .f32) (x14 : Vec Ideal S64 .f32)
    (x15 : Vec Ideal S192x64 .f32) (x16 : Vec Ideal S64 .f32) (x17 : Vec Ideal S64x64 .f32) (x18 : Vec Ideal S64 .f32)
    (p : Fin 1000) (c : Fin 64) :
    out0_19 (F := Ideal) x0 x1 x2 x3 x4 x5 x6 x7 x8 x9 x10 x11 x12 x13 x14 x15 x16 x17 x18 (ix2 p c)
      = encRow (fun k => x0 (ix2 p k)) (fun k => x1 (ix2 p k)) (fun k => x2 (ix2 p k))
          x3 x4 x5 x6 x7 x8 x9 x10 x11 x12 x13 x14 x15 x16 x17 x18 c := by
  unfold out0_19
  rw [View.canon_unit_zero hz2]
  simp only [View.ld_unit_zero (S := S1000x2000) hz2, View.ld_unit_zero (S := S1000x1000) hz2,
    View.ld_unit_zero (S := S1000x200) hz2, View.ld_unit_zero (S := S2000x64) hz2, View.ld_unit_zero (S := S1000x64) hz2,
    View.ld_unit_zero (S := S200x64) hz2, View.ld_unit_zero (S := S192x64) hz2, View.ld_unit_zero (S := S64x64) hz2,
    View.ld_unit_zero (S := S64) hz1]
  exact k0_pay4_apply x0 x1 x2 x3 x4 x5 x6 x7 x8 x9 x10 x11 x12 x13 x14 x15 x16 x17 x18 p c

end Cert.KernelIdeal.Body

end
-- ==== Proof.KFinal0.lean ====
/-
  Region 0 (the encoder): what its result array holds when the region is left.

  The region visits 50 blocks of 1000 node rows. At block `t` the body reads rows `t·1000 … t·1000+999` of the three modality
  arrays and the whole parameter arrays, and writes the encodings of those rows; the blocks tile the 50000 rows, so the
  array ends at `Enc` of the arrays the region found.
-/
import proofs.«157614_j5866925326769_1_alg».proof.Proof.Gen.KernelIdeal.Frame
import proofs.«157614_j5866925326769_1_alg».proof.Proof.Spec
import proofs.«157614_j5866925326769_1_alg».proof.Proof.BodyEnc
import Idealize.ShloMosaic.Lib.Pipeline.Value
import Idealize.ShloMosaic.Lib.ValueIdx

set_option maxRecDepth 16384

noncomputable section

namespace Cert.KernelIdeal.Final0

open Cert.KernelIdeal Cert.KernelIdeal.Gen Idealize.ShloMosaic Idealize.ShloMosaic.TcCoe Idealize.SL.Sem
open Idealize.ShloMosaic.ValueIdx Idealize.ShloMosaic.Dense Cert.Gnn
open Idealize.ShloMosaic.Pipeline (Dat Cfg Window)

variable (V : (c : Dev nD) → (b : Ref sig .tc) → Buf (Elt Ideal) ((c : Thread nD τ).loc b))

/-- The printed index maps over the grid: the row-tiled operands and the result move with the point, the parameters stay. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 2) = 0
    ∧ win0_11.index t (1 : Fin 2) = 0
    ∧ win0_12.index t (0 : Fin 1) = 0
    ∧ win0_13.index t (0 : Fin 2) = 0
    ∧ win0_13.index t (1 : Fin 2) = 0
    ∧ win0_14.index t (0 : Fin 1) = 0
    ∧ win0_15.index t (0 : Fin 2) = 0
    ∧ win0_15.index t (1 : Fin 2) = 0
    ∧ win0_16.index t (0 : Fin 1) = 0
    ∧ win0_17.index t (0 : Fin 2) = 0
    ∧ win0_17.index t (1 : Fin 2) = 0
    ∧ win0_18.index t (0 : Fin 1) = 0
    ∧ win0_19.index t (0 : Fin 2) = t.val
    ∧ win0_19.index t (1 : Fin 2) = 0 :=
  (by decide +kernel : ∀ t : Fin grid0.N, _)

/-- The array the region leaves, as a function of the arrays it found. -/
abbrev G (c : Dev nD) : Mat 50000 64 :=
  Enc (n := 50000) (V c main_arg0) (V c main_arg1) (V c main_arg2) (V c main_arg3) (V c main_arg4) (V c main_arg5) (V c main_arg6) (V c main_arg7) (V c main_arg8) (V c main_arg9) (V c main_arg10) (V c main_arg11) (V c main_arg12) (V c main_arg13) (V c main_arg14) (V c main_arg15) (V c main_arg16) (V c main_arg17) (V c main_arg18)

set_option maxHeartbeats 4000000 in
/-- What point `t` writes back is block `t` of `G`. -/
theorem flushed_eq (c : Dev nD) (t : Fin cfg0.N) :
    (dat0 V c).flushed 19 t = ((cfg0.win 19).blk t).view.read (Elt Ideal) (G V c) := by
  show (cfg0.win 19).cut (grid0.coords t) ((dat0 V c).after 19 t) = _
  rw [after0_19]
  obtain ⟨e0_0, e0_1, e1_0, e1_1, e2_0, e2_1, e3_0, e3_1, e4_0, e5_0, e5_1, e6_0, e7_0, e7_1, e8_0, e9_0, e9_1, e10_0, e11_0, e11_1, e12_0, e13_0, e13_1, e14_0, e15_0, e15_1, e16_0, e17_0, e17_1, e18_0, eo0, eo1⟩ := idx_facts t
  have h3 : iblk0 V c 3 t = V c main_arg3 := funext fun j => congrArg (V c main_arg3) (funext fun a => Fin.ext (by
    match a with
    | ⟨0, _⟩ => show win0_3.index t (0 : Fin 2) * 2000 + 1 * (j 0).val = (j 0).val; omega
    | ⟨1, _⟩ => show win0_3.index t (1 : Fin 2) * 64 + 1 * (j 1).val = (j 1).val; omega))
  have h4 : iblk0 V c 4 t = V c main_arg4 := funext fun j => congrArg (V c main_arg4) (funext fun a => Fin.ext (by
    match a with
    | ⟨0, _⟩ => show win0_4.index t (0 : Fin 1) * 64 + 1 * (j 0).val = (j 0).val; omega))
  have h5 : iblk0 V c 5 t = V c main_arg5 := funext fun j => congrArg (V c main_arg5) (funext fun a => Fin.ext (by
    match a with
    | ⟨0, _⟩ => show win0_5.index t (0 : Fin 2) * 64 + 1 * (j 0).val = (j 0).val; omega
    | ⟨1, _⟩ => show win0_5.index t (1 : Fin 2) * 64 + 1 * (j 1).val = (j 1).val; omega))
  have h6 : iblk0 V c 6 t = V c main_arg6 := funext fun j => congrArg (V c main_arg6) (funext fun a => Fin.ext (by
    match a with
    | ⟨0, _⟩ => show win0_6.index t (0 : Fin 1) * 64 + 1 * (j 0).val = (j 0).val; omega))
  have h7 : iblk0 V c 7 t = V c main_arg7 := funext fun j => congrArg (V c main_arg7) (funext fun a => Fin.ext (by
    match a with
    | ⟨0, _⟩ => show win0_7.index t (0 : Fin 2) * 1000 + 1 * (j 0).val = (j 0).val; omega
    | ⟨1, _⟩ => show win0_7.index t (1 : Fin 2) * 64 + 1 * (j 1).val = (j 1).val; omega))
  have h8 : iblk0 V c 8 t = V c main_arg8 := funext fun j => congrArg (V c main_arg8) (funext fun a => Fin.ext (by
    match a with
    | ⟨0, _⟩ => show win0_8.index t (0 : Fin 1) * 64 + 1 * (j 0).val = (j 0).val; omega))
  have h9 : iblk0 V c 9 t = V c main_arg9 := funext fun j => congrArg (V c main_arg9) (funext fun a => Fin.ext (by
    match a with
    | ⟨0, _⟩ => show win0_9.index t (0 : Fin 2) * 64 + 1 * (j 0).val = (j 0).val; omega
    | ⟨1, _⟩ => show win0_9.index t (1 : Fin 2) * 64 + 1 * (j 1).val = (j 1).val; omega))
  have h10 : iblk0 V c 10 t = V c main_arg10 := funext fun j => congrArg (V c main_arg10) (funext fun a => Fin.ext (by
    match a with
    | ⟨0, _⟩ => show win0_10.index t (0 : Fin 1) * 64 + 1 * (j 0).val = (j 0).val; omega))
  have h11 : iblk0 V c 11 t = V c main_arg11 := funext fun j => congrArg (V c main_arg11) (funext fun a => Fin.ext (by
    match a with
    | ⟨0, _⟩ => show win0_11.index t (0 : Fin 2) * 200 + 1 * (j 0).val = (j 0).val; omega
    | ⟨1, _⟩ => show win0_11.index t (1 : Fin 2) * 64 + 1 * (j 1).val = (j 1).val; omega))
  have h12 : iblk0 V c 12 t = V c main_arg12 := funext fun j => congrArg (V c main_arg12) (funext fun a => Fin.ext (by
    match a with
    | ⟨0, _⟩ => show win0_12.index t (0 : Fin 1) * 64 + 1 * (j 0).val = (j 0).val; omega))
  have h13 : iblk0 V c 13 t = V c main_arg13 := funext fun j => congrArg (V c main_arg13) (funext fun a => Fin.ext (by
    match a with
    | ⟨0, _⟩ => show win0_13.index t (0 : Fin 2) * 64 + 1 * (j 0).val = (j 0).val; omega
    | ⟨1, _⟩ => show win0_13.index t (1 : Fin 2) * 64 + 1 * (j 1).val = (j 1).val; omega))
  have h14 : iblk0 V c 14 t = V c main_arg14 := funext fun j => congrArg (V c main_arg14) (funext fun a => Fin.ext (by
    match a with
    | ⟨0, _⟩ => show win0_14.index t (0 : Fin 1) * 64 + 1 * (j 0).val = (j 0).val; omega))
  have h15 : iblk0 V c 15 t = V c main_arg15 := funext fun j => congrArg (V c main_arg15) (funext fun a => Fin.ext (by
    match a with
    | ⟨0, _⟩ => show win0_15.index t (0 : Fin 2) * 192 + 1 * (j 0).val = (j 0).val; omega
    | ⟨1, _⟩ => show win0_15.index t (1 : Fin 2) * 64 + 1 * (j 1).val = (j 1).val; omega))
  have h16 : iblk0 V c 16 t = V c main_arg16 := funext fun j => congrArg (V c main_arg16) (funext fun a => Fin.ext (by
    match a with
    | ⟨0, _⟩ => show win0_16.index t (0 : Fin 1) * 64 + 1 * (j 0).val = (j 0).val; omega))
  have h17 : iblk0 V c 17 t = V c main_arg17 := funext fun j => congrArg (V c main_arg17) (funext fun a => Fin.ext (by
    match a with
    | ⟨0, _⟩ => show win0_17.index t (0 : Fin 2) * 64 + 1 * (j 0).val = (j 0).val; omega
    | ⟨1, _⟩ => show win0_17.index t (1 : Fin 2) * 64 + 1 * (j 1).val = (j 1).val; omega))
  have h18 : iblk0 V c 18 t = V c main_arg18 := funext fun j => congrArg (V c main_arg18) (funext fun a => Fin.ext (by
    match a with
    | ⟨0, _⟩ => show win0_18.index t (0 : Fin 1) * 64 + 1 * (j 0).val = (j 0).val; omega))
  funext y
  obtain ⟨p, q, rfl⟩ : ∃ (p : Fin 1000) (q : Fin 64), y = ix2 p q := ⟨y 0, y 1, eq_ix2 y⟩
  show out0_19 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (ix2 p q)
    = G V c (((cfg0.win 19).blk t).view.emb (ix2 p q))
  rw [Cert.KernelIdeal.Body.out0_19_apply, h3, h4, h5, h6, h7, h8, h9, h10, h11, h12, h13, h14, h15, h16, h17, h18]
  have r0 : (fun k => iblk0 V c 0 t (ix2 p k)) = rowOf (V c main_arg0) ((((cfg0.win 19).blk t).view.emb (ix2 p q)) 0) :=
    funext fun k => congrArg (V c main_arg0) (funext fun a => Fin.ext (by
      match a with
      | ⟨0, _⟩ => show win0_0.index t (0 : Fin 2) * 1000 + 1 * p.val = win0_19.index t (0 : Fin 2) * 1000 + 1 * p.val; omega
      | ⟨1, _⟩ => show win0_0.index t (1 : Fin 2) * 2000 + 1 * k.val = k.val; omega))
  have r1 : (fun k => iblk0 V c 1 t (ix2 p k)) = rowOf (V c main_arg1) ((((cfg0.win 19).blk t).view.emb (ix2 p q)) 0) :=
    funext fun k => congrArg (V c main_arg1) (funext fun a => Fin.ext (by
      match a with
      | ⟨0, _⟩ => show win0_1.index t (0 : Fin 2) * 1000 + 1 * p.val = win0_19.index t (0 : Fin 2) * 1000 + 1 * p.val; omega
      | ⟨1, _⟩ => show win0_1.index t (1 : Fin 2) * 1000 + 1 * k.val = k.val; omega))
  have r2 : (fun k => iblk0 V c 2 t (ix2 p k)) = rowOf (V c main_arg2) ((((cfg0.win 19).blk t).view.emb (ix2 p q)) 0) :=
    funext fun k => congrArg (V c main_arg2) (funext fun a => Fin.ext (by
      match a with
      | ⟨0, _⟩ => show win0_2.index t (0 : Fin 2) * 1000 + 1 * p.val = win0_19.index t (0 : Fin 2) * 1000 + 1 * p.val; omega
      | ⟨1, _⟩ => show win0_2.index t (1 : Fin 2) * 200 + 1 * k.val = k.val; omega))
  have hq : (((cfg0.win 19).blk t).view.emb (ix2 p q)) 1 = q := Fin.ext (by
    show win0_19.index t (1 : Fin 2) * 64 + 1 * q.val = q.val; omega)
  rw [r0, r1, r2]
  show _ = encRow _ _ _ _ _ _ _ _ _ _ _ _ _ _ _ _ _ _ _ ((((cfg0.win 19).blk t).view.emb (ix2 p q)) 1)
  rw [hq]

/-- An index of the array is in point `t`'s block iff each coordinate is in the block's range on its axis. -/
theorem mem_blk (t : Fin cfg0.N) (i : S50000x64.Idx) :
    i ∈ ((cfg0.win 19).blk t).view.set ↔ ∀ a : Fin 2, win0_19.index t a * S1000x64.size a ≤ (i a).val ∧ (i a).val < win0_19.index t a * S1000x64.size a + S1000x64.size a := by
  show i ∈ ((View.whole main_v0).slice (win0_19.rect t)).set ↔ _
  rw [View.set_slice_whole, Rect.mem_set_unit]
  exact Iff.rfl

/-- Every row is in the block of the point `row / 1000`. -/
theorem cover (i : S50000x64.Idx) : ∃ t : Fin cfg0.N, (cfg0.win 19).flush t = true ∧ i ∈ ((cfg0.win 19).blk t).view.set := by
  have hi0 : (i 0).val < 50000 := (i 0).isLt
  have hi1 : (i 1).val < 64 := (i 1).isLt
  have ht : (i 0).val / 1000 < 50 := by omega
  refine ⟨⟨(i 0).val / 1000, ht⟩, flush0_19 _, ?_⟩
  rw [mem_blk]
  obtain ⟨e0_0, e0_1, e1_0, e1_1, e2_0, e2_1, e3_0, e3_1, e4_0, e5_0, e5_1, e6_0, e7_0, e7_1, e8_0, e9_0, e9_1, e10_0, e11_0, e11_1, e12_0, e13_0, e13_1, e14_0, e15_0, e15_1, e16_0, e17_0, e17_1, e18_0, eo0, eo1⟩ := idx_facts ⟨(i 0).val / 1000, ht⟩
  have eo0' : win0_19.index ⟨(i 0).val / 1000, ht⟩ (0 : Fin 2) = (i 0).val / 1000 := eo0
  intro a
  match a with
  | ⟨0, _⟩ => show win0_19.index _ (0 : Fin 2) * 1000 ≤ (i 0).val ∧ (i 0).val < win0_19.index _ (0 : Fin 2) * 1000 + 1000; omega
  | ⟨1, _⟩ => show win0_19.index _ (1 : Fin 2) * 64 ≤ (i 1).val ∧ (i 1).val < win0_19.index _ (1 : Fin 2) * 64 + 64; omega

/-- The result array when the region is left. -/
theorem final (c : Dev nD) : (dat0 V c).arrAt 19 cfg0.N = G V c :=
  (dat0 V c).arrAt_eq_of_cover 19 (G V c) (fun t _ => flushed_eq V c t) cover

end Cert.KernelIdeal.Final0

end
-- ==== Proof.BodyEdge.lean ====
/-
  The edge-message regions' bodies, read one entry at a time on the extended reals.

  Each of the two message regions loads its ten whole buffers (the gathered target rows and source rows, the two
  projections' weights and biases, the two message layers' weights and biases) and stores once, over the whole output
  block, the message `W2ᵀ · relu (W1ᵀ · [relu (x_i·Wpi + bpi) ; relu (x_j·Wpj + bpj)] + b1) + b2` row by row. Changes of
  float format are the identity on the extended reals and a recast to the same shape is the identity, so entry `(p, c)`
  of the block is `edgeRow` of row `p` of the two operands. The two regions have the same text; the statements are
  proved for each.
-/
import proofs.«157614_j5866925326769_1_alg».proof.Proof.Spec
import proofs.«157614_j5866925326769_1_alg».proof.Proof.LibBiasRow
import proofs.«157614_j5866925326769_1_alg».proof.Proof.Gen.KernelIdeal.Frame
import Idealize.ShloMosaic.Lib.Pipeline.Value

noncomputable section

namespace Cert.KernelIdeal.Body

open Cert.KernelIdeal Cert.KernelIdeal.Gen Idealize.ShloMosaic Idealize.ShloMosaic.ValueIdx Idealize.ShloMosaic.Dense Cert.Gnn

/-- The offset of a whole-buffer rectangle of a two-axis buffer is zero on both axes. -/
private theorem hz2 : (![0, 0] : Fin 2 → Nat) = fun _ => 0 := funext fun a => by fin_cases a <;> rfl
/-- The offset of a whole-buffer rectangle of a one-axis buffer is zero. -/
private theorem hz1 : (![0] : Fin 1 → Nat) = fun _ => 0 := funext fun a => by fin_cases a <;> rfl

/-- Region 1's hidden pre-activation at entry `(p, h)`: the two endpoint projections `relu (x_i · Wpi + bpi)`,
    `relu (x_j · Wpj + bpj)` of row `p` joined (64 + 64) and passed through the first message layer. -/
theorem k1_pay2_apply (x0 x1 : Vec Ideal S6000x64 .f32) (x2 : Vec Ideal S64x64 .f32) (x3 : Vec Ideal S64 .f32)
    (x4 : Vec Ideal S64x64 .f32) (x5 : Vec Ideal S64 .f32) (x6 : Vec Ideal S128x64 .f32) (x7 : Vec Ideal S64 .f32)
    (p : Fin 6000) (h : Fin 64) :
    k1_pay2 (F := Ideal) x0 x2 x3 x1 x4 x5 x6 x7 (ix2 p h)
      = lin (cat (c := 128) rfl (fun q => relu (lin (fun k => x0 (ix2 p k)) (wt x2) (bs x3) q))
          (fun q => relu (lin (fun k => x1 (ix2 p k)) (wt x4) (bs x5) q))) (wt x6) (bs x7) h := by
  unfold k1_pay2
  simp only [shapeCast_self]
  refine (matmul_arrBias_apply _ rfl _ _ _ _ _ p h).trans ?_
  refine lin_congr (fun k => ?_) _ _ _
  refine (truncf_apply (ψ := .bf16) _ bitsLt_bf16_f32 _).trans ?_
  refine (concat_cols_apply (c := 128) rfl _ _ concatenates_S6000x64_S6000x64_S6000x128_d1 p k).trans ?_
  refine cat_congr (a := 64) (b := 64) (c := 128) rfl (fun q => ?_) (fun q => ?_) k
  · refine (matmul_arrBias_relu_apply _ rfl _ _ _ _ _ p q).trans ?_
    simp only [shapeCast_self]
    rfl
  · refine (matmul_arrBias_relu_apply _ rfl _ _ _ _ _ p q).trans ?_
    simp only [shapeCast_self]
    rfl

/-- Region 1's stored value at entry `(p, c)`: the positive part of the hidden pre-activation (against the splat zero
    the body carries as a separate value), then the second message layer. -/
theorem k1_pay1_apply (x0 x1 : Vec Ideal S6000x64 .f32) (x2 : Vec Ideal S64x64 .f32) (x3 : Vec Ideal S64 .f32)
    (x4 : Vec Ideal S64x64 .f32) (x5 : Vec Ideal S64 .f32) (x6 : Vec Ideal S128x64 .f32) (x7 : Vec Ideal S64 .f32)
    (x8 : Vec Ideal S64x64 .f32) (x9 : Vec Ideal S64 .f32) (p : Fin 6000) (c : Fin 64) :
    k1_pay1 (F := Ideal) (k1_pay2 x0 x2 x3 x1 x4 x5 x6 x7) (k1_pay3 (F := Ideal)) x8 x9 (ix2 p c)
      = edgeRow (fun k => x0 (ix2 p k)) (fun k => x1 (ix2 p k)) x2 x3 x4 x5 x6 x7 x8 x9 c := by
  unfold k1_pay1
  simp only [shapeCast_self]
  refine (matmul_arrBias_apply _ rfl _ _ _ _ _ p c).trans ?_
  refine lin_congr (fun h => ?_) _ _ _
  refine (truncf_apply (ψ := .bf16) _ bitsLt_bf16_f32 _).trans ?_
  refine (maximumf_zero_apply _ _).trans ?_
  exact congrArg relu (k1_pay2_apply x0 x1 x2 x3 x4 x5 x6 x7 p h)

/-- Region 1's output block after the body, at entry `(p, c)`: the message of edge row `p`. The body loads whole buffers
    and stores the whole block once, so the block is the stored value. -/
theorem out1_10_apply (x0 x1 : Vec Ideal S6000x64 .f32) (x2 : Vec Ideal S64x64 .f32) (x3 : Vec Ideal S64 .f32)
    (x4 : Vec Ideal S64x64 .f32) (x5 : Vec Ideal S64 .f32) (x6 : Vec Ideal S128x64 .f32) (x7 : Vec Ideal S64 .f32)
    (x8 : Vec Ideal S64x64 .f32) (x9 : Vec Ideal S64 .f32) (p : Fin 6000) (c : Fin 64) :
    out1_10 (F := Ideal) x0 x1 x2 x3 x4 x5 x6 x7 x8 x9 (ix2 p c)
      = edgeRow (fun k => x0 (ix2 p k)) (fun k => x1 (ix2 p k)) x2 x3 x4 x5 x6 x7 x8 x9 c := by
  unfold out1_10
  rw [View.canon_unit_zero hz2]
  simp only [View.ld_unit_zero (S := S6000x64) hz2, View.ld_unit_zero (S := S128x64) hz2,
    View.ld_unit_zero (S := S64x64) hz2, View.ld_unit_zero (S := S64) hz1]
  exact k1_pay1_apply x0 x1 x2 x3 x4 x5 x6 x7 x8 x9 p c

/-- Region 3's hidden pre-activation at entry `(p, h)`: the two endpoint projections `relu (x_i · Wpi + bpi)`,
    `relu (x_j · Wpj + bpj)` of row `p` joined (64 + 64) and passed through the first message layer. -/
theorem k3_pay2_apply (x0 x1 : Vec Ideal S6000x64 .f32) (x2 : Vec Ideal S64x64 .f32) (x3 : Vec Ideal S64 .f32)
    (x4 : Vec Ideal S64x64 .f32) (x5 : Vec Ideal S64 .f32) (x6 : Vec Ideal S128x64 .f32) (x7 : Vec Ideal S64 .f32)
    (p : Fin 6000) (h : Fin 64) :
    k3_pay2 (F := Ideal) x0 x2 x3 x1 x4 x5 x6 x7 (ix2 p h)
      = lin (cat (c := 128) rfl (fun q => relu (lin (fun k => x0 (ix2 p k)) (wt x2) (bs x3) q))
          (fun q => relu (lin (fun k => x1 (ix2 p k)) (wt x4) (bs x5) q))) (wt x6) (bs x7) h := by
  unfold k3_pay2
  simp only [shapeCast_self]
  refine (matmul_arrBias_apply _ rfl _ _ _ _ _ p h).trans ?_
  refine lin_congr (fun k => ?_) _ _ _
  refine (truncf_apply (ψ := .bf16) _ bitsLt_bf16_f32 _).trans ?_
  refine (concat_cols_apply (c := 128) rfl _ _ concatenates_S6000x64_S6000x64_S6000x128_d1 p k).trans ?_
  refine cat_congr (a := 64) (b := 64) (c := 128) rfl (fun q => ?_) (fun q => ?_) k
  · refine (matmul_arrBias_relu_apply _ rfl _ _ _ _ _ p q).trans ?_
    simp only [shapeCast_self]
    rfl
  · refine (matmul_arrBias_relu_apply _ rfl _ _ _ _ _ p q).trans ?_
    simp only [shapeCast_self]
    rfl

/-- Region 3's stored value at entry `(p, c)`: the positive part of the hidden pre-activation (against the splat zero
    the body carries as a separate value), then the second message layer. -/
theorem k3_pay1_apply (x0 x1 : Vec Ideal S6000x64 .f32) (x2 : Vec Ideal S64x64 .f32) (x3 : Vec Ideal S64 .f32)
    (x4 : Vec Ideal S64x64 .f32) (x5 : Vec Ideal S64 .f32) (x6 : Vec Ideal S128x64 .f32) (x7 : Vec Ideal S64 .f32)
    (x8 : Vec Ideal S64x64 .f32) (x9 : Vec Ideal S64 .f32) (p : Fin 6000) (c : Fin 64) :
    k3_pay1 (F := Ideal) (k3_pay2 x0 x2 x3 x1 x4 x5 x6 x7) (k3_pay3 (F := Ideal)) x8 x9 (ix2 p c)
      = edgeRow (fun k => x0 (ix2 p k)) (fun k => x1 (ix2 p k)) x2 x3 x4 x5 x6 x7 x8 x9 c := by
  unfold k3_pay1
  simp only [shapeCast_self]
  refine (matmul_arrBias_apply _ rfl _ _ _ _ _ p c).trans ?_
  refine lin_congr (fun h => ?_) _ _ _
  refine (truncf_apply (ψ := .bf16) _ bitsLt_bf16_f32 _).trans ?_
  refine (maximumf_zero_apply _ _).trans ?_
  exact congrArg relu (k3_pay2_apply x0 x1 x2 x3 x4 x5 x6 x7 p h)

/-- Region 3's output block after the body, at entry `(p, c)`: the message of edge row `p`. The body loads whole buffers
    and stores the whole block once, so the block is the stored value. -/
theorem out3_10_apply (x0 x1 : Vec Ideal S6000x64 .f32) (x2 : Vec Ideal S64x64 .f32) (x3 : Vec Ideal S64 .f32)
    (x4 : Vec Ideal S64x64 .f32) (x5 : Vec Ideal S64 .f32) (x6 : Vec Ideal S128x64 .f32) (x7 : Vec Ideal S64 .f32)
    (x8 : Vec Ideal S64x64 .f32) (x9 : Vec Ideal S64 .f32) (p : Fin 6000) (c : Fin 64) :
    out3_10 (F := Ideal) x0 x1 x2 x3 x4 x5 x6 x7 x8 x9 (ix2 p c)
      = edgeRow (fun k => x0 (ix2 p k)) (fun k => x1 (ix2 p k)) x2 x3 x4 x5 x6 x7 x8 x9 c := by
  unfold out3_10
  rw [View.canon_unit_zero hz2]
  simp only [View.ld_unit_zero (S := S6000x64) hz2, View.ld_unit_zero (S := S128x64) hz2,
    View.ld_unit_zero (S := S64x64) hz2, View.ld_unit_zero (S := S64) hz1]
  exact k3_pay1_apply x0 x1 x2 x3 x4 x5 x6 x7 x8 x9 p c

end Cert.KernelIdeal.Body

end
-- ==== Proof.KFinal1.lean ====
/-
  Region 1 (the edge messages of round 1): what its result array holds when the region is left.

  The region visits 100 blocks of 6000 edge rows. At block `t` the body reads rows `t·6000 … t·6000+5999` of the gathered
  target rows and source rows and the whole parameter arrays, and writes those edges' messages; the blocks tile the 600000
  rows, so the array ends at `Edge` of the arrays the region found.
-/
import proofs.«157614_j5866925326769_1_alg».proof.Proof.Gen.KernelIdeal.Frame
import proofs.«157614_j5866925326769_1_alg».proof.Proof.Spec
import proofs.«157614_j5866925326769_1_alg».proof.Proof.BodyEdge
import Idealize.ShloMosaic.Lib.Pipeline.Value
import Idealize.ShloMosaic.Lib.ValueIdx

set_option maxRecDepth 16384

noncomputable section

namespace Cert.KernelIdeal.Final1

open Cert.KernelIdeal Cert.KernelIdeal.Gen Idealize.ShloMosaic Idealize.ShloMosaic.TcCoe Idealize.SL.Sem
open Idealize.ShloMosaic.ValueIdx Idealize.ShloMosaic.Dense Cert.Gnn
open Idealize.ShloMosaic.Pipeline (Dat Cfg Window)

variable (V : (c : Dev nD) → (b : Ref sig .tc) → Buf (Elt Ideal) ((c : Thread nD τ).loc b))

/-- The printed index maps over the grid: the row-tiled operands and the result move with the point, the parameters stay. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 1) = 0
    ∧ win1_4.index t (0 : Fin 2) = 0
    ∧ win1_4.index t (1 : Fin 2) = 0
    ∧ win1_5.index t (0 : Fin 1) = 0
    ∧ win1_6.index t (0 : Fin 2) = 0
    ∧ win1_6.index t (1 : Fin 2) = 0
    ∧ win1_7.index t (0 : Fin 1) = 0
    ∧ win1_8.index t (0 : Fin 2) = 0
    ∧ win1_8.index t (1 : Fin 2) = 0
    ∧ win1_9.index t (0 : Fin 1) = 0
    ∧ win1_10.index t (0 : Fin 2) = t.val
    ∧ win1_10.index t (1 : Fin 2) = 0 :=
  (by decide +kernel : ∀ t : Fin grid1.N, _)

/-- The array the region leaves, as a function of the arrays it found. -/
abbrev G (c : Dev nD) : Mat 600000 64 :=
  Edge (n := 600000) (V c main_v11) (V c main_v18) (V c main_v20) (V c main_v22) (V c main_v24) (V c main_v26) (V c main_v28) (V c main_v30) (V c main_v32) (V c main_v34)

/-- What point `t` writes back is block `t` of `G`. -/
theorem flushed_eq (c : Dev nD) (t : Fin cfg1.N) :
    (dat1 V c).flushed 10 t = ((cfg1.win 10).blk t).view.read (Elt Ideal) (G V c) := by
  show (cfg1.win 10).cut (grid1.coords t) ((dat1 V c).after 10 t) = _
  rw [after1_10]
  obtain ⟨e0_0, e0_1, e1_0, e1_1, e2_0, e2_1, e3_0, e4_0, e4_1, e5_0, e6_0, e6_1, e7_0, e8_0, e8_1, e9_0, eo0, eo1⟩ := idx_facts t
  have h2 : iblk1 V c 2 t = V c main_v20 := funext fun j => congrArg (V c main_v20) (funext fun a => Fin.ext (by
    match a with
    | ⟨0, _⟩ => show win1_2.index t (0 : Fin 2) * 64 + 1 * (j 0).val = (j 0).val; omega
    | ⟨1, _⟩ => show win1_2.index t (1 : Fin 2) * 64 + 1 * (j 1).val = (j 1).val; omega))
  have h3 : iblk1 V c 3 t = V c main_v22 := funext fun j => congrArg (V c main_v22) (funext fun a => Fin.ext (by
    match a with
    | ⟨0, _⟩ => show win1_3.index t (0 : Fin 1) * 64 + 1 * (j 0).val = (j 0).val; omega))
  have h4 : iblk1 V c 4 t = V c main_v24 := funext fun j => congrArg (V c main_v24) (funext fun a => Fin.ext (by
    match a with
    | ⟨0, _⟩ => show win1_4.index t (0 : Fin 2) * 64 + 1 * (j 0).val = (j 0).val; omega
    | ⟨1, _⟩ => show win1_4.index t (1 : Fin 2) * 64 + 1 * (j 1).val = (j 1).val; omega))
  have h5 : iblk1 V c 5 t = V c main_v26 := funext fun j => congrArg (V c main_v26) (funext fun a => Fin.ext (by
    match a with
    | ⟨0, _⟩ => show win1_5.index t (0 : Fin 1) * 64 + 1 * (j 0).val = (j 0).val; omega))
  have h6 : iblk1 V c 6 t = V c main_v28 := funext fun j => congrArg (V c main_v28) (funext fun a => Fin.ext (by
    match a with
    | ⟨0, _⟩ => show win1_6.index t (0 : Fin 2) * 128 + 1 * (j 0).val = (j 0).val; omega
    | ⟨1, _⟩ => show win1_6.index t (1 : Fin 2) * 64 + 1 * (j 1).val = (j 1).val; omega))
  have h7 : iblk1 V c 7 t = V c main_v30 := funext fun j => congrArg (V c main_v30) (funext fun a => Fin.ext (by
    match a with
    | ⟨0, _⟩ => show win1_7.index t (0 : Fin 1) * 64 + 1 * (j 0).val = (j 0).val; omega))
  have h8 : iblk1 V c 8 t = V c main_v32 := funext fun j => congrArg (V c main_v32) (funext fun a => Fin.ext (by
    match a with
    | ⟨0, _⟩ => show win1_8.index t (0 : Fin 2) * 64 + 1 * (j 0).val = (j 0).val; omega
    | ⟨1, _⟩ => show win1_8.index t (1 : Fin 2) * 64 + 1 * (j 1).val = (j 1).val; omega))
  have h9 : iblk1 V c 9 t = V c main_v34 := funext fun j => congrArg (V c main_v34) (funext fun a => Fin.ext (by
    match a with
    | ⟨0, _⟩ => show win1_9.index t (0 : Fin 1) * 64 + 1 * (j 0).val = (j 0).val; omega))
  funext y
  obtain ⟨p, q, rfl⟩ : ∃ (p : Fin 6000) (q : Fin 64), y = ix2 p q := ⟨y 0, y 1, eq_ix2 y⟩
  show out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (ix2 p q)
    = G V c (((cfg1.win 10).blk t).view.emb (ix2 p q))
  rw [Cert.KernelIdeal.Body.out1_10_apply, h2, h3, h4, h5, h6, h7, h8, h9]
  have r0 : (fun k => iblk1 V c 0 t (ix2 p k)) = rowOf (V c main_v11) ((((cfg1.win 10).blk t).view.emb (ix2 p q)) 0) :=
    funext fun k => congrArg (V c main_v11) (funext fun a => Fin.ext (by
      match a with
      | ⟨0, _⟩ => show win1_0.index t (0 : Fin 2) * 6000 + 1 * p.val = win1_10.index t (0 : Fin 2) * 6000 + 1 * p.val; omega
      | ⟨1, _⟩ => show win1_0.index t (1 : Fin 2) * 64 + 1 * k.val = k.val; omega))
  have r1 : (fun k => iblk1 V c 1 t (ix2 p k)) = rowOf (V c main_v18) ((((cfg1.win 10).blk t).view.emb (ix2 p q)) 0) :=
    funext fun k => congrArg (V c main_v18) (funext fun a => Fin.ext (by
      match a with
      | ⟨0, _⟩ => show win1_1.index t (0 : Fin 2) * 6000 + 1 * p.val = win1_10.index t (0 : Fin 2) * 6000 + 1 * p.val; omega
      | ⟨1, _⟩ => show win1_1.index t (1 : Fin 2) * 64 + 1 * k.val = k.val; omega))
  have hq : (((cfg1.win 10).blk t).view.emb (ix2 p q)) 1 = q := Fin.ext (by
    show win1_10.index t (1 : Fin 2) * 64 + 1 * q.val = q.val; omega)
  rw [r0, r1]
  show _ = edgeRow _ _ _ _ _ _ _ _ _ _ ((((cfg1.win 10).blk t).view.emb (ix2 p q)) 1)
  rw [hq]

/-- An index of the array is in point `t`'s block iff each coordinate is in the block's range on its axis. -/
theorem mem_blk (t : Fin cfg1.N) (i : S600000x64.Idx) :
    i ∈ ((cfg1.win 10).blk t).view.set ↔ ∀ a : Fin 2, win1_10.index t a * S6000x64.size a ≤ (i a).val ∧ (i a).val < win1_10.index t a * S6000x64.size a + S6000x64.size a := by
  show i ∈ ((View.whole main_v35).slice (win1_10.rect t)).set ↔ _
  rw [View.set_slice_whole, Rect.mem_set_unit]
  exact Iff.rfl

/-- Every row is in the block of the point `row / 6000`. -/
theorem cover (i : S600000x64.Idx) : ∃ t : Fin cfg1.N, (cfg1.win 10).flush t = true ∧ i ∈ ((cfg1.win 10).blk t).view.set := by
  have hi0 : (i 0).val < 600000 := (i 0).isLt
  have hi1 : (i 1).val < 64 := (i 1).isLt
  have ht : (i 0).val / 6000 < 100 := by omega
  refine ⟨⟨(i 0).val / 6000, ht⟩, flush1_10 _, ?_⟩
  rw [mem_blk]
  obtain ⟨e0_0, e0_1, e1_0, e1_1, e2_0, e2_1, e3_0, e4_0, e4_1, e5_0, e6_0, e6_1, e7_0, e8_0, e8_1, e9_0, eo0, eo1⟩ := idx_facts ⟨(i 0).val / 6000, ht⟩
  have eo0' : win1_10.index ⟨(i 0).val / 6000, ht⟩ (0 : Fin 2) = (i 0).val / 6000 := eo0
  intro a
  match a with
  | ⟨0, _⟩ => show win1_10.index _ (0 : Fin 2) * 6000 ≤ (i 0).val ∧ (i 0).val < win1_10.index _ (0 : Fin 2) * 6000 + 6000; omega
  | ⟨1, _⟩ => show win1_10.index _ (1 : Fin 2) * 64 ≤ (i 1).val ∧ (i 1).val < win1_10.index _ (1 : Fin 2) * 64 + 64; omega

/-- The result array when the region is left. -/
theorem final (c : Dev nD) : (dat1 V c).arrAt 10 cfg1.N = G V c :=
  (dat1 V c).arrAt_eq_of_cover 10 (G V c) (fun t _ => flushed_eq V c t) cover

end Cert.KernelIdeal.Final1

end
-- ==== Proof.BodyUpd.lean ====
/-
  The node-update regions' bodies, read one entry at a time on the extended reals.

  Each of the two update regions loads its six whole buffers (aggregated messages, node states, two weight matrices, two
  biases), and stores once, over the whole output block, the value
  `relu (W2ᵀ · relu (W1ᵀ · [ag_p ; x_p] + b1) + b2)` row by row. Changes of float format are the identity on the
  extended reals and a recast to the same shape is the identity, so entry `(p, c)` of the block is `updRow` of row `p` of
  the two operands. The two regions have the same text; the statements are proved for each.
-/
import proofs.«157614_j5866925326769_1_alg».proof.Proof.Spec
import proofs.«157614_j5866925326769_1_alg».proof.Proof.LibBiasRow
import proofs.«157614_j5866925326769_1_alg».proof.Proof.Gen.KernelIdeal.Frame
import Idealize.ShloMosaic.Lib.Pipeline.Value

noncomputable section

namespace Cert.KernelIdeal.Body

open Cert.KernelIdeal Cert.KernelIdeal.Gen Idealize.ShloMosaic Idealize.ShloMosaic.ValueIdx Idealize.ShloMosaic.Dense Cert.Gnn

/-- The offset of a whole-buffer rectangle of a two-axis buffer is zero on both axes. -/
private theorem hz2 : (![0, 0] : Fin 2 → Nat) = fun _ => 0 := funext fun a => by fin_cases a <;> rfl
/-- The offset of a whole-buffer rectangle of a one-axis buffer is zero. -/
private theorem hz1 : (![0] : Fin 1 → Nat) = fun _ => 0 := funext fun a => by fin_cases a <;> rfl

/-- Region 2's stored value at entry `(p, c)`: the two operand rows joined (64 + 64), Linear, ReLU, Linear, then the
    positive part. Read from the outside in: the last layer's row is the hidden layer's row, whose input row is the join. -/
theorem k2_pay1_apply (x0 x1 : Vec Ideal S5000x64 .f32) (x2 : Vec Ideal S128x64 .f32) (x3 : Vec Ideal S64 .f32)
    (x4 : Vec Ideal S64x64 .f32) (x5 : Vec Ideal S64 .f32) (p : Fin 5000) (c : Fin 64) :
    k2_pay1 (F := Ideal) x0 x1 x2 x3 x4 x5 (ix2 p c)
      = updRow (fun k => x0 (ix2 p k)) (fun k => x1 (ix2 p k)) x2 x3 x4 x5 c := by
  unfold k2_pay1
  simp only [shapeCast_self]
  refine (matmul_arrBias_relu_apply _ rfl _ _ _ _ _ p c).trans ?_
  refine congrArg relu (lin_congr (fun h => ?_) _ _ _)
  refine (matmul_arrBias_relu_apply _ rfl _ _ _ _ _ p h).trans ?_
  refine congrArg relu (lin_congr (fun k => ?_) _ _ _)
  refine (truncf_apply (ψ := .bf16) _ bitsLt_bf16_f32 _).trans ?_
  refine (concat_cols_apply (c := 128) rfl _ _ concatenates_S5000x64_S5000x64_S5000x128_d1 p k).trans ?_
  rw [shapeCast_self, shapeCast_self]

/-- Region 2's output block after the body, at entry `(p, c)`: the node update of row `p`. The body loads whole buffers
    and stores the whole block once, so the block is the stored value. -/
theorem out2_6_apply (x0 x1 : Vec Ideal S5000x64 .f32) (x2 : Vec Ideal S128x64 .f32) (x3 : Vec Ideal S64 .f32)
    (x4 : Vec Ideal S64x64 .f32) (x5 : Vec Ideal S64 .f32) (p : Fin 5000) (c : Fin 64) :
    out2_6 (F := Ideal) x0 x1 x2 x3 x4 x5 (ix2 p c)
      = updRow (fun k => x0 (ix2 p k)) (fun k => x1 (ix2 p k)) x2 x3 x4 x5 c := by
  unfold out2_6
  rw [View.canon_unit_zero hz2]
  simp only [View.ld_unit_zero (S := S5000x64) hz2, View.ld_unit_zero (S := S128x64) hz2,
    View.ld_unit_zero (S := S64x64) hz2, View.ld_unit_zero (S := S64) hz1]
  exact k2_pay1_apply x0 x1 x2 x3 x4 x5 p c

/-- Region 4's stored value at entry `(p, c)`: the two operand rows joined (64 + 64), Linear, ReLU, Linear, then the
    positive part. Read from the outside in: the last layer's row is the hidden layer's row, whose input row is the join. -/
theorem k4_pay1_apply (x0 x1 : Vec Ideal S5000x64 .f32) (x2 : Vec Ideal S128x64 .f32) (x3 : Vec Ideal S64 .f32)
    (x4 : Vec Ideal S64x64 .f32) (x5 : Vec Ideal S64 .f32) (p : Fin 5000) (c : Fin 64) :
    k4_pay1 (F := Ideal) x0 x1 x2 x3 x4 x5 (ix2 p c)
      = updRow (fun k => x0 (ix2 p k)) (fun k => x1 (ix2 p k)) x2 x3 x4 x5 c := by
  unfold k4_pay1
  simp only [shapeCast_self]
  refine (matmul_arrBias_relu_apply _ rfl _ _ _ _ _ p c).trans ?_
  refine congrArg relu (lin_congr (fun h => ?_) _ _ _)
  refine (matmul_arrBias_relu_apply _ rfl _ _ _ _ _ p h).trans ?_
  refine congrArg relu (lin_congr (fun k => ?_) _ _ _)
  refine (truncf_apply (ψ := .bf16) _ bitsLt_bf16_f32 _).trans ?_
  refine (concat_cols_apply (c := 128) rfl _ _ concatenates_S5000x64_S5000x64_S5000x128_d1 p k).trans ?_
  rw [shapeCast_self, shapeCast_self]

/-- Region 4's output block after the body, at entry `(p, c)`: the node update of row `p`. The body loads whole buffers
    and stores the whole block once, so the block is the stored value. -/
theorem out4_6_apply (x0 x1 : Vec Ideal S5000x64 .f32) (x2 : Vec Ideal S128x64 .f32) (x3 : Vec Ideal S64 .f32)
    (x4 : Vec Ideal S64x64 .f32) (x5 : Vec Ideal S64 .f32) (p : Fin 5000) (c : Fin 64) :
    out4_6 (F := Ideal) x0 x1 x2 x3 x4 x5 (ix2 p c)
      = updRow (fun k => x0 (ix2 p k)) (fun k => x1 (ix2 p k)) x2 x3 x4 x5 c := by
  unfold out4_6
  rw [View.canon_unit_zero hz2]
  simp only [View.ld_unit_zero (S := S5000x64) hz2, View.ld_unit_zero (S := S128x64) hz2,
    View.ld_unit_zero (S := S64x64) hz2, View.ld_unit_zero (S := S64) hz1]
  exact k4_pay1_apply x0 x1 x2 x3 x4 x5 p c

end Cert.KernelIdeal.Body

end
-- ==== Proof.KFinal2.lean ====
/-
  Region 2 (the node update of round 1): what its result array holds when the region is left.

  The region visits 10 blocks of 5000 node rows. At block `t` the body reads rows `t·5000 … t·5000+4999` of the aggregated
  messages and of the node states and the whole parameter arrays, and writes the update of those rows; the blocks tile the
  50000 rows, so the array ends at `Upd` of the arrays the region found.
-/
import proofs.«157614_j5866925326769_1_alg».proof.Proof.Gen.KernelIdeal.Frame
import proofs.«157614_j5866925326769_1_alg».proof.Proof.Spec
import proofs.«157614_j5866925326769_1_alg».proof.Proof.BodyUpd
import Idealize.ShloMosaic.Lib.Pipeline.Value
import Idealize.ShloMosaic.Lib.ValueIdx

set_option maxRecDepth 16384

noncomputable section

namespace Cert.KernelIdeal.Final2

open Cert.KernelIdeal Cert.KernelIdeal.Gen Idealize.ShloMosaic Idealize.ShloMosaic.TcCoe Idealize.SL.Sem
open Idealize.ShloMosaic.ValueIdx Idealize.ShloMosaic.Dense Cert.Gnn
open Idealize.ShloMosaic.Pipeline (Dat Cfg Window)

variable (V : (c : Dev nD) → (b : Ref sig .tc) → Buf (Elt Ideal) ((c : Thread nD τ).loc b))

/-- The printed index maps over the grid: the row-tiled operands and the result move with the point, the parameters stay. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 1) = 0
    ∧ win2_4.index t (0 : Fin 2) = 0
    ∧ win2_4.index t (1 : Fin 2) = 0
    ∧ win2_5.index t (0 : Fin 1) = 0
    ∧ win2_6.index t (0 : Fin 2) = t.val
    ∧ win2_6.index t (1 : Fin 2) = 0 :=
  (by decide +kernel : ∀ t : Fin grid2.N, _)

/-- The array the region leaves, as a function of the arrays it found. -/
abbrev G (c : Dev nD) : Mat 50000 64 :=
  Upd (n := 50000) (V c main_v38) (V c main_v0) (V c main_v40) (V c main_v42) (V c main_v44) (V c main_v46)

/-- What point `t` writes back is block `t` of `G`. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  obtain ⟨e0_0, e0_1, e1_0, e1_1, e2_0, e2_1, e3_0, e4_0, e4_1, e5_0, eo0, eo1⟩ := idx_facts t
  have h2 : iblk2 V c 2 t = V c main_v40 := funext fun j => congrArg (V c main_v40) (funext fun a => Fin.ext (by
    match a with
    | ⟨0, _⟩ => show win2_2.index t (0 : Fin 2) * 128 + 1 * (j 0).val = (j 0).val; omega
    | ⟨1, _⟩ => show win2_2.index t (1 : Fin 2) * 64 + 1 * (j 1).val = (j 1).val; omega))
  have h3 : iblk2 V c 3 t = V c main_v42 := funext fun j => congrArg (V c main_v42) (funext fun a => Fin.ext (by
    match a with
    | ⟨0, _⟩ => show win2_3.index t (0 : Fin 1) * 64 + 1 * (j 0).val = (j 0).val; omega))
  have h4 : iblk2 V c 4 t = V c main_v44 := funext fun j => congrArg (V c main_v44) (funext fun a => Fin.ext (by
    match a with
    | ⟨0, _⟩ => show win2_4.index t (0 : Fin 2) * 64 + 1 * (j 0).val = (j 0).val; omega
    | ⟨1, _⟩ => show win2_4.index t (1 : Fin 2) * 64 + 1 * (j 1).val = (j 1).val; omega))
  have h5 : iblk2 V c 5 t = V c main_v46 := funext fun j => congrArg (V c main_v46) (funext fun a => Fin.ext (by
    match a with
    | ⟨0, _⟩ => show win2_5.index t (0 : Fin 1) * 64 + 1 * (j 0).val = (j 0).val; omega))
  funext y
  obtain ⟨p, q, rfl⟩ : ∃ (p : Fin 5000) (q : Fin 64), y = ix2 p q := ⟨y 0, y 1, eq_ix2 y⟩
  show out2_6 (iblk2 V c 0 t) (iblk2 V c 1 t) (iblk2 V c 2 t) (iblk2 V c 3 t) (iblk2 V c 4 t) (iblk2 V c 5 t) (ix2 p q)
    = G V c (((cfg2.win 6).blk t).view.emb (ix2 p q))
  rw [Cert.KernelIdeal.Body.out2_6_apply, h2, h3, h4, h5]
  have r0 : (fun k => iblk2 V c 0 t (ix2 p k)) = rowOf (V c main_v38) ((((cfg2.win 6).blk t).view.emb (ix2 p q)) 0) :=
    funext fun k => congrArg (V c main_v38) (funext fun a => Fin.ext (by
      match a with
      | ⟨0, _⟩ => show win2_0.index t (0 : Fin 2) * 5000 + 1 * p.val = win2_6.index t (0 : Fin 2) * 5000 + 1 * p.val; omega
      | ⟨1, _⟩ => show win2_0.index t (1 : Fin 2) * 64 + 1 * k.val = k.val; omega))
  have r1 : (fun k => iblk2 V c 1 t (ix2 p k)) = rowOf (V c main_v0) ((((cfg2.win 6).blk t).view.emb (ix2 p q)) 0) :=
    funext fun k => congrArg (V c main_v0) (funext fun a => Fin.ext (by
      match a with
      | ⟨0, _⟩ => show win2_1.index t (0 : Fin 2) * 5000 + 1 * p.val = win2_6.index t (0 : Fin 2) * 5000 + 1 * p.val; omega
      | ⟨1, _⟩ => show win2_1.index t (1 : Fin 2) * 64 + 1 * k.val = k.val; omega))
  have hq : (((cfg2.win 6).blk t).view.emb (ix2 p q)) 1 = q := Fin.ext (by
    show win2_6.index t (1 : Fin 2) * 64 + 1 * q.val = q.val; omega)
  rw [r0, r1]
  show _ = updRow _ _ _ _ _ _ ((((cfg2.win 6).blk t).view.emb (ix2 p q)) 1)
  rw [hq]

/-- An index of the array is in point `t`'s block iff each coordinate is in the block's range on its axis. -/
theorem mem_blk (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v47).slice (win2_6.rect t)).set ↔ _
  rw [View.set_slice_whole, Rect.mem_set_unit]
  exact Iff.rfl

/-- Every row is in the block of the point `row / 5000`. -/
theorem cover (i : S50000x64.Idx) : ∃ t : Fin cfg2.N, (cfg2.win 6).flush t = true ∧ i ∈ ((cfg2.win 6).blk t).view.set := by
  have hi0 : (i 0).val < 50000 := (i 0).isLt
  have hi1 : (i 1).val < 64 := (i 1).isLt
  have ht : (i 0).val / 5000 < 10 := by omega
  refine ⟨⟨(i 0).val / 5000, ht⟩, flush2_6 _, ?_⟩
  rw [mem_blk]
  obtain ⟨e0_0, e0_1, e1_0, e1_1, e2_0, e2_1, e3_0, e4_0, e4_1, e5_0, eo0, eo1⟩ := idx_facts ⟨(i 0).val / 5000, ht⟩
  have eo0' : win2_6.index ⟨(i 0).val / 5000, ht⟩ (0 : Fin 2) = (i 0).val / 5000 := eo0
  intro a
  match a with
  | ⟨0, _⟩ => show win2_6.index _ (0 : Fin 2) * 5000 ≤ (i 0).val ∧ (i 0).val < win2_6.index _ (0 : Fin 2) * 5000 + 5000; omega
  | ⟨1, _⟩ => show win2_6.index _ (1 : Fin 2) * 64 ≤ (i 1).val ∧ (i 1).val < win2_6.index _ (1 : Fin 2) * 64 + 64; omega

/-- The result array when the region is left. -/
theorem final (c : Dev nD) : (dat2 V c).arrAt 6 cfg2.N = G V c :=
  (dat2 V c).arrAt_eq_of_cover 6 (G V c) (fun t _ => flushed_eq V c t) cover

end Cert.KernelIdeal.Final2

end
-- ==== Proof.KFinal3.lean ====
/-
  Region 3 (the edge messages of round 2): what its result array holds when the region is left.

  The region visits 100 blocks of 6000 edge rows. At block `t` the body reads rows `t·6000 … t·6000+5999` of the gathered
  target rows and source rows and the whole parameter arrays, and writes those edges' messages; the blocks tile the 600000
  rows, so the array ends at `Edge` of the arrays the region found.
-/
import proofs.«157614_j5866925326769_1_alg».proof.Proof.Gen.KernelIdeal.Frame
import proofs.«157614_j5866925326769_1_alg».proof.Proof.Spec
import proofs.«157614_j5866925326769_1_alg».proof.Proof.BodyEdge
import Idealize.ShloMosaic.Lib.Pipeline.Value
import Idealize.ShloMosaic.Lib.ValueIdx

set_option maxRecDepth 16384

noncomputable section

namespace Cert.KernelIdeal.Final3

open Cert.KernelIdeal Cert.KernelIdeal.Gen Idealize.ShloMosaic Idealize.ShloMosaic.TcCoe Idealize.SL.Sem
open Idealize.ShloMosaic.ValueIdx Idealize.ShloMosaic.Dense Cert.Gnn
open Idealize.ShloMosaic.Pipeline (Dat Cfg Window)

variable (V : (c : Dev nD) → (b : Ref sig .tc) → Buf (Elt Ideal) ((c : Thread nD τ).loc b))

/-- The printed index maps over the grid: the row-tiled operands and the result move with the point, the parameters stay. -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 1) = 0
    ∧ win3_4.index t (0 : Fin 2) = 0
    ∧ win3_4.index t (1 : Fin 2) = 0
    ∧ win3_5.index t (0 : Fin 1) = 0
    ∧ win3_6.index t (0 : Fin 2) = 0
    ∧ win3_6.index t (1 : Fin 2) = 0
    ∧ win3_7.index t (0 : Fin 1) = 0
    ∧ win3_8.index t (0 : Fin 2) = 0
    ∧ win3_8.index t (1 : Fin 2) = 0
    ∧ win3_9.index t (0 : Fin 1) = 0
    ∧ win3_10.index t (0 : Fin 2) = t.val
    ∧ win3_10.index t (1 : Fin 2) = 0 :=
  (by decide +kernel : ∀ t : Fin grid3.N, _)

/-- The array the region leaves, as a function of the arrays it found. -/
abbrev G (c : Dev nD) : Mat 600000 64 :=
  Edge (n := 600000) (V c main_v54) (V c main_v61) (V c main_v63) (V c main_v65) (V c main_v67) (V c main_v69) (V c main_v71) (V c main_v73) (V c main_v75) (V c main_v77)

set_option maxHeartbeats 4000000 in
/-- What point `t` writes back is block `t` of `G`. -/
theorem flushed_eq (c : Dev nD) (t : Fin cfg3.N) :
    (dat3 V c).flushed 10 t = ((cfg3.win 10).blk t).view.read (Elt Ideal) (G V c) := by
  show (cfg3.win 10).cut (grid3.coords t) ((dat3 V c).after 10 t) = _
  rw [after3_10]
  obtain ⟨e0_0, e0_1, e1_0, e1_1, e2_0, e2_1, e3_0, e4_0, e4_1, e5_0, e6_0, e6_1, e7_0, e8_0, e8_1, e9_0, eo0, eo1⟩ := idx_facts t
  have h2 : iblk3 V c 2 t = V c main_v63 := funext fun j => congrArg (V c main_v63) (funext fun a => Fin.ext (by
    match a with
    | ⟨0, _⟩ => show win3_2.index t (0 : Fin 2) * 64 + 1 * (j 0).val = (j 0).val; omega
    | ⟨1, _⟩ => show win3_2.index t (1 : Fin 2) * 64 + 1 * (j 1).val = (j 1).val; omega))
  have h3 : iblk3 V c 3 t = V c main_v65 := funext fun j => congrArg (V c main_v65) (funext fun a => Fin.ext (by
    match a with
    | ⟨0, _⟩ => show win3_3.index t (0 : Fin 1) * 64 + 1 * (j 0).val = (j 0).val; omega))
  have h4 : iblk3 V c 4 t = V c main_v67 := funext fun j => congrArg (V c main_v67) (funext fun a => Fin.ext (by
    match a with
    | ⟨0, _⟩ => show win3_4.index t (0 : Fin 2) * 64 + 1 * (j 0).val = (j 0).val; omega
    | ⟨1, _⟩ => show win3_4.index t (1 : Fin 2) * 64 + 1 * (j 1).val = (j 1).val; omega))
  have h5 : iblk3 V c 5 t = V c main_v69 := funext fun j => congrArg (V c main_v69) (funext fun a => Fin.ext (by
    match a with
    | ⟨0, _⟩ => show win3_5.index t (0 : Fin 1) * 64 + 1 * (j 0).val = (j 0).val; omega))
  have h6 : iblk3 V c 6 t = V c main_v71 := funext fun j => congrArg (V c main_v71) (funext fun a => Fin.ext (by
    match a with
    | ⟨0, _⟩ => show win3_6.index t (0 : Fin 2) * 128 + 1 * (j 0).val = (j 0).val; omega
    | ⟨1, _⟩ => show win3_6.index t (1 : Fin 2) * 64 + 1 * (j 1).val = (j 1).val; omega))
  have h7 : iblk3 V c 7 t = V c main_v73 := funext fun j => congrArg (V c main_v73) (funext fun a => Fin.ext (by
    match a with
    | ⟨0, _⟩ => show win3_7.index t (0 : Fin 1) * 64 + 1 * (j 0).val = (j 0).val; omega))
  have h8 : iblk3 V c 8 t = V c main_v75 := funext fun j => congrArg (V c main_v75) (funext fun a => Fin.ext (by
    match a with
    | ⟨0, _⟩ => show win3_8.index t (0 : Fin 2) * 64 + 1 * (j 0).val = (j 0).val; omega
    | ⟨1, _⟩ => show win3_8.index t (1 : Fin 2) * 64 + 1 * (j 1).val = (j 1).val; omega))
  have h9 : iblk3 V c 9 t = V c main_v77 := funext fun j => congrArg (V c main_v77) (funext fun a => Fin.ext (by
    match a with
    | ⟨0, _⟩ => show win3_9.index t (0 : Fin 1) * 64 + 1 * (j 0).val = (j 0).val; omega))
  funext y
  obtain ⟨p, q, rfl⟩ : ∃ (p : Fin 6000) (q : Fin 64), y = ix2 p q := ⟨y 0, y 1, eq_ix2 y⟩
  show out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (ix2 p q)
    = G V c (((cfg3.win 10).blk t).view.emb (ix2 p q))
  rw [Cert.KernelIdeal.Body.out3_10_apply, h2, h3, h4, h5, h6, h7, h8, h9]
  have r0 : (fun k => iblk3 V c 0 t (ix2 p k)) = rowOf (V c main_v54) ((((cfg3.win 10).blk t).view.emb (ix2 p q)) 0) :=
    funext fun k => congrArg (V c main_v54) (funext fun a => Fin.ext (by
      match a with
      | ⟨0, _⟩ => show win3_0.index t (0 : Fin 2) * 6000 + 1 * p.val = win3_10.index t (0 : Fin 2) * 6000 + 1 * p.val; omega
      | ⟨1, _⟩ => show win3_0.index t (1 : Fin 2) * 64 + 1 * k.val = k.val; omega))
  have r1 : (fun k => iblk3 V c 1 t (ix2 p k)) = rowOf (V c main_v61) ((((cfg3.win 10).blk t).view.emb (ix2 p q)) 0) :=
    funext fun k => congrArg (V c main_v61) (funext fun a => Fin.ext (by
      match a with
      | ⟨0, _⟩ => show win3_1.index t (0 : Fin 2) * 6000 + 1 * p.val = win3_10.index t (0 : Fin 2) * 6000 + 1 * p.val; omega
      | ⟨1, _⟩ => show win3_1.index t (1 : Fin 2) * 64 + 1 * k.val = k.val; omega))
  have hq : (((cfg3.win 10).blk t).view.emb (ix2 p q)) 1 = q := Fin.ext (by
    show win3_10.index t (1 : Fin 2) * 64 + 1 * q.val = q.val; omega)
  rw [r0, r1]
  show _ = edgeRow _ _ _ _ _ _ _ _ _ _ ((((cfg3.win 10).blk t).view.emb (ix2 p q)) 1)
  rw [hq]

/-- An index of the array is in point `t`'s block iff each coordinate is in the block's range on its axis. -/
theorem mem_blk (t : Fin cfg3.N) (i : S600000x64.Idx) :
    i ∈ ((cfg3.win 10).blk t).view.set ↔ ∀ a : Fin 2, win3_10.index t a * S6000x64.size a ≤ (i a).val ∧ (i a).val < win3_10.index t a * S6000x64.size a + S6000x64.size a := by
  show i ∈ ((View.whole main_v78).slice (win3_10.rect t)).set ↔ _
  rw [View.set_slice_whole, Rect.mem_set_unit]
  exact Iff.rfl

/-- Every row is in the block of the point `row / 6000`. -/
theorem cover (i : S600000x64.Idx) : ∃ t : Fin cfg3.N, (cfg3.win 10).flush t = true ∧ i ∈ ((cfg3.win 10).blk t).view.set := by
  have hi0 : (i 0).val < 600000 := (i 0).isLt
  have hi1 : (i 1).val < 64 := (i 1).isLt
  have ht : (i 0).val / 6000 < 100 := by omega
  refine ⟨⟨(i 0).val / 6000, ht⟩, flush3_10 _, ?_⟩
  rw [mem_blk]
  obtain ⟨e0_0, e0_1, e1_0, e1_1, e2_0, e2_1, e3_0, e4_0, e4_1, e5_0, e6_0, e6_1, e7_0, e8_0, e8_1, e9_0, eo0, eo1⟩ := idx_facts ⟨(i 0).val / 6000, ht⟩
  have eo0' : win3_10.index ⟨(i 0).val / 6000, ht⟩ (0 : Fin 2) = (i 0).val / 6000 := eo0
  intro a
  match a with
  | ⟨0, _⟩ => show win3_10.index _ (0 : Fin 2) * 6000 ≤ (i 0).val ∧ (i 0).val < win3_10.index _ (0 : Fin 2) * 6000 + 6000; omega
  | ⟨1, _⟩ => show win3_10.index _ (1 : Fin 2) * 64 ≤ (i 1).val ∧ (i 1).val < win3_10.index _ (1 : Fin 2) * 64 + 64; omega

/-- The result array when the region is left. -/
theorem final (c : Dev nD) : (dat3 V c).arrAt 10 cfg3.N = G V c :=
  (dat3 V c).arrAt_eq_of_cover 10 (G V c) (fun t _ => flushed_eq V c t) cover

end Cert.KernelIdeal.Final3

end
-- ==== Proof.KFinal4.lean ====
/-
  Region 4 (the node update of round 2): what its result array holds when the region is left.

  The region visits 10 blocks of 5000 node rows. At block `t` the body reads rows `t·5000 … t·5000+4999` of the aggregated
  messages and of the node states and the whole parameter arrays, and writes the update of those rows; the blocks tile the
  50000 rows, so the array ends at `Upd` of the arrays the region found.
-/
import proofs.«157614_j5866925326769_1_alg».proof.Proof.Gen.KernelIdeal.Frame
import proofs.«157614_j5866925326769_1_alg».proof.Proof.Spec
import proofs.«157614_j5866925326769_1_alg».proof.Proof.BodyUpd
import Idealize.ShloMosaic.Lib.Pipeline.Value
import Idealize.ShloMosaic.Lib.ValueIdx

set_option maxRecDepth 16384

noncomputable section

namespace Cert.KernelIdeal.Final4

open Cert.KernelIdeal Cert.KernelIdeal.Gen Idealize.ShloMosaic Idealize.ShloMosaic.TcCoe Idealize.SL.Sem
open Idealize.ShloMosaic.ValueIdx Idealize.ShloMosaic.Dense Cert.Gnn
open Idealize.ShloMosaic.Pipeline (Dat Cfg Window)

variable (V : (c : Dev nD) → (b : Ref sig .tc) → Buf (Elt Ideal) ((c : Thread nD τ).loc b))

/-- The printed index maps over the grid: the row-tiled operands and the result move with the point, the parameters stay. -/
theorem idx_facts : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 1) = 0
    ∧ win4_4.index t (0 : Fin 2) = 0
    ∧ win4_4.index t (1 : Fin 2) = 0
    ∧ win4_5.index t (0 : Fin 1) = 0
    ∧ win4_6.index t (0 : Fin 2) = t.val
    ∧ win4_6.index t (1 : Fin 2) = 0 :=
  (by decide +kernel : ∀ t : Fin grid4.N, _)

/-- The array the region leaves, as a function of the arrays it found. -/
abbrev G (c : Dev nD) : Mat 50000 64 :=
  Upd (n := 50000) (V c main_v81) (V c main_v47) (V c main_v83) (V c main_v85) (V c main_v87) (V c main_v89)

/-- What point `t` writes back is block `t` of `G`. -/
theorem flushed_eq (c : Dev nD) (t : Fin cfg4.N) :
    (dat4 V c).flushed 6 t = ((cfg4.win 6).blk t).view.read (Elt Ideal) (G V c) := by
  show (cfg4.win 6).cut (grid4.coords t) ((dat4 V c).after 6 t) = _
  rw [after4_6]
  obtain ⟨e0_0, e0_1, e1_0, e1_1, e2_0, e2_1, e3_0, e4_0, e4_1, e5_0, eo0, eo1⟩ := idx_facts t
  have h2 : iblk4 V c 2 t = V c main_v83 := funext fun j => congrArg (V c main_v83) (funext fun a => Fin.ext (by
    match a with
    | ⟨0, _⟩ => show win4_2.index t (0 : Fin 2) * 128 + 1 * (j 0).val = (j 0).val; omega
    | ⟨1, _⟩ => show win4_2.index t (1 : Fin 2) * 64 + 1 * (j 1).val = (j 1).val; omega))
  have h3 : iblk4 V c 3 t = V c main_v85 := funext fun j => congrArg (V c main_v85) (funext fun a => Fin.ext (by
    match a with
    | ⟨0, _⟩ => show win4_3.index t (0 : Fin 1) * 64 + 1 * (j 0).val = (j 0).val; omega))
  have h4 : iblk4 V c 4 t = V c main_v87 := funext fun j => congrArg (V c main_v87) (funext fun a => Fin.ext (by
    match a with
    | ⟨0, _⟩ => show win4_4.index t (0 : Fin 2) * 64 + 1 * (j 0).val = (j 0).val; omega
    | ⟨1, _⟩ => show win4_4.index t (1 : Fin 2) * 64 + 1 * (j 1).val = (j 1).val; omega))
  have h5 : iblk4 V c 5 t = V c main_v89 := funext fun j => congrArg (V c main_v89) (funext fun a => Fin.ext (by
    match a with
    | ⟨0, _⟩ => show win4_5.index t (0 : Fin 1) * 64 + 1 * (j 0).val = (j 0).val; omega))
  funext y
  obtain ⟨p, q, rfl⟩ : ∃ (p : Fin 5000) (q : Fin 64), y = ix2 p q := ⟨y 0, y 1, eq_ix2 y⟩
  show out4_6 (iblk4 V c 0 t) (iblk4 V c 1 t) (iblk4 V c 2 t) (iblk4 V c 3 t) (iblk4 V c 4 t) (iblk4 V c 5 t) (ix2 p q)
    = G V c (((cfg4.win 6).blk t).view.emb (ix2 p q))
  rw [Cert.KernelIdeal.Body.out4_6_apply, h2, h3, h4, h5]
  have r0 : (fun k => iblk4 V c 0 t (ix2 p k)) = rowOf (V c main_v81) ((((cfg4.win 6).blk t).view.emb (ix2 p q)) 0) :=
    funext fun k => congrArg (V c main_v81) (funext fun a => Fin.ext (by
      match a with
      | ⟨0, _⟩ => show win4_0.index t (0 : Fin 2) * 5000 + 1 * p.val = win4_6.index t (0 : Fin 2) * 5000 + 1 * p.val; omega
      | ⟨1, _⟩ => show win4_0.index t (1 : Fin 2) * 64 + 1 * k.val = k.val; omega))
  have r1 : (fun k => iblk4 V c 1 t (ix2 p k)) = rowOf (V c main_v47) ((((cfg4.win 6).blk t).view.emb (ix2 p q)) 0) :=
    funext fun k => congrArg (V c main_v47) (funext fun a => Fin.ext (by
      match a with
      | ⟨0, _⟩ => show win4_1.index t (0 : Fin 2) * 5000 + 1 * p.val = win4_6.index t (0 : Fin 2) * 5000 + 1 * p.val; omega
      | ⟨1, _⟩ => show win4_1.index t (1 : Fin 2) * 64 + 1 * k.val = k.val; omega))
  have hq : (((cfg4.win 6).blk t).view.emb (ix2 p q)) 1 = q := Fin.ext (by
    show win4_6.index t (1 : Fin 2) * 64 + 1 * q.val = q.val; omega)
  rw [r0, r1]
  show _ = updRow _ _ _ _ _ _ ((((cfg4.win 6).blk t).view.emb (ix2 p q)) 1)
  rw [hq]

/-- An index of the array is in point `t`'s block iff each coordinate is in the block's range on its axis. -/
theorem mem_blk (t : Fin cfg4.N) (i : S50000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole main_v90).slice (win4_6.rect t)).set ↔ _
  rw [View.set_slice_whole, Rect.mem_set_unit]
  exact Iff.rfl

/-- Every row is in the block of the point `row / 5000`. -/
theorem cover (i : S50000x64.Idx) : ∃ t : Fin cfg4.N, (cfg4.win 6).flush t = true ∧ i ∈ ((cfg4.win 6).blk t).view.set := by
  have hi0 : (i 0).val < 50000 := (i 0).isLt
  have hi1 : (i 1).val < 64 := (i 1).isLt
  have ht : (i 0).val / 5000 < 10 := by omega
  refine ⟨⟨(i 0).val / 5000, ht⟩, flush4_6 _, ?_⟩
  rw [mem_blk]
  obtain ⟨e0_0, e0_1, e1_0, e1_1, e2_0, e2_1, e3_0, e4_0, e4_1, e5_0, eo0, eo1⟩ := idx_facts ⟨(i 0).val / 5000, ht⟩
  have eo0' : win4_6.index ⟨(i 0).val / 5000, ht⟩ (0 : Fin 2) = (i 0).val / 5000 := eo0
  intro a
  match a with
  | ⟨0, _⟩ => show win4_6.index _ (0 : Fin 2) * 5000 ≤ (i 0).val ∧ (i 0).val < win4_6.index _ (0 : Fin 2) * 5000 + 5000; omega
  | ⟨1, _⟩ => show win4_6.index _ (1 : Fin 2) * 64 ≤ (i 1).val ∧ (i 1).val < win4_6.index _ (1 : Fin 2) * 64 + 64; omega

/-- The result array when the region is left. -/
theorem final (c : Dev nD) : (dat4 V c).arrAt 6 cfg4.N = G V c :=
  (dat4 V c).arrAt_eq_of_cover 6 (G V c) (fun t _ => flushed_eq V c t) cover

end Cert.KernelIdeal.Final4

end
-- ==== Proof.KNet.lean ====
/-
  The kernel program's result array as the network of the specification.

  The buffers are followed through the program: the encoder's region leaves `x0`; each round gathers the rows of the
  current node states at the edges' targets and sources, its edge region leaves the messages `msg`, the host sums them per
  target node, and its update region leaves the next node states. The argument arrays and the edge index are never
  written, so every stretch and every region finds them as launched.
-/
import proofs.«157614_j5866925326769_1_alg».proof.Proof.KHost
import proofs.«157614_j5866925326769_1_alg».proof.Proof.KFinal0
import proofs.«157614_j5866925326769_1_alg».proof.Proof.KFinal1
import proofs.«157614_j5866925326769_1_alg».proof.Proof.KFinal2
import proofs.«157614_j5866925326769_1_alg».proof.Proof.KFinal3
import proofs.«157614_j5866925326769_1_alg».proof.Proof.KFinal4

set_option maxRecDepth 16384

noncomputable section

namespace Cert.KernelIdeal.Net

open Cert.KernelIdeal Cert.KernelIdeal.Gen Cert.KernelIdeal.Glue Idealize.ShloMosaic Idealize.ShloMosaic.TcCoe Idealize.SL.Sem
open Cert.Gnn

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- The edges' targets. -/
def eDst := dstOf (F := Ideal) (arg m c main_arg31)
/-- The edges' sources. -/
def eSrc := srcOf (F := Ideal) (arg m c main_arg31)
/-- The encoded nodes. -/
def x0 : Mat 50000 64 := Enc (n := 50000) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18)
/-- Round 1's messages. -/
def msg0 : Mat 600000 64 := Edge (n := 600000) (gat (eDst m c) (x0 m c)) (gat (eSrc m c) (x0 m c))
  (w64a (arg m c main_arg19)) (b64a (arg m c main_arg20)) (w64a (arg m c main_arg21)) (b64a (arg m c main_arg22)) (w128a (arg m c main_arg23)) (b64a (arg m c main_arg24)) (w64a (arg m c main_arg25)) (b64a (arg m c main_arg26))
/-- The node states after round 1. -/
def x1 : Mat 50000 64 := Upd (n := 50000) (seg (eDst m c) (msg0 m c)) (x0 m c) (w128a (arg m c main_arg27)) (b64a (arg m c main_arg28)) (w64a (arg m c main_arg29)) (b64a (arg m c main_arg30))
/-- Round 2's messages. -/
def msg1 : Mat 600000 64 := Edge (n := 600000) (gat (eDst m c) (x1 m c)) (gat (eSrc m c) (x1 m c))
  (w64b (arg m c main_arg19)) (b64b (arg m c main_arg20)) (w64b (arg m c main_arg21)) (b64b (arg m c main_arg22)) (w128b (arg m c main_arg23)) (b64b (arg m c main_arg24)) (w64b (arg m c main_arg25)) (b64b (arg m c main_arg26))
/-- The node states after round 2: the program's result. -/
def x2 : Mat 50000 64 := Upd (n := 50000) (seg (eDst m c) (msg1 m c)) (x1 m c) (w128b (arg m c main_arg27)) (b64b (arg m c main_arg28)) (w64b (arg m c main_arg29)) (b64b (arg m c main_arg30))

/-! ## After region 0 -/

theorem w1_v0 : W1 m ρ c (Proc.devRef .tc main_v0) = x0 m c :=
  (W1_arr m ρ c 19).trans (Final0.final (V0 m ρ) c)

theorem w1_arg19 : W1 m ρ c (Proc.devRef .tc main_arg19) = arg m c main_arg19 :=
  W1_of_ne m ρ c main_arg19 (by decide)

theorem w1_arg20 : W1 m ρ c (Proc.devRef .tc main_arg20) = arg m c main_arg20 :=
  W1_of_ne m ρ c main_arg20 (by decide)

theorem w1_arg21 : W1 m ρ c (Proc.devRef .tc main_arg21) = arg m c main_arg21 :=
  W1_of_ne m ρ c main_arg21 (by decide)

theorem w1_arg22 : W1 m ρ c (Proc.devRef .tc main_arg22) = arg m c main_arg22 :=
  W1_of_ne m ρ c main_arg22 (by decide)

theorem w1_arg23 : W1 m ρ c (Proc.devRef .tc main_arg23) = arg m c main_arg23 :=
  W1_of_ne m ρ c main_arg23 (by decide)

theorem w1_arg24 : W1 m ρ c (Proc.devRef .tc main_arg24) = arg m c main_arg24 :=
  W1_of_ne m ρ c main_arg24 (by decide)

theorem w1_arg25 : W1 m ρ c (Proc.devRef .tc main_arg25) = arg m c main_arg25 :=
  W1_of_ne m ρ c main_arg25 (by decide)

theorem w1_arg26 : W1 m ρ c (Proc.devRef .tc main_arg26) = arg m c main_arg26 :=
  W1_of_ne m ρ c main_arg26 (by decide)

theorem w1_arg27 : W1 m ρ c (Proc.devRef .tc main_arg27) = arg m c main_arg27 :=
  W1_of_ne m ρ c main_arg27 (by decide)

theorem w1_arg28 : W1 m ρ c (Proc.devRef .tc main_arg28) = arg m c main_arg28 :=
  W1_of_ne m ρ c main_arg28 (by decide)

theorem w1_arg29 : W1 m ρ c (Proc.devRef .tc main_arg29) = arg m c main_arg29 :=
  W1_of_ne m ρ c main_arg29 (by decide)

theorem w1_arg30 : W1 m ρ c (Proc.devRef .tc main_arg30) = arg m c main_arg30 :=
  W1_of_ne m ρ c main_arg30 (by decide)

theorem w1_arg31 : W1 m ρ c (Proc.devRef .tc main_arg31) = arg m c main_arg31 :=
  W1_of_ne m ρ c main_arg31 (by decide)

/-! ## After stretch 1 -/

theorem w2_v2 : W2 m ρ c (Proc.devRef .tc main_v2) = eSrc m c := by
  show StableHlo.after hostOps1 (W1 m ρ c) (Proc.devRef .tc main_v2) = _
  rw [Glue.s1_v2, w1_arg31]
  rfl

theorem w2_v4 : W2 m ρ c (Proc.devRef .tc main_v4) = eDst m c := by
  show StableHlo.after hostOps1 (W1 m ρ c) (Proc.devRef .tc main_v4) = _
  rw [Glue.s1_v4, w1_arg31]
  rfl

theorem w2_v11 : W2 m ρ c (Proc.devRef .tc main_v11) = gat (eDst m c) (x0 m c) := by
  show StableHlo.after hostOps1 (W1 m ρ c) (Proc.devRef .tc main_v11) = _
  rw [Glue.s1_v11, w1_arg31, w1_v0]
  rfl

theorem w2_v18 : W2 m ρ c (Proc.devRef .tc main_v18) = gat (eSrc m c) (x0 m c) := by
  show StableHlo.after hostOps1 (W1 m ρ c) (Proc.devRef .tc main_v18) = _
  rw [Glue.s1_v18, w1_arg31, w1_v0]
  rfl

theorem w2_v20 : W2 m ρ c (Proc.devRef .tc main_v20) = w64a (arg m c main_arg19) := by
  show StableHlo.after hostOps1 (W1 m ρ c) (Proc.devRef .tc main_v20) = _
  rw [Glue.s1_v20, w1_arg19]

theorem w2_v22 : W2 m ρ c (Proc.devRef .tc main_v22) = b64a (arg m c main_arg20) := by
  show StableHlo.after hostOps1 (W1 m ρ c) (Proc.devRef .tc main_v22) = _
  rw [Glue.s1_v22, w1_arg20]

theorem w2_v24 : W2 m ρ c (Proc.devRef .tc main_v24) = w64a (arg m c main_arg21) := by
  show StableHlo.after hostOps1 (W1 m ρ c) (Proc.devRef .tc main_v24) = _
  rw [Glue.s1_v24, w1_arg21]

theorem w2_v26 : W2 m ρ c (Proc.devRef .tc main_v26) = b64a (arg m c main_arg22) := by
  show StableHlo.after hostOps1 (W1 m ρ c) (Proc.devRef .tc main_v26) = _
  rw [Glue.s1_v26, w1_arg22]

theorem w2_v28 : W2 m ρ c (Proc.devRef .tc main_v28) = w128a (arg m c main_arg23) := by
  show StableHlo.after hostOps1 (W1 m ρ c) (Proc.devRef .tc main_v28) = _
  rw [Glue.s1_v28, w1_arg23]

theorem w2_v30 : W2 m ρ c (Proc.devRef .tc main_v30) = b64a (arg m c main_arg24) := by
  show StableHlo.after hostOps1 (W1 m ρ c) (Proc.devRef .tc main_v30) = _
  rw [Glue.s1_v30, w1_arg24]

theorem w2_v32 : W2 m ρ c (Proc.devRef .tc main_v32) = w64a (arg m c main_arg25) := by
  show StableHlo.after hostOps1 (W1 m ρ c) (Proc.devRef .tc main_v32) = _
  rw [Glue.s1_v32, w1_arg25]

theorem w2_v34 : W2 m ρ c (Proc.devRef .tc main_v34) = b64a (arg m c main_arg26) := by
  show StableHlo.after hostOps1 (W1 m ρ c) (Proc.devRef .tc main_v34) = _
  rw [Glue.s1_v34, w1_arg26]

theorem w2_v0 : W2 m ρ c (Proc.devRef .tc main_v0) = x0 m c :=
  (Glue.keep1 (W1 m ρ c) main_v0 (by decide)).trans (w1_v0 m ρ c)

theorem w2_arg19 : W2 m ρ c (Proc.devRef .tc main_arg19) = arg m c main_arg19 :=
  (Glue.keep1 (W1 m ρ c) main_arg19 (by decide)).trans (w1_arg19 m ρ c)

theorem w2_arg20 : W2 m ρ c (Proc.devRef .tc main_arg20) = arg m c main_arg20 :=
  (Glue.keep1 (W1 m ρ c) main_arg20 (by decide)).trans (w1_arg20 m ρ c)

theorem w2_arg21 : W2 m ρ c (Proc.devRef .tc main_arg21) = arg m c main_arg21 :=
  (Glue.keep1 (W1 m ρ c) main_arg21 (by decide)).trans (w1_arg21 m ρ c)

theorem w2_arg22 : W2 m ρ c (Proc.devRef .tc main_arg22) = arg m c main_arg22 :=
  (Glue.keep1 (W1 m ρ c) main_arg22 (by decide)).trans (w1_arg22 m ρ c)

theorem w2_arg23 : W2 m ρ c (Proc.devRef .tc main_arg23) = arg m c main_arg23 :=
  (Glue.keep1 (W1 m ρ c) main_arg23 (by decide)).trans (w1_arg23 m ρ c)

theorem w2_arg24 : W2 m ρ c (Proc.devRef .tc main_arg24) = arg m c main_arg24 :=
  (Glue.keep1 (W1 m ρ c) main_arg24 (by decide)).trans (w1_arg24 m ρ c)

theorem w2_arg25 : W2 m ρ c (Proc.devRef .tc main_arg25) = arg m c main_arg25 :=
  (Glue.keep1 (W1 m ρ c) main_arg25 (by decide)).trans (w1_arg25 m ρ c)

theorem w2_arg26 : W2 m ρ c (Proc.devRef .tc main_arg26) = arg m c main_arg26 :=
  (Glue.keep1 (W1 m ρ c) main_arg26 (by decide)).trans (w1_arg26 m ρ c)

theorem w2_arg27 : W2 m ρ c (Proc.devRef .tc main_arg27) = arg m c main_arg27 :=
  (Glue.keep1 (W1 m ρ c) main_arg27 (by decide)).trans (w1_arg27 m ρ c)

theorem w2_arg28 : W2 m ρ c (Proc.devRef .tc main_arg28) = arg m c main_arg28 :=
  (Glue.keep1 (W1 m ρ c) main_arg28 (by decide)).trans (w1_arg28 m ρ c)

theorem w2_arg29 : W2 m ρ c (Proc.devRef .tc main_arg29) = arg m c main_arg29 :=
  (Glue.keep1 (W1 m ρ c) main_arg29 (by decide)).trans (w1_arg29 m ρ c)

theorem w2_arg30 : W2 m ρ c (Proc.devRef .tc main_arg30) = arg m c main_arg30 :=
  (Glue.keep1 (W1 m ρ c) main_arg30 (by decide)).trans (w1_arg30 m ρ c)

/-! ## After region 1 -/

theorem w3_v35 : W3 m ρ c (Proc.devRef .tc main_v35) = msg0 m c := by
  refine (W3_arr m ρ c 10).trans ((Final1.final (V2 m ρ) c).trans ?_)
  show Edge (n := 600000) (W2 m ρ c (Proc.devRef .tc main_v11)) (W2 m ρ c (Proc.devRef .tc main_v18)) (W2 m ρ c (Proc.devRef .tc main_v20)) (W2 m ρ c (Proc.devRef .tc main_v22)) (W2 m ρ c (Proc.devRef .tc main_v24)) (W2 m ρ c (Proc.devRef .tc main_v26)) (W2 m ρ c (Proc.devRef .tc main_v28)) (W2 m ρ c (Proc.devRef .tc main_v30)) (W2 m ρ c (Proc.devRef .tc main_v32)) (W2 m ρ c (Proc.devRef .tc main_v34)) = _
  rw [w2_v11, w2_v18, w2_v20, w2_v22, w2_v24, w2_v26, w2_v28, w2_v30, w2_v32, w2_v34]
  rfl

theorem w3_v0 : W3 m ρ c (Proc.devRef .tc main_v0) = x0 m c :=
  (W3_of_ne m ρ c main_v0 (by decide)).trans (w2_v0 m ρ c)

theorem w3_v2 : W3 m ρ c (Proc.devRef .tc main_v2) = eSrc m c :=
  (W3_of_ne m ρ c main_v2 (by decide)).trans (w2_v2 m ρ c)

theorem w3_v4 : W3 m ρ c (Proc.devRef .tc main_v4) = eDst m c :=
  (W3_of_ne m ρ c main_v4 (by decide)).trans (w2_v4 m ρ c)

theorem w3_arg19 : W3 m ρ c (Proc.devRef .tc main_arg19) = arg m c main_arg19 :=
  (W3_of_ne m ρ c main_arg19 (by decide)).trans (w2_arg19 m ρ c)

theorem w3_arg20 : W3 m ρ c (Proc.devRef .tc main_arg20) = arg m c main_arg20 :=
  (W3_of_ne m ρ c main_arg20 (by decide)).trans (w2_arg20 m ρ c)

theorem w3_arg21 : W3 m ρ c (Proc.devRef .tc main_arg21) = arg m c main_arg21 :=
  (W3_of_ne m ρ c main_arg21 (by decide)).trans (w2_arg21 m ρ c)

theorem w3_arg22 : W3 m ρ c (Proc.devRef .tc main_arg22) = arg m c main_arg22 :=
  (W3_of_ne m ρ c main_arg22 (by decide)).trans (w2_arg22 m ρ c)

theorem w3_arg23 : W3 m ρ c (Proc.devRef .tc main_arg23) = arg m c main_arg23 :=
  (W3_of_ne m ρ c main_arg23 (by decide)).trans (w2_arg23 m ρ c)

theorem w3_arg24 : W3 m ρ c (Proc.devRef .tc main_arg24) = arg m c main_arg24 :=
  (W3_of_ne m ρ c main_arg24 (by decide)).trans (w2_arg24 m ρ c)

theorem w3_arg25 : W3 m ρ c (Proc.devRef .tc main_arg25) = arg m c main_arg25 :=
  (W3_of_ne m ρ c main_arg25 (by decide)).trans (w2_arg25 m ρ c)

theorem w3_arg26 : W3 m ρ c (Proc.devRef .tc main_arg26) = arg m c main_arg26 :=
  (W3_of_ne m ρ c main_arg26 (by decide)).trans (w2_arg26 m ρ c)

theorem w3_arg27 : W3 m ρ c (Proc.devRef .tc main_arg27) = arg m c main_arg27 :=
  (W3_of_ne m ρ c main_arg27 (by decide)).trans (w2_arg27 m ρ c)

theorem w3_arg28 : W3 m ρ c (Proc.devRef .tc main_arg28) = arg m c main_arg28 :=
  (W3_of_ne m ρ c main_arg28 (by decide)).trans (w2_arg28 m ρ c)

theorem w3_arg29 : W3 m ρ c (Proc.devRef .tc main_arg29) = arg m c main_arg29 :=
  (W3_of_ne m ρ c main_arg29 (by decide)).trans (w2_arg29 m ρ c)

theorem w3_arg30 : W3 m ρ c (Proc.devRef .tc main_arg30) = arg m c main_arg30 :=
  (W3_of_ne m ρ c main_arg30 (by decide)).trans (w2_arg30 m ρ c)

/-! ## After stretch 2 -/

theorem w4_v38 : W4 m ρ c (Proc.devRef .tc main_v38) = seg (eDst m c) (msg0 m c) := by
  show StableHlo.after hostOps2 (W3 m ρ c) (Proc.devRef .tc main_v38) = _
  rw [Glue.s2_v38, w3_v4, w3_v35]

theorem w4_v40 : W4 m ρ c (Proc.devRef .tc main_v40) = w128a (arg m c main_arg27) := by
  show StableHlo.after hostOps2 (W3 m ρ c) (Proc.devRef .tc main_v40) = _
  rw [Glue.s2_v40, w3_arg27]

theorem w4_v42 : W4 m ρ c (Proc.devRef .tc main_v42) = b64a (arg m c main_arg28) := by
  show StableHlo.after hostOps2 (W3 m ρ c) (Proc.devRef .tc main_v42) = _
  rw [Glue.s2_v42, w3_arg28]

theorem w4_v44 : W4 m ρ c (Proc.devRef .tc main_v44) = w64a (arg m c main_arg29) := by
  show StableHlo.after hostOps2 (W3 m ρ c) (Proc.devRef .tc main_v44) = _
  rw [Glue.s2_v44, w3_arg29]

theorem w4_v46 : W4 m ρ c (Proc.devRef .tc main_v46) = b64a (arg m c main_arg30) := by
  show StableHlo.after hostOps2 (W3 m ρ c) (Proc.devRef .tc main_v46) = _
  rw [Glue.s2_v46, w3_arg30]

theorem w4_v0 : W4 m ρ c (Proc.devRef .tc main_v0) = x0 m c :=
  (Glue.keep2 (W3 m ρ c) main_v0 (by decide)).trans (w3_v0 m ρ c)

theorem w4_v2 : W4 m ρ c (Proc.devRef .tc main_v2) = eSrc m c :=
  (Glue.keep2 (W3 m ρ c) main_v2 (by decide)).trans (w3_v2 m ρ c)

theorem w4_v4 : W4 m ρ c (Proc.devRef .tc main_v4) = eDst m c :=
  (Glue.keep2 (W3 m ρ c) main_v4 (by decide)).trans (w3_v4 m ρ c)

theorem w4_arg19 : W4 m ρ c (Proc.devRef .tc main_arg19) = arg m c main_arg19 :=
  (Glue.keep2 (W3 m ρ c) main_arg19 (by decide)).trans (w3_arg19 m ρ c)

theorem w4_arg20 : W4 m ρ c (Proc.devRef .tc main_arg20) = arg m c main_arg20 :=
  (Glue.keep2 (W3 m ρ c) main_arg20 (by decide)).trans (w3_arg20 m ρ c)

theorem w4_arg21 : W4 m ρ c (Proc.devRef .tc main_arg21) = arg m c main_arg21 :=
  (Glue.keep2 (W3 m ρ c) main_arg21 (by decide)).trans (w3_arg21 m ρ c)

theorem w4_arg22 : W4 m ρ c (Proc.devRef .tc main_arg22) = arg m c main_arg22 :=
  (Glue.keep2 (W3 m ρ c) main_arg22 (by decide)).trans (w3_arg22 m ρ c)

theorem w4_arg23 : W4 m ρ c (Proc.devRef .tc main_arg23) = arg m c main_arg23 :=
  (Glue.keep2 (W3 m ρ c) main_arg23 (by decide)).trans (w3_arg23 m ρ c)

theorem w4_arg24 : W4 m ρ c (Proc.devRef .tc main_arg24) = arg m c main_arg24 :=
  (Glue.keep2 (W3 m ρ c) main_arg24 (by decide)).trans (w3_arg24 m ρ c)

theorem w4_arg25 : W4 m ρ c (Proc.devRef .tc main_arg25) = arg m c main_arg25 :=
  (Glue.keep2 (W3 m ρ c) main_arg25 (by decide)).trans (w3_arg25 m ρ c)

theorem w4_arg26 : W4 m ρ c (Proc.devRef .tc main_arg26) = arg m c main_arg26 :=
  (Glue.keep2 (W3 m ρ c) main_arg26 (by decide)).trans (w3_arg26 m ρ c)

theorem w4_arg27 : W4 m ρ c (Proc.devRef .tc main_arg27) = arg m c main_arg27 :=
  (Glue.keep2 (W3 m ρ c) main_arg27 (by decide)).trans (w3_arg27 m ρ c)

theorem w4_arg28 : W4 m ρ c (Proc.devRef .tc main_arg28) = arg m c main_arg28 :=
  (Glue.keep2 (W3 m ρ c) main_arg28 (by decide)).trans (w3_arg28 m ρ c)

theorem w4_arg29 : W4 m ρ c (Proc.devRef .tc main_arg29) = arg m c main_arg29 :=
  (Glue.keep2 (W3 m ρ c) main_arg29 (by decide)).trans (w3_arg29 m ρ c)

theorem w4_arg30 : W4 m ρ c (Proc.devRef .tc main_arg30) = arg m c main_arg30 :=
  (Glue.keep2 (W3 m ρ c) main_arg30 (by decide)).trans (w3_arg30 m ρ c)

/-! ## After region 2 -/

theorem w5_v47 : W5 m ρ c (Proc.devRef .tc main_v47) = x1 m c := by
  refine (W5_arr m ρ c 6).trans ((Final2.final (V4 m ρ) c).trans ?_)
  show Upd (n := 50000) (W4 m ρ c (Proc.devRef .tc main_v38)) (W4 m ρ c (Proc.devRef .tc main_v0)) (W4 m ρ c (Proc.devRef .tc main_v40)) (W4 m ρ c (Proc.devRef .tc main_v42)) (W4 m ρ c (Proc.devRef .tc main_v44)) (W4 m ρ c (Proc.devRef .tc main_v46)) = _
  rw [w4_v38, w4_v0, w4_v40, w4_v42, w4_v44, w4_v46]
  rfl

theorem w5_v2 : W5 m ρ c (Proc.devRef .tc main_v2) = eSrc m c :=
  (W5_of_ne m ρ c main_v2 (by decide)).trans (w4_v2 m ρ c)

theorem w5_v4 : W5 m ρ c (Proc.devRef .tc main_v4) = eDst m c :=
  (W5_of_ne m ρ c main_v4 (by decide)).trans (w4_v4 m ρ c)

theorem w5_arg19 : W5 m ρ c (Proc.devRef .tc main_arg19) = arg m c main_arg19 :=
  (W5_of_ne m ρ c main_arg19 (by decide)).trans (w4_arg19 m ρ c)

theorem w5_arg20 : W5 m ρ c (Proc.devRef .tc main_arg20) = arg m c main_arg20 :=
  (W5_of_ne m ρ c main_arg20 (by decide)).trans (w4_arg20 m ρ c)

theorem w5_arg21 : W5 m ρ c (Proc.devRef .tc main_arg21) = arg m c main_arg21 :=
  (W5_of_ne m ρ c main_arg21 (by decide)).trans (w4_arg21 m ρ c)

theorem w5_arg22 : W5 m ρ c (Proc.devRef .tc main_arg22) = arg m c main_arg22 :=
  (W5_of_ne m ρ c main_arg22 (by decide)).trans (w4_arg22 m ρ c)

theorem w5_arg23 : W5 m ρ c (Proc.devRef .tc main_arg23) = arg m c main_arg23 :=
  (W5_of_ne m ρ c main_arg23 (by decide)).trans (w4_arg23 m ρ c)

theorem w5_arg24 : W5 m ρ c (Proc.devRef .tc main_arg24) = arg m c main_arg24 :=
  (W5_of_ne m ρ c main_arg24 (by decide)).trans (w4_arg24 m ρ c)

theorem w5_arg25 : W5 m ρ c (Proc.devRef .tc main_arg25) = arg m c main_arg25 :=
  (W5_of_ne m ρ c main_arg25 (by decide)).trans (w4_arg25 m ρ c)

theorem w5_arg26 : W5 m ρ c (Proc.devRef .tc main_arg26) = arg m c main_arg26 :=
  (W5_of_ne m ρ c main_arg26 (by decide)).trans (w4_arg26 m ρ c)

theorem w5_arg27 : W5 m ρ c (Proc.devRef .tc main_arg27) = arg m c main_arg27 :=
  (W5_of_ne m ρ c main_arg27 (by decide)).trans (w4_arg27 m ρ c)

theorem w5_arg28 : W5 m ρ c (Proc.devRef .tc main_arg28) = arg m c main_arg28 :=
  (W5_of_ne m ρ c main_arg28 (by decide)).trans (w4_arg28 m ρ c)

theorem w5_arg29 : W5 m ρ c (Proc.devRef .tc main_arg29) = arg m c main_arg29 :=
  (W5_of_ne m ρ c main_arg29 (by decide)).trans (w4_arg29 m ρ c)

theorem w5_arg30 : W5 m ρ c (Proc.devRef .tc main_arg30) = arg m c main_arg30 :=
  (W5_of_ne m ρ c main_arg30 (by decide)).trans (w4_arg30 m ρ c)

/-! ## After stretch 3 -/

theorem w6_v54 : W6 m ρ c (Proc.devRef .tc main_v54) = gat (eDst m c) (x1 m c) := by
  show StableHlo.after hostOps3 (W5 m ρ c) (Proc.devRef .tc main_v54) = _
  rw [Glue.s3_v54, w5_v4, w5_v47]

theorem w6_v61 : W6 m ρ c (Proc.devRef .tc main_v61) = gat (eSrc m c) (x1 m c) := by
  show StableHlo.after hostOps3 (W5 m ρ c) (Proc.devRef .tc main_v61) = _
  rw [Glue.s3_v61, w5_v2, w5_v47]

theorem w6_v63 : W6 m ρ c (Proc.devRef .tc main_v63) = w64b (arg m c main_arg19) := by
  show StableHlo.after hostOps3 (W5 m ρ c) (Proc.devRef .tc main_v63) = _
  rw [Glue.s3_v63, w5_arg19]

theorem w6_v65 : W6 m ρ c (Proc.devRef .tc main_v65) = b64b (arg m c main_arg20) := by
  show StableHlo.after hostOps3 (W5 m ρ c) (Proc.devRef .tc main_v65) = _
  rw [Glue.s3_v65, w5_arg20]

theorem w6_v67 : W6 m ρ c (Proc.devRef .tc main_v67) = w64b (arg m c main_arg21) := by
  show StableHlo.after hostOps3 (W5 m ρ c) (Proc.devRef .tc main_v67) = _
  rw [Glue.s3_v67, w5_arg21]

theorem w6_v69 : W6 m ρ c (Proc.devRef .tc main_v69) = b64b (arg m c main_arg22) := by
  show StableHlo.after hostOps3 (W5 m ρ c) (Proc.devRef .tc main_v69) = _
  rw [Glue.s3_v69, w5_arg22]

theorem w6_v71 : W6 m ρ c (Proc.devRef .tc main_v71) = w128b (arg m c main_arg23) := by
  show StableHlo.after hostOps3 (W5 m ρ c) (Proc.devRef .tc main_v71) = _
  rw [Glue.s3_v71, w5_arg23]

theorem w6_v73 : W6 m ρ c (Proc.devRef .tc main_v73) = b64b (arg m c main_arg24) := by
  show StableHlo.after hostOps3 (W5 m ρ c) (Proc.devRef .tc main_v73) = _
  rw [Glue.s3_v73, w5_arg24]

theorem w6_v75 : W6 m ρ c (Proc.devRef .tc main_v75) = w64b (arg m c main_arg25) := by
  show StableHlo.after hostOps3 (W5 m ρ c) (Proc.devRef .tc main_v75) = _
  rw [Glue.s3_v75, w5_arg25]

theorem w6_v77 : W6 m ρ c (Proc.devRef .tc main_v77) = b64b (arg m c main_arg26) := by
  show StableHlo.after hostOps3 (W5 m ρ c) (Proc.devRef .tc main_v77) = _
  rw [Glue.s3_v77, w5_arg26]

theorem w6_v47 : W6 m ρ c (Proc.devRef .tc main_v47) = x1 m c :=
  (Glue.keep3 (W5 m ρ c) main_v47 (by decide)).trans (w5_v47 m ρ c)

theorem w6_v4 : W6 m ρ c (Proc.devRef .tc main_v4) = eDst m c :=
  (Glue.keep3 (W5 m ρ c) main_v4 (by decide)).trans (w5_v4 m ρ c)

theorem w6_arg27 : W6 m ρ c (Proc.devRef .tc main_arg27) = arg m c main_arg27 :=
  (Glue.keep3 (W5 m ρ c) main_arg27 (by decide)).trans (w5_arg27 m ρ c)

theorem w6_arg28 : W6 m ρ c (Proc.devRef .tc main_arg28) = arg m c main_arg28 :=
  (Glue.keep3 (W5 m ρ c) main_arg28 (by decide)).trans (w5_arg28 m ρ c)

theorem w6_arg29 : W6 m ρ c (Proc.devRef .tc main_arg29) = arg m c main_arg29 :=
  (Glue.keep3 (W5 m ρ c) main_arg29 (by decide)).trans (w5_arg29 m ρ c)

theorem w6_arg30 : W6 m ρ c (Proc.devRef .tc main_arg30) = arg m c main_arg30 :=
  (Glue.keep3 (W5 m ρ c) main_arg30 (by decide)).trans (w5_arg30 m ρ c)

/-! ## After region 3 -/

theorem w7_v78 : W7 m ρ c (Proc.devRef .tc main_v78) = msg1 m c := by
  refine (W7_arr m ρ c 10).trans ((Final3.final (V6 m ρ) c).trans ?_)
  show Edge (n := 600000) (W6 m ρ c (Proc.devRef .tc main_v54)) (W6 m ρ c (Proc.devRef .tc main_v61)) (W6 m ρ c (Proc.devRef .tc main_v63)) (W6 m ρ c (Proc.devRef .tc main_v65)) (W6 m ρ c (Proc.devRef .tc main_v67)) (W6 m ρ c (Proc.devRef .tc main_v69)) (W6 m ρ c (Proc.devRef .tc main_v71)) (W6 m ρ c (Proc.devRef .tc main_v73)) (W6 m ρ c (Proc.devRef .tc main_v75)) (W6 m ρ c (Proc.devRef .tc main_v77)) = _
  rw [w6_v54, w6_v61, w6_v63, w6_v65, w6_v67, w6_v69, w6_v71, w6_v73, w6_v75, w6_v77]
  rfl

theorem w7_v47 : W7 m ρ c (Proc.devRef .tc main_v47) = x1 m c :=
  (W7_of_ne m ρ c main_v47 (by decide)).trans (w6_v47 m ρ c)

theorem w7_v4 : W7 m ρ c (Proc.devRef .tc main_v4) = eDst m c :=
  (W7_of_ne m ρ c main_v4 (by decide)).trans (w6_v4 m ρ c)

theorem w7_arg27 : W7 m ρ c (Proc.devRef .tc main_arg27) = arg m c main_arg27 :=
  (W7_of_ne m ρ c main_arg27 (by decide)).trans (w6_arg27 m ρ c)

theorem w7_arg28 : W7 m ρ c (Proc.devRef .tc main_arg28) = arg m c main_arg28 :=
  (W7_of_ne m ρ c main_arg28 (by decide)).trans (w6_arg28 m ρ c)

theorem w7_arg29 : W7 m ρ c (Proc.devRef .tc main_arg29) = arg m c main_arg29 :=
  (W7_of_ne m ρ c main_arg29 (by decide)).trans (w6_arg29 m ρ c)

theorem w7_arg30 : W7 m ρ c (Proc.devRef .tc main_arg30) = arg m c main_arg30 :=
  (W7_of_ne m ρ c main_arg30 (by decide)).trans (w6_arg30 m ρ c)

/-! ## After stretch 4 -/

theorem w8_v81 : W8 m ρ c (Proc.devRef .tc main_v81) = seg (eDst m c) (msg1 m c) := by
  show StableHlo.after hostOps4 (W7 m ρ c) (Proc.devRef .tc main_v81) = _
  rw [Glue.s4_v81, w7_v4, w7_v78]

theorem w8_v83 : W8 m ρ c (Proc.devRef .tc main_v83) = w128b (arg m c main_arg27) := by
  show StableHlo.after hostOps4 (W7 m ρ c) (Proc.devRef .tc main_v83) = _
  rw [Glue.s4_v83, w7_arg27]

theorem w8_v85 : W8 m ρ c (Proc.devRef .tc main_v85) = b64b (arg m c main_arg28) := by
  show StableHlo.after hostOps4 (W7 m ρ c) (Proc.devRef .tc main_v85) = _
  rw [Glue.s4_v85, w7_arg28]

theorem w8_v87 : W8 m ρ c (Proc.devRef .tc main_v87) = w64b (arg m c main_arg29) := by
  show StableHlo.after hostOps4 (W7 m ρ c) (Proc.devRef .tc main_v87) = _
  rw [Glue.s4_v87, w7_arg29]

theorem w8_v89 : W8 m ρ c (Proc.devRef .tc main_v89) = b64b (arg m c main_arg30) := by
  show StableHlo.after hostOps4 (W7 m ρ c) (Proc.devRef .tc main_v89) = _
  rw [Glue.s4_v89, w7_arg30]

theorem w8_v47 : W8 m ρ c (Proc.devRef .tc main_v47) = x1 m c :=
  (Glue.keep4 (W7 m ρ c) main_v47 (by decide)).trans (w7_v47 m ρ c)

/-! ## After region 4 -/

theorem w9_v90 : W9 m ρ c (Proc.devRef .tc main_v90) = x2 m c := by
  refine (W9_arr m ρ c 6).trans ((Final4.final (V8 m ρ) c).trans ?_)
  show Upd (n := 50000) (W8 m ρ c (Proc.devRef .tc main_v81)) (W8 m ρ c (Proc.devRef .tc main_v47)) (W8 m ρ c (Proc.devRef .tc main_v83)) (W8 m ρ c (Proc.devRef .tc main_v85)) (W8 m ρ c (Proc.devRef .tc main_v87)) (W8 m ρ c (Proc.devRef .tc main_v89)) = _
  rw [w8_v81, w8_v47, w8_v83, w8_v85, w8_v87, w8_v89]
  rfl

/-- The result is two rounds of message passing on the encoded nodes. -/
theorem x2_eq : x2 m c = Layer (gat (eDst m c)) (gat (eSrc m c)) (seg (eDst m c))
    (Layer (gat (eDst m c)) (gat (eSrc m c)) (seg (eDst m c)) (x0 m c)
      (w64a (arg m c main_arg19)) (b64a (arg m c main_arg20)) (w64a (arg m c main_arg21)) (b64a (arg m c main_arg22)) (w128a (arg m c main_arg23)) (b64a (arg m c main_arg24)) (w64a (arg m c main_arg25)) (b64a (arg m c main_arg26))
      (w128a (arg m c main_arg27)) (b64a (arg m c main_arg28)) (w64a (arg m c main_arg29)) (b64a (arg m c main_arg30)))
    (w64b (arg m c main_arg19)) (b64b (arg m c main_arg20)) (w64b (arg m c main_arg21)) (b64b (arg m c main_arg22)) (w128b (arg m c main_arg23)) (b64b (arg m c main_arg24)) (w64b (arg m c main_arg25)) (b64b (arg m c main_arg26))
    (w128b (arg m c main_arg27)) (b64b (arg m c main_arg28)) (w64b (arg m c main_arg29)) (b64b (arg m c main_arg30)) := rfl

end Cert.KernelIdeal.Net

end
-- ==== Proof.LibDenseRows.lean ====
/-
  GENERAL LEMMAS: the host's dense layers and a side-by-side join, read as whole arrays on the extended reals.

  `LibDense.lean` reads an affine layer at one entry `(p, c)`. Here the same facts are stated for the whole array: the
  layer's result is the function sending an index `i` to `lin` (or `relu ∘ lin`) of row `i 0` of the left operand at
  column `i 1`; two blocks joined side by side send `i` to `cat` of the two rows `i 0` at `i 1`. An equality of whole
  arrays can be rewritten anywhere in a composed term, with no binder to enter.
-/
import proofs.«157614_j5866925326769_1_alg».proof.Proof.LibDense

noncomputable section

namespace Idealize.ShloMosaic.Dense

open Idealize.ShloMosaic Idealize.ShloMosaic.ValueIdx

variable {M K N : Nat}

/-- The host's affine layer as a whole array: entry `(p, c)` is `lin` of row `p` of the left operand at `c`. -/
theorem hostDot_bias_eq {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1]) :
    addf (Host.dotGeneral D none l r) (broadcastInDim ⟨2, ![M, N]⟩ ![0, 1] h2 (broadcastInDim ⟨2, ![1, N]⟩ ![1] h1 b))
      = fun i => lin (fun k => l (ix2 (i 0) k)) (fun k n => r (ix2 k n)) (fun n => b (ix1 n)) (i 1) := by
  funext i
  obtain ⟨p, c, rfl⟩ : ∃ (p : Fin M) (c : Fin N), i = ix2 p c := ⟨i 0, i 1, eq_ix2 i⟩
  exact hostDot_bias_apply D hD l r b h1 h2 p c

/-- The host's affine layer followed by the positive part, as a whole array. -/
theorem hostDot_bias_relu_eq {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (h0 : (⟨0, ![]⟩ : Shape).BroadcastsInDim ⟨2, ![M, N]⟩ ![]) :
    maximumf (addf (Host.dotGeneral D none l r) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = fun i => relu (lin (fun k => l (ix2 (i 0) k)) (fun k n => r (ix2 k n)) (fun n => b (ix1 n)) (i 1)) := by
  funext i
  obtain ⟨p, c, rfl⟩ : ∃ (p : Fin M) (c : Fin N), i = ix2 p c := ⟨i 0, i 1, eq_ix2 i⟩
  exact hostDot_bias_relu_apply D hD l r b h1 h2 h0 p c

/-- Two blocks side by side as a whole array: row `r` is row `r` of the first joined with row `r` of the second. -/
theorem concat_cols_eq {n a b c : Nat} (hc : c = a + b) (x₁ : (⟨2, ![n, a]⟩ : Shape).Idx → EReal) (x₂ : (⟨2, ![n, b]⟩ : Shape).Idx → EReal)
    (h : Shape.Concatenates [(⟨2, ![n, a]⟩ : Shape), ⟨2, ![n, b]⟩] ⟨2, ![n, c]⟩ (1 : Fin 2)) :
    concatenate ⟨2, ![n, c]⟩ (1 : Fin 2) [⟨⟨2, ![n, a]⟩, x₁⟩, ⟨⟨2, ![n, b]⟩, x₂⟩] h
      = fun i => cat hc (fun q => x₁ (ix2 (i 0) q)) (fun q => x₂ (ix2 (i 0) q)) (i 1) := by
  funext i
  obtain ⟨r, j, rfl⟩ : ∃ (r : Fin n) (j : Fin c), i = ix2 r j := ⟨i 0, i 1, eq_ix2 i⟩
  exact concat_cols_apply hc x₁ x₂ h r j

end Idealize.ShloMosaic.Dense

end
-- ==== Proof.RefLayers.lean ====
/-
  The reference program's result as the specification's network, on the extended reals.

  Each dense layer of the host program (a product, a bias row broadcast down the rows, the positive part against a
  broadcast zero) acts on every row separately. Read as whole arrays: the encoder is `Cert.Gnn.Enc`, an edge's message is
  `Cert.Gnn.Edge`, a node's update is `Cert.Gnn.Upd`; the gathers, the segment sum and the weight slices stay opaque.
  The result buffer's composed term is then the encoder followed by two rounds of `Cert.Gnn.Layer`.
-/
import proofs.«157614_j5866925326769_1_alg».proof.Proof.Spec
import proofs.«157614_j5866925326769_1_alg».proof.Proof.LibConcatCols
import proofs.«157614_j5866925326769_1_alg».proof.Proof.LibDenseRows
import proofs.«157614_j5866925326769_1_alg».proof.Proof.Gen.ReferenceIdeal.Run

noncomputable section

namespace Cert.ReferenceIdeal.RefValue

open Cert.ReferenceIdeal Cert.ReferenceIdeal.Gen Cert.ReferenceIdeal.Value Idealize.ShloMosaic Idealize.ShloMosaic.ValueIdx Idealize.ShloMosaic.Dense Cert.Gnn

/-- Three blocks of 64 columns side by side, as a whole array: row `r` is the three rows `r` joined. -/
theorem concat3_eq {n : Nat} (u v w : Mat n 64)
    (h : Shape.Concatenates [(⟨2, ![n, 64]⟩ : Shape), ⟨2, ![n, 64]⟩, ⟨2, ![n, 64]⟩] ⟨2, ![n, 192]⟩ (1 : Fin 2)) :
    concatenate ⟨2, ![n, 192]⟩ (1 : Fin 2) [⟨⟨2, ![n, 64]⟩, u⟩, ⟨⟨2, ![n, 64]⟩, v⟩, ⟨⟨2, ![n, 64]⟩, w⟩] h
      = fun i => cat3 (rowOf u (i 0)) (rowOf v (i 0)) (rowOf w (i 0)) (i 1) := by
  funext i
  obtain ⟨r, j, rfl⟩ : ∃ (r : Fin n) (j : Fin 192), i = ix2 r j := ⟨i 0, i 1, eq_ix2 i⟩
  exact ConcatCols.cols3_apply u v w h rfl r j

/-- A node's update, in the host's spelling, is `Upd`: the aggregate joined with the state, two layers, the positive part. -/
theorem host_upd_eq (ag x : FVec Ideal S50000x64 .f32) (Wu1 : FVec Ideal S128x64 .f32) (bu1 : FVec Ideal S64 .f32)
    (Wu2 : FVec Ideal S64x64 .f32) (bu2 : FVec Ideal S64 .f32) :
    maximumf (addf (Host.dotGeneral dot_S50000x64_S64x64_S50000x64_1_0_0_1_n_n none (maximumf (addf (Host.dotGeneral dot_S50000x128_S128x64_S50000x64_1_0_0_1_n_n none (concatenate S50000x128 1 [⟨S50000x64, ag⟩, ⟨S50000x64, x⟩] concatenates_S50000x64_S50000x64_S50000x128_d1) Wu1) (broadcastInDim S50000x64 ![0, 1] bcast_S1x64_S50000x64_0_1 (broadcastInDim S1x64 ![1] bcast_S64_S1x64_1 bu1))) (broadcastInDim S50000x64 ![] bcast_S_S50000x64 (constant (F := Ideal) S_ .f32 0x00000000#32))) Wu2) (broadcastInDim S50000x64 ![0, 1] bcast_S1x64_S50000x64_0_1 (broadcastInDim S1x64 ![1] bcast_S64_S1x64_1 bu2))) (broadcastInDim S50000x64 ![] bcast_S_S50000x64 (constant (F := Ideal) S_ .f32 0x00000000#32))
      = Upd ag x Wu1 bu1 Wu2 bu2 := by
  rw [concat_cols_eq (c := 128) rfl ag x concatenates_S50000x64_S50000x64_S50000x128_d1]
  rw [hostDot_bias_relu_eq dot_S50000x128_S128x64_S50000x64_1_0_0_1_n_n rfl _ Wu1 bu1]
  rw [hostDot_bias_relu_eq dot_S50000x64_S64x64_S50000x64_1_0_0_1_n_n rfl _ Wu2 bu2]
  rfl

/-- An edge's message, in the host's spelling, is `Edge`: the two endpoint projections joined, then the message layers. -/
theorem host_edge_eq (xi xj : FVec Ideal S600000x64 .f32) (Wpi : FVec Ideal S64x64 .f32) (bpi : FVec Ideal S64 .f32)
    (Wpj : FVec Ideal S64x64 .f32) (bpj : FVec Ideal S64 .f32) (Wm1 : FVec Ideal S128x64 .f32) (bm1 : FVec Ideal S64 .f32)
    (Wm2 : FVec Ideal S64x64 .f32) (bm2 : FVec Ideal S64 .f32) :
    (addf (Host.dotGeneral dot_S600000x64_S64x64_S600000x64_1_0_0_1_n_n none (maximumf (addf (Host.dotGeneral dot_S600000x128_S128x64_S600000x64_1_0_0_1_n_n none (concatenate S600000x128 1 [⟨S600000x64, (maximumf (addf (Host.dotGeneral dot_S600000x64_S64x64_S600000x64_1_0_0_1_n_n none xi Wpi) (broadcastInDim S600000x64 ![0, 1] bcast_S1x64_S600000x64_0_1 (broadcastInDim S1x64 ![1] bcast_S64_S1x64_1 bpi))) (broadcastInDim S600000x64 ![] bcast_S_S600000x64 (constant (F := Ideal) S_ .f32 0x00000000#32)))⟩, ⟨S600000x64, (maximumf (addf (Host.dotGeneral dot_S600000x64_S64x64_S600000x64_1_0_0_1_n_n none xj Wpj) (broadcastInDim S600000x64 ![0, 1] bcast_S1x64_S600000x64_0_1 (broadcastInDim S1x64 ![1] bcast_S64_S1x64_1 bpj))) (broadcastInDim S600000x64 ![] bcast_S_S600000x64 (constant (F := Ideal) S_ .f32 0x00000000#32)))⟩] concatenates_S600000x64_S600000x64_S600000x128_d1) Wm1) (broadcastInDim S600000x64 ![0, 1] bcast_S1x64_S600000x64_0_1 (broadcastInDim S1x64 ![1] bcast_S64_S1x64_1 bm1))) (broadcastInDim S600000x64 ![] bcast_S_S600000x64 (constant (F := Ideal) S_ .f32 0x00000000#32))) Wm2) (broadcastInDim S600000x64 ![0, 1] bcast_S1x64_S600000x64_0_1 (broadcastInDim S1x64 ![1] bcast_S64_S1x64_1 bm2)))
      = Edge xi xj Wpi bpi Wpj bpj Wm1 bm1 Wm2 bm2 := by
  rw [hostDot_bias_relu_eq dot_S600000x64_S64x64_S600000x64_1_0_0_1_n_n rfl xi Wpi bpi,
    hostDot_bias_relu_eq dot_S600000x64_S64x64_S600000x64_1_0_0_1_n_n rfl xj Wpj bpj]
  rw [concat_cols_eq (c := 128) rfl _ _ concatenates_S600000x64_S600000x64_S600000x128_d1]
  rw [hostDot_bias_relu_eq dot_S600000x128_S128x64_S600000x64_1_0_0_1_n_n rfl _ Wm1 bm1]
  rw [hostDot_bias_eq dot_S600000x64_S64x64_S600000x64_1_0_0_1_n_n rfl _ Wm2 bm2]
  rfl

/-- The encoder, in the host's spelling, is `Enc`: three modality encoders, their outputs joined, the integrating layers. -/
theorem host_enc_eq (a0 : FVec Ideal S50000x2000 .f32) (a1 : FVec Ideal S50000x1000 .f32) (a2 : FVec Ideal S50000x200 .f32)
    (w3 : FVec Ideal S2000x64 .f32) (w4 : FVec Ideal S64 .f32) (w5 : FVec Ideal S64x64 .f32) (w6 : FVec Ideal S64 .f32) (w7 : FVec Ideal S1000x64 .f32) (w8 : FVec Ideal S64 .f32) (w9 : FVec Ideal S64x64 .f32) (w10 : FVec Ideal S64 .f32) (w11 : FVec Ideal S200x64 .f32) (w12 : FVec Ideal S64 .f32) (w13 : FVec Ideal S64x64 .f32) (w14 : FVec Ideal S64 .f32) (w15 : FVec Ideal S192x64 .f32) (w16 : FVec Ideal S64 .f32) (w17 : FVec Ideal S64x64 .f32) (w18 : FVec Ideal S64 .f32) :
    addf (Host.dotGeneral dot_S50000x64_S64x64_S50000x64_1_0_0_1_n_n none (maximumf (addf (Host.dotGeneral dot_S50000x192_S192x64_S50000x64_1_0_0_1_n_n none (concatenate S50000x192 1 [⟨S50000x64, (addf (Host.dotGeneral dot_S50000x64_S64x64_S50000x64_1_0_0_1_n_n none (maximumf (addf (Host.dotGeneral dot_S50000x2000_S2000x64_S50000x64_1_0_0_1_n_n none a0 w3) (broadcastInDim S50000x64 ![0, 1] bcast_S1x64_S50000x64_0_1 (broadcastInDim S1x64 ![1] bcast_S64_S1x64_1 w4))) (broadcastInDim S50000x64 ![] bcast_S_S50000x64 (constant (F := Ideal) S_ .f32 0x00000000#32))) w5) (broadcastInDim S50000x64 ![0, 1] bcast_S1x64_S50000x64_0_1 (broadcastInDim S1x64 ![1] bcast_S64_S1x64_1 w6)))⟩, ⟨S50000x64, (addf (Host.dotGeneral dot_S50000x64_S64x64_S50000x64_1_0_0_1_n_n none (maximumf (addf (Host.dotGeneral dot_S50000x1000_S1000x64_S50000x64_1_0_0_1_n_n none a1 w7) (broadcastInDim S50000x64 ![0, 1] bcast_S1x64_S50000x64_0_1 (broadcastInDim S1x64 ![1] bcast_S64_S1x64_1 w8))) (broadcastInDim S50000x64 ![] bcast_S_S50000x64 (constant (F := Ideal) S_ .f32 0x00000000#32))) w9) (broadcastInDim S50000x64 ![0, 1] bcast_S1x64_S50000x64_0_1 (broadcastInDim S1x64 ![1] bcast_S64_S1x64_1 w10)))⟩, ⟨S50000x64, (addf (Host.dotGeneral dot_S50000x64_S64x64_S50000x64_1_0_0_1_n_n none (maximumf (addf (Host.dotGeneral dot_S50000x200_S200x64_S50000x64_1_0_0_1_n_n none a2 w11) (broadcastInDim S50000x64 ![0, 1] bcast_S1x64_S50000x64_0_1 (broadcastInDim S1x64 ![1] bcast_S64_S1x64_1 w12))) (broadcastInDim S50000x64 ![] bcast_S_S50000x64 (constant (F := Ideal) S_ .f32 0x00000000#32))) w13) (broadcastInDim S50000x64 ![0, 1] bcast_S1x64_S50000x64_0_1 (broadcastInDim S1x64 ![1] bcast_S64_S1x64_1 w14)))⟩] concatenates_S50000x64_S50000x64_S50000x64_S50000x192_d1) w15) (broadcastInDim S50000x64 ![0, 1] bcast_S1x64_S50000x64_0_1 (broadcastInDim S1x64 ![1] bcast_S64_S1x64_1 w16))) (broadcastInDim S50000x64 ![] bcast_S_S50000x64 (constant (F := Ideal) S_ .f32 0x00000000#32))) w17) (broadcastInDim S50000x64 ![0, 1] bcast_S1x64_S50000x64_0_1 (broadcastInDim S1x64 ![1] bcast_S64_S1x64_1 w18))
      = Enc a0 a1 a2 w3 w4 w5 w6 w7 w8 w9 w10 w11 w12 w13 w14 w15 w16 w17 w18 := by
  -- the first layer of each modality encoder
  rw [hostDot_bias_relu_eq dot_S50000x2000_S2000x64_S50000x64_1_0_0_1_n_n rfl a0 w3 w4,
    hostDot_bias_relu_eq dot_S50000x1000_S1000x64_S50000x64_1_0_0_1_n_n rfl a1 w7 w8,
    hostDot_bias_relu_eq dot_S50000x200_S200x64_S50000x64_1_0_0_1_n_n rfl a2 w11 w12]
  -- their second layers
  rw [hostDot_bias_eq dot_S50000x64_S64x64_S50000x64_1_0_0_1_n_n rfl _ w5 w6,
    hostDot_bias_eq dot_S50000x64_S64x64_S50000x64_1_0_0_1_n_n rfl _ w9 w10,
    hostDot_bias_eq dot_S50000x64_S64x64_S50000x64_1_0_0_1_n_n rfl _ w13 w14]
  -- the three outputs joined, then the integrating layers
  rw [concat3_eq]
  rw [hostDot_bias_relu_eq dot_S50000x192_S192x64_S50000x64_1_0_0_1_n_n rfl _ w15 w16]
  rw [hostDot_bias_eq dot_S50000x64_S64x64_S50000x64_1_0_0_1_n_n rfl _ w17 w18]
  rfl

/-! ## The reference's network -/

section Generic

variable {F : FTy → Type} [FloatOps F]

/-- Node indices with the negative ones wrapped around by the number of nodes (the host's index normalisation). -/
def wrapIdx (e : (⟨S600000, .i32⟩ : BufTy).Contents (Elt F)) : (⟨S600000, .i32⟩ : BufTy).Contents (Elt F) :=
  select (cmpi .slt e (broadcastInDim S600000 ![] bcast_S_S600000 (constantI S_ 32 0#32))) (addi e (broadcastInDim S600000 ![] bcast_S_S600000 (constantI S_ 32 50000#32))) e

/-- The rows of `x` at the (wrapped) node indices `e`, one per edge: the host's gather, never opened. -/
def gatherRows (e : (⟨S600000, .i32⟩ : BufTy).Contents (Elt F)) (x : (⟨S50000x64, .f32⟩ : BufTy).Contents (Elt F)) :
    (⟨S600000x64, .f32⟩ : BufTy).Contents (Elt F) :=
  Host.gather gather_S50000x64_S600000x1_S600000x64_1_0_n_n_0_1_164 x (broadcastInDim S600000x1 ![0] bcast_S600000_S600000x1_0 (wrapIdx e))

/-- The sum of the edge rows `u` per target node `e`, from zero: the host's scatter-add, never opened. -/
def segSum (e : (⟨S600000, .i32⟩ : BufTy).Contents (Elt F)) (u : (⟨S600000x64, .f32⟩ : BufTy).Contents (Elt F)) :
    (⟨S50000x64, .f32⟩ : BufTy).Contents (Elt F) :=
  Host.scatterAdd scatter_S50000x64_S600000x1_S600000x64_1_0_0_1 (broadcastInDim S50000x64 ![] bcast_S_S50000x64 (constant S_ .f32 0x00000000#32)) (broadcastInDim S600000x1 ![0] bcast_S600000_S600000x1_0 e) u

/-- The first round's 64×64 matrix of a stacked pair. -/
def mat64At0 (W : (⟨S2x64x64, .f32⟩ : BufTy).Contents (Elt F)) : (⟨S64x64, .f32⟩ : BufTy).Contents (Elt F) :=
  shapeCast _ (extractStridedSlice S1x64x64 ![0, 0, 0] W slices_S2x64x64_S1x64x64_0_0_0) shapeCasts_S1x64x64_S64x64
/-- The second round's 64×64 matrix of a stacked pair. -/
def mat64At1 (W : (⟨S2x64x64, .f32⟩ : BufTy).Contents (Elt F)) : (⟨S64x64, .f32⟩ : BufTy).Contents (Elt F) :=
  shapeCast _ (extractStridedSlice S1x64x64 ![1, 0, 0] W slices_S2x64x64_S1x64x64_1_0_0) shapeCasts_S1x64x64_S64x64
/-- The first round's 128×64 matrix of a stacked pair. -/
def mat128At0 (W : (⟨S2x128x64, .f32⟩ : BufTy).Contents (Elt F)) : (⟨S128x64, .f32⟩ : BufTy).Contents (Elt F) :=
  shapeCast _ (extractStridedSlice S1x128x64 ![0, 0, 0] W slices_S2x128x64_S1x128x64_0_0_0) shapeCasts_S1x128x64_S128x64
/-- The second round's 128×64 matrix of a stacked pair. -/
def mat128At1 (W : (⟨S2x128x64, .f32⟩ : BufTy).Contents (Elt F)) : (⟨S128x64, .f32⟩ : BufTy).Contents (Elt F) :=
  shapeCast _ (extractStridedSlice S1x128x64 ![1, 0, 0] W slices_S2x128x64_S1x128x64_1_0_0) shapeCasts_S1x128x64_S128x64
/-- The first round's bias of a stacked pair. -/
def biasAt0 (b : (⟨S2x64, .f32⟩ : BufTy).Contents (Elt F)) : (⟨S64, .f32⟩ : BufTy).Contents (Elt F) :=
  shapeCast _ (extractStridedSlice S1x64 ![0, 0] b slices_S2x64_S1x64_0_0) shapeCasts_S1x64_S64
/-- The second round's bias of a stacked pair. -/
def biasAt1 (b : (⟨S2x64, .f32⟩ : BufTy).Contents (Elt F)) : (⟨S64, .f32⟩ : BufTy).Contents (Elt F) :=
  shapeCast _ (extractStridedSlice S1x64 ![1, 0] b slices_S2x64_S1x64_1_0) shapeCasts_S1x64_S64

end Generic

/-- The reference's result as the specification's network: the encoder, then two rounds of message passing whose
    gathers read the rows at the edge index's two rows and whose segment sum adds per target node. -/
def refNet (V0 : Valuation τ sig (Elt Ideal)) : Mat 50000 64 :=
  let src := res_main_v42 V0
  let dst := res_main_v44 V0
  let gi : Mat 50000 64 → Mat 600000 64 := gatherRows (F := Ideal) dst
  let gj : Mat 50000 64 → Mat 600000 64 := gatherRows (F := Ideal) src
  let seg : Mat 600000 64 → Mat 50000 64 := segSum (F := Ideal) dst
  let x0 : Mat 50000 64 := Enc (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))
  let x1 : Mat 50000 64 := Layer gi gj seg x0 (mat64At0 (F := Ideal) (V0 (Proc.devRef .tc main_arg19))) (biasAt0 (F := Ideal) (V0 (Proc.devRef .tc main_arg20))) (mat64At0 (F := Ideal) (V0 (Proc.devRef .tc main_arg21))) (biasAt0 (F := Ideal) (V0 (Proc.devRef .tc main_arg22))) (mat128At0 (F := Ideal) (V0 (Proc.devRef .tc main_arg23))) (biasAt0 (F := Ideal) (V0 (Proc.devRef .tc main_arg24))) (mat64At0 (F := Ideal) (V0 (Proc.devRef .tc main_arg25))) (biasAt0 (F := Ideal) (V0 (Proc.devRef .tc main_arg26))) (mat128At0 (F := Ideal) (V0 (Proc.devRef .tc main_arg27))) (biasAt0 (F := Ideal) (V0 (Proc.devRef .tc main_arg28))) (mat64At0 (F := Ideal) (V0 (Proc.devRef .tc main_arg29))) (biasAt0 (F := Ideal) (V0 (Proc.devRef .tc main_arg30)))
  Layer gi gj seg x1 (mat64At1 (F := Ideal) (V0 (Proc.devRef .tc main_arg19))) (biasAt1 (F := Ideal) (V0 (Proc.devRef .tc main_arg20))) (mat64At1 (F := Ideal) (V0 (Proc.devRef .tc main_arg21))) (biasAt1 (F := Ideal) (V0 (Proc.devRef .tc main_arg22))) (mat128At1 (F := Ideal) (V0 (Proc.devRef .tc main_arg23))) (biasAt1 (F := Ideal) (V0 (Proc.devRef .tc main_arg24))) (mat64At1 (F := Ideal) (V0 (Proc.devRef .tc main_arg25))) (biasAt1 (F := Ideal) (V0 (Proc.devRef .tc main_arg26))) (mat128At1 (F := Ideal) (V0 (Proc.devRef .tc main_arg27))) (biasAt1 (F := Ideal) (V0 (Proc.devRef .tc main_arg28))) (mat64At1 (F := Ideal) (V0 (Proc.devRef .tc main_arg29))) (biasAt1 (F := Ideal) (V0 (Proc.devRef .tc main_arg30)))

/-- The encoder's buffer is `Enc` of the inputs. -/
theorem enc_eq (V0 : Valuation τ sig (Elt Ideal)) :
    res_main_v40 V0 = Enc (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) :=
  host_enc_eq (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18))

/-- The reference's result buffer is the specification's network of the inputs. -/
theorem result_eq (V0 : Valuation τ sig (Elt Ideal)) :
    maximumf (addf (res_main_v193 V0) (broadcastInDim S50000x64 ![0, 1] bcast_S1x64_S50000x64_0_1 (broadcastInDim S1x64 ![1] bcast_S64_S1x64_1 (shapeCast _ (extractStridedSlice S1x64 ![1, 0] (V0 (Proc.devRef .tc main_arg30)) slices_S2x64_S1x64_1_0) shapeCasts_S1x64_S64)))) (broadcastInDim S50000x64 ![] bcast_S_S50000x64 (constant (F := Ideal) S_ .f32 0x00000000#32))
      = refNet V0 := by
  have h121 : res_main_v121 V0 = Layer (gatherRows (F := Ideal) (res_main_v44 V0)) (gatherRows (F := Ideal) (res_main_v42 V0)) (segSum (F := Ideal) (res_main_v44 V0)) (res_main_v40 V0) (mat64At0 (F := Ideal) (V0 (Proc.devRef .tc main_arg19))) (biasAt0 (F := Ideal) (V0 (Proc.devRef .tc main_arg20))) (mat64At0 (F := Ideal) (V0 (Proc.devRef .tc main_arg21))) (biasAt0 (F := Ideal) (V0 (Proc.devRef .tc main_arg22))) (mat128At0 (F := Ideal) (V0 (Proc.devRef .tc main_arg23))) (biasAt0 (F := Ideal) (V0 (Proc.devRef .tc main_arg24))) (mat64At0 (F := Ideal) (V0 (Proc.devRef .tc main_arg25))) (biasAt0 (F := Ideal) (V0 (Proc.devRef .tc main_arg26))) (mat128At0 (F := Ideal) (V0 (Proc.devRef .tc main_arg27))) (biasAt0 (F := Ideal) (V0 (Proc.devRef .tc main_arg28))) (mat64At0 (F := Ideal) (V0 (Proc.devRef .tc main_arg29))) (biasAt0 (F := Ideal) (V0 (Proc.devRef .tc main_arg30))) := by
    unfold res_main_v121 res_main_v116
    rw [host_edge_eq, host_upd_eq]
    rfl
  unfold res_main_v193
  rw [host_edge_eq, host_upd_eq, h121, enc_eq]
  rfl

end Cert.ReferenceIdeal.RefValue

end
-- ==== Proof.Bridge.lean ====
/-
  The two programs' host spellings of the network agree.

  The reference program and the kernel program each name their shapes, dimension records and side conditions; the two
  sets of names have the same bodies. On inputs that agree, the reference's network (the encoder and two rounds of
  message passing, with its gathers, segment sum and parameter slices) is therefore the same network written with the
  kernel program's gathers, segment sum and slices.
-/
import proofs.«157614_j5866925326769_1_alg».proof.Proof.RefLayers
import proofs.«157614_j5866925326769_1_alg».proof.Proof.KHost

noncomputable section

namespace Cert.Proof.Bridge

open Idealize.ShloMosaic Idealize.SL.Sem

/-- The launch contents of a device at a TensorCore buffer are the launch memory at that buffer's location. -/
theorem launch_arg (m' : (ℓ : Loc Cert.ReferenceIdeal.nD Cert.ReferenceIdeal.τ Cert.ReferenceIdeal.sig) → Buf (Elt Ideal) ℓ) (c : Dev Cert.ReferenceIdeal.nD) (b : Ref Cert.ReferenceIdeal.sig .tc) :
    StableHlo.launchContents m' c (Proc.devRef .tc b) = m' ((c.tc : Thread Cert.ReferenceIdeal.nD Cert.ReferenceIdeal.τ).loc b) := rfl

/-- On inputs equal to `a0 … a31`, the reference's network is the specification's network with the kernel program's
    gathers (`gat` at the edge index's target and source rows), segment sum (`seg`) and parameter slices. -/
theorem net_eq (V0 : Valuation Cert.ReferenceIdeal.τ Cert.ReferenceIdeal.sig (Elt Ideal))
    (a0 : (⟨Cert.KernelIdeal.S50000x2000, .f32⟩ : BufTy).Contents (Elt Ideal))
    (a1 : (⟨Cert.KernelIdeal.S50000x1000, .f32⟩ : BufTy).Contents (Elt Ideal))
    (a2 : (⟨Cert.KernelIdeal.S50000x200, .f32⟩ : BufTy).Contents (Elt Ideal))
    (a3 : (⟨Cert.KernelIdeal.S2000x64, .f32⟩ : BufTy).Contents (Elt Ideal))
    (a4 : (⟨Cert.KernelIdeal.S64, .f32⟩ : BufTy).Contents (Elt Ideal))
    (a5 : (⟨Cert.KernelIdeal.S64x64, .f32⟩ : BufTy).Contents (Elt Ideal))
    (a6 : (⟨Cert.KernelIdeal.S64, .f32⟩ : BufTy).Contents (Elt Ideal))
    (a7 : (⟨Cert.KernelIdeal.S1000x64, .f32⟩ : BufTy).Contents (Elt Ideal))
    (a8 : (⟨Cert.KernelIdeal.S64, .f32⟩ : BufTy).Contents (Elt Ideal))
    (a9 : (⟨Cert.KernelIdeal.S64x64, .f32⟩ : BufTy).Contents (Elt Ideal))
    (a10 : (⟨Cert.KernelIdeal.S64, .f32⟩ : BufTy).Contents (Elt Ideal))
    (a11 : (⟨Cert.KernelIdeal.S200x64, .f32⟩ : BufTy).Contents (Elt Ideal))
    (a12 : (⟨Cert.KernelIdeal.S64, .f32⟩ : BufTy).Contents (Elt Ideal))
    (a13 : (⟨Cert.KernelIdeal.S64x64, .f32⟩ : BufTy).Contents (Elt Ideal))
    (a14 : (⟨Cert.KernelIdeal.S64, .f32⟩ : BufTy).Contents (Elt Ideal))
    (a15 : (⟨Cert.KernelIdeal.S192x64, .f32⟩ : BufTy).Contents (Elt Ideal))
    (a16 : (⟨Cert.KernelIdeal.S64, .f32⟩ : BufTy).Contents (Elt Ideal))
    (a17 : (⟨Cert.KernelIdeal.S64x64, .f32⟩ : BufTy).Contents (Elt Ideal))
    (a18 : (⟨Cert.KernelIdeal.S64, .f32⟩ : BufTy).Contents (Elt Ideal))
    (a19 : (⟨Cert.KernelIdeal.S2x64x64, .f32⟩ : BufTy).Contents (Elt Ideal))
    (a20 : (⟨Cert.KernelIdeal.S2x64, .f32⟩ : BufTy).Contents (Elt Ideal))
    (a21 : (⟨Cert.KernelIdeal.S2x64x64, .f32⟩ : BufTy).Contents (Elt Ideal))
    (a22 : (⟨Cert.KernelIdeal.S2x64, .f32⟩ : BufTy).Contents (Elt Ideal))
    (a23 : (⟨Cert.KernelIdeal.S2x128x64, .f32⟩ : BufTy).Contents (Elt Ideal))
    (a24 : (⟨Cert.KernelIdeal.S2x64, .f32⟩ : BufTy).Contents (Elt Ideal))
    (a25 : (⟨Cert.KernelIdeal.S2x64x64, .f32⟩ : BufTy).Contents (Elt Ideal))
    (a26 : (⟨Cert.KernelIdeal.S2x64, .f32⟩ : BufTy).Contents (Elt Ideal))
    (a27 : (⟨Cert.KernelIdeal.S2x128x64, .f32⟩ : BufTy).Contents (Elt Ideal))
    (a28 : (⟨Cert.KernelIdeal.S2x64, .f32⟩ : BufTy).Contents (Elt Ideal))
    (a29 : (⟨Cert.KernelIdeal.S2x64x64, .f32⟩ : BufTy).Contents (Elt Ideal))
    (a30 : (⟨Cert.KernelIdeal.S2x64, .f32⟩ : BufTy).Contents (Elt Ideal))
    (a31 : (⟨Cert.KernelIdeal.S2x600000, .i32⟩ : BufTy).Contents (Elt Ideal))
    (h0 : V0 (Proc.devRef .tc Cert.ReferenceIdeal.main_arg0) = a0)
    (h1 : V0 (Proc.devRef .tc Cert.ReferenceIdeal.main_arg1) = a1)
    (h2 : V0 (Proc.devRef .tc Cert.ReferenceIdeal.main_arg2) = a2)
    (h3 : V0 (Proc.devRef .tc Cert.ReferenceIdeal.main_arg3) = a3)
    (h4 : V0 (Proc.devRef .tc Cert.ReferenceIdeal.main_arg4) = a4)
    (h5 : V0 (Proc.devRef .tc Cert.ReferenceIdeal.main_arg5) = a5)
    (h6 : V0 (Proc.devRef .tc Cert.ReferenceIdeal.main_arg6) = a6)
    (h7 : V0 (Proc.devRef .tc Cert.ReferenceIdeal.main_arg7) = a7)
    (h8 : V0 (Proc.devRef .tc Cert.ReferenceIdeal.main_arg8) = a8)
    (h9 : V0 (Proc.devRef .tc Cert.ReferenceIdeal.main_arg9) = a9)
    (h10 : V0 (Proc.devRef .tc Cert.ReferenceIdeal.main_arg10) = a10)
    (h11 : V0 (Proc.devRef .tc Cert.ReferenceIdeal.main_arg11) = a11)
    (h12 : V0 (Proc.devRef .tc Cert.ReferenceIdeal.main_arg12) = a12)
    (h13 : V0 (Proc.devRef .tc Cert.ReferenceIdeal.main_arg13) = a13)
    (h14 : V0 (Proc.devRef .tc Cert.ReferenceIdeal.main_arg14) = a14)
    (h15 : V0 (Proc.devRef .tc Cert.ReferenceIdeal.main_arg15) = a15)
    (h16 : V0 (Proc.devRef .tc Cert.ReferenceIdeal.main_arg16) = a16)
    (h17 : V0 (Proc.devRef .tc Cert.ReferenceIdeal.main_arg17) = a17)
    (h18 : V0 (Proc.devRef .tc Cert.ReferenceIdeal.main_arg18) = a18)
    (h19 : V0 (Proc.devRef .tc Cert.ReferenceIdeal.main_arg19) = a19)
    (h20 : V0 (Proc.devRef .tc Cert.ReferenceIdeal.main_arg20) = a20)
    (h21 : V0 (Proc.devRef .tc Cert.ReferenceIdeal.main_arg21) = a21)
    (h22 : V0 (Proc.devRef .tc Cert.ReferenceIdeal.main_arg22) = a22)
    (h23 : V0 (Proc.devRef .tc Cert.ReferenceIdeal.main_arg23) = a23)
    (h24 : V0 (Proc.devRef .tc Cert.ReferenceIdeal.main_arg24) = a24)
    (h25 : V0 (Proc.devRef .tc Cert.ReferenceIdeal.main_arg25) = a25)
    (h26 : V0 (Proc.devRef .tc Cert.ReferenceIdeal.main_arg26) = a26)
    (h27 : V0 (Proc.devRef .tc Cert.ReferenceIdeal.main_arg27) = a27)
    (h28 : V0 (Proc.devRef .tc Cert.ReferenceIdeal.main_arg28) = a28)
    (h29 : V0 (Proc.devRef .tc Cert.ReferenceIdeal.main_arg29) = a29)
    (h30 : V0 (Proc.devRef .tc Cert.ReferenceIdeal.main_arg30) = a30)
    (h31 : V0 (Proc.devRef .tc Cert.ReferenceIdeal.main_arg31) = a31) :
    Cert.ReferenceIdeal.RefValue.refNet V0
      = Cert.Gnn.Layer (Cert.KernelIdeal.Glue.gat (F := Ideal) (Cert.KernelIdeal.Glue.dstOf a31)) (Cert.KernelIdeal.Glue.gat (F := Ideal) (Cert.KernelIdeal.Glue.srcOf a31)) (Cert.KernelIdeal.Glue.seg (F := Ideal) (Cert.KernelIdeal.Glue.dstOf a31))
          (Cert.Gnn.Layer (Cert.KernelIdeal.Glue.gat (F := Ideal) (Cert.KernelIdeal.Glue.dstOf a31)) (Cert.KernelIdeal.Glue.gat (F := Ideal) (Cert.KernelIdeal.Glue.srcOf a31)) (Cert.KernelIdeal.Glue.seg (F := Ideal) (Cert.KernelIdeal.Glue.dstOf a31))
            (Cert.Gnn.Enc (n := 50000) a0 a1 a2 a3 a4 a5 a6 a7 a8 a9 a10 a11 a12 a13 a14 a15 a16 a17 a18)
            (Cert.KernelIdeal.Glue.w64a (F := Ideal) a19) (Cert.KernelIdeal.Glue.b64a (F := Ideal) a20) (Cert.KernelIdeal.Glue.w64a (F := Ideal) a21) (Cert.KernelIdeal.Glue.b64a (F := Ideal) a22) (Cert.KernelIdeal.Glue.w128a (F := Ideal) a23) (Cert.KernelIdeal.Glue.b64a (F := Ideal) a24) (Cert.KernelIdeal.Glue.w64a (F := Ideal) a25) (Cert.KernelIdeal.Glue.b64a (F := Ideal) a26) (Cert.KernelIdeal.Glue.w128a (F := Ideal) a27) (Cert.KernelIdeal.Glue.b64a (F := Ideal) a28) (Cert.KernelIdeal.Glue.w64a (F := Ideal) a29) (Cert.KernelIdeal.Glue.b64a (F := Ideal) a30))
          (Cert.KernelIdeal.Glue.w64b (F := Ideal) a19) (Cert.KernelIdeal.Glue.b64b (F := Ideal) a20) (Cert.KernelIdeal.Glue.w64b (F := Ideal) a21) (Cert.KernelIdeal.Glue.b64b (F := Ideal) a22) (Cert.KernelIdeal.Glue.w128b (F := Ideal) a23) (Cert.KernelIdeal.Glue.b64b (F := Ideal) a24) (Cert.KernelIdeal.Glue.w64b (F := Ideal) a25) (Cert.KernelIdeal.Glue.b64b (F := Ideal) a26) (Cert.KernelIdeal.Glue.w128b (F := Ideal) a27) (Cert.KernelIdeal.Glue.b64b (F := Ideal) a28) (Cert.KernelIdeal.Glue.w64b (F := Ideal) a29) (Cert.KernelIdeal.Glue.b64b (F := Ideal) a30) := by
  subst h0 h1 h2 h3 h4 h5 h6 h7 h8 h9 h10 h11 h12 h13 h14 h15 h16 h17 h18 h19 h20 h21 h22 h23 h24 h25 h26 h27 h28 h29 h30 h31
  rfl

end Cert.Proof.Bridge

end
-- ==== Proof.lean ====
/-
  The certificate: a multimodal encoder followed by two rounds of graph message passing, as five Pallas regions among
  host gathers and segment sums, against the plain jnp network.

  On the extended reals both programs compute, for every node, the same function of the arguments: each dense layer is
  a sum over its input coordinates whatever its tiling or float format, the gathers, the segment sums and the parameter
  slices are the same host operations in both programs, and so the result arrays agree entry by entry
  (`Cert.KernelIdeal.Net.x2`, the specification `Cert.Gnn` applied to the launch arguments). The three frames are the
  programs' runs with the result dropped; the idealization rewrote nothing, so `preserves` is trivial.
-/
import proofs.«157614_j5866925326769_1_alg».proof.Defs
import proofs.«157614_j5866925326769_1_alg».proof.Proof.Gen.Kernel
import proofs.«157614_j5866925326769_1_alg».proof.Proof.Gen.Kernel.Frame
import proofs.«157614_j5866925326769_1_alg».proof.Proof.Gen.KernelIdeal
import proofs.«157614_j5866925326769_1_alg».proof.Proof.Gen.KernelIdeal.Frame
import proofs.«157614_j5866925326769_1_alg».proof.Proof.Gen.ReferenceIdeal
import proofs.«157614_j5866925326769_1_alg».proof.Proof.Gen.ReferenceIdeal.Run
import proofs.«157614_j5866925326769_1_alg».proof.Proof.Gen.Pre_finite_inputs
import proofs.«157614_j5866925326769_1_alg».proof.Proof.KRun
import proofs.«157614_j5866925326769_1_alg».proof.Proof.KNet
import proofs.«157614_j5866925326769_1_alg».proof.Proof.RefLayers
import proofs.«157614_j5866925326769_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The kernel program's run with its result array named: the network of the specification on the launch arguments. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v90) = Cert.KernelIdeal.Net.x2 m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)) :=
  (θ_run Cert.KernelIdeal.defs _ _).mono (fun r h c =>
    ⟨(h c _ (Cert.KernelIdeal.Gen.mem_uc Cert.KernelIdeal.main_v90 (by decide))).trans (Cert.KernelIdeal.Net.w9_v90 m ρ c),
     (h c _ (Cert.KernelIdeal.Gen.mem_uc Cert.KernelIdeal.main_arg0 (by decide))).trans (Cert.KernelIdeal.Gen.W9_main_arg0 m ρ c),
     (h c _ (Cert.KernelIdeal.Gen.mem_uc Cert.KernelIdeal.main_arg1 (by decide))).trans (Cert.KernelIdeal.Gen.W9_main_arg1 m ρ c),
     (h c _ (Cert.KernelIdeal.Gen.mem_uc Cert.KernelIdeal.main_arg2 (by decide))).trans (Cert.KernelIdeal.Gen.W9_main_arg2 m ρ c),
     (h c _ (Cert.KernelIdeal.Gen.mem_uc Cert.KernelIdeal.main_arg3 (by decide))).trans (Cert.KernelIdeal.Gen.W9_main_arg3 m ρ c),
     (h c _ (Cert.KernelIdeal.Gen.mem_uc Cert.KernelIdeal.main_arg4 (by decide))).trans (Cert.KernelIdeal.Gen.W9_main_arg4 m ρ c),
     (h c _ (Cert.KernelIdeal.Gen.mem_uc Cert.KernelIdeal.main_arg5 (by decide))).trans (Cert.KernelIdeal.Gen.W9_main_arg5 m ρ c),
     (h c _ (Cert.KernelIdeal.Gen.mem_uc Cert.KernelIdeal.main_arg6 (by decide))).trans (Cert.KernelIdeal.Gen.W9_main_arg6 m ρ c),
     (h c _ (Cert.KernelIdeal.Gen.mem_uc Cert.KernelIdeal.main_arg7 (by decide))).trans (Cert.KernelIdeal.Gen.W9_main_arg7 m ρ c),
     (h c _ (Cert.KernelIdeal.Gen.mem_uc Cert.KernelIdeal.main_arg8 (by decide))).trans (Cert.KernelIdeal.Gen.W9_main_arg8 m ρ c),
     (h c _ (Cert.KernelIdeal.Gen.mem_uc Cert.KernelIdeal.main_arg9 (by decide))).trans (Cert.KernelIdeal.Gen.W9_main_arg9 m ρ c),
     (h c _ (Cert.KernelIdeal.Gen.mem_uc Cert.KernelIdeal.main_arg10 (by decide))).trans (Cert.KernelIdeal.Gen.W9_main_arg10 m ρ c),
     (h c _ (Cert.KernelIdeal.Gen.mem_uc Cert.KernelIdeal.main_arg11 (by decide))).trans (Cert.KernelIdeal.Gen.W9_main_arg11 m ρ c),
     (h c _ (Cert.KernelIdeal.Gen.mem_uc Cert.KernelIdeal.main_arg12 (by decide))).trans (Cert.KernelIdeal.Gen.W9_main_arg12 m ρ c),
     (h c _ (Cert.KernelIdeal.Gen.mem_uc Cert.KernelIdeal.main_arg13 (by decide))).trans (Cert.KernelIdeal.Gen.W9_main_arg13 m ρ c),
     (h c _ (Cert.KernelIdeal.Gen.mem_uc Cert.KernelIdeal.main_arg14 (by decide))).trans (Cert.KernelIdeal.Gen.W9_main_arg14 m ρ c),
     (h c _ (Cert.KernelIdeal.Gen.mem_uc Cert.KernelIdeal.main_arg15 (by decide))).trans (Cert.KernelIdeal.Gen.W9_main_arg15 m ρ c),
     (h c _ (Cert.KernelIdeal.Gen.mem_uc Cert.KernelIdeal.main_arg16 (by decide))).trans (Cert.KernelIdeal.Gen.W9_main_arg16 m ρ c),
     (h c _ (Cert.KernelIdeal.Gen.mem_uc Cert.KernelIdeal.main_arg17 (by decide))).trans (Cert.KernelIdeal.Gen.W9_main_arg17 m ρ c),
     (h c _ (Cert.KernelIdeal.Gen.mem_uc Cert.KernelIdeal.main_arg18 (by decide))).trans (Cert.KernelIdeal.Gen.W9_main_arg18 m ρ c),
     (h c _ (Cert.KernelIdeal.Gen.mem_uc Cert.KernelIdeal.main_arg19 (by decide))).trans (Cert.KernelIdeal.Gen.W9_main_arg19 m ρ c),
     (h c _ (Cert.KernelIdeal.Gen.mem_uc Cert.KernelIdeal.main_arg20 (by decide))).trans (Cert.KernelIdeal.Gen.W9_main_arg20 m ρ c),
     (h c _ (Cert.KernelIdeal.Gen.mem_uc Cert.KernelIdeal.main_arg21 (by decide))).trans (Cert.KernelIdeal.Gen.W9_main_arg21 m ρ c),
     (h c _ (Cert.KernelIdeal.Gen.mem_uc Cert.KernelIdeal.main_arg22 (by decide))).trans (Cert.KernelIdeal.Gen.W9_main_arg22 m ρ c),
     (h c _ (Cert.KernelIdeal.Gen.mem_uc Cert.KernelIdeal.main_arg23 (by decide))).trans (Cert.KernelIdeal.Gen.W9_main_arg23 m ρ c),
     (h c _ (Cert.KernelIdeal.Gen.mem_uc Cert.KernelIdeal.main_arg24 (by decide))).trans (Cert.KernelIdeal.Gen.W9_main_arg24 m ρ c),
     (h c _ (Cert.KernelIdeal.Gen.mem_uc Cert.KernelIdeal.main_arg25 (by decide))).trans (Cert.KernelIdeal.Gen.W9_main_arg25 m ρ c),
     (h c _ (Cert.KernelIdeal.Gen.mem_uc Cert.KernelIdeal.main_arg26 (by decide))).trans (Cert.KernelIdeal.Gen.W9_main_arg26 m ρ c),
     (h c _ (Cert.KernelIdeal.Gen.mem_uc Cert.KernelIdeal.main_arg27 (by decide))).trans (Cert.KernelIdeal.Gen.W9_main_arg27 m ρ c),
     (h c _ (Cert.KernelIdeal.Gen.mem_uc Cert.KernelIdeal.main_arg28 (by decide))).trans (Cert.KernelIdeal.Gen.W9_main_arg28 m ρ c),
     (h c _ (Cert.KernelIdeal.Gen.mem_uc Cert.KernelIdeal.main_arg29 (by decide))).trans (Cert.KernelIdeal.Gen.W9_main_arg29 m ρ c),
     (h c _ (Cert.KernelIdeal.Gen.mem_uc Cert.KernelIdeal.main_arg30 (by decide))).trans (Cert.KernelIdeal.Gen.W9_main_arg30 m ρ c),
     (h c _ (Cert.KernelIdeal.Gen.mem_uc Cert.KernelIdeal.main_arg31 (by decide))).trans (Cert.KernelIdeal.Gen.W9_main_arg31 m ρ c)⟩)
    (Cert.KernelIdeal.Run.run_all m ρ)

/-- At `Ideal` the two programs, run from memories that agree on the arguments, end with equal result arrays: the
    kernel's is the specification's network (`kernel_run`), the reference's composed host term is the same network
    (`RefValue.result_eq`), and the host gathers, segment sums and slices are one function in both programs
    (`Bridge.net_eq`). -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Net.x2 m c, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq]
  obtain ⟨h0, h1, h2, h3, h4, h5, h6, h7, h8, h9, h10, h11, h12, h13, h14, h15, h16, h17, h18, h19, h20, h21, h22, h23, h24, h25, h26, h27, h28, h29, h30, h31⟩ := hagree c
  exact (Cert.Proof.Bridge.net_eq (StableHlo.launchContents m' c) _ _ _ _ _ _ _ _ _ _ _ _ _ _ _ _ _ _ _ _ _ _ _ _ _ _ _ _ _ _ _ _
    h0 h1 h2 h3 h4 h5 h6 h7 h8 h9 h10 h11 h12 h13 h14 h15 h16 h17 h18 h19 h20 h21 h22 h23 h24 h25 h26 h27 h28 h29 h30 h31).trans (Cert.KernelIdeal.Net.x2_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
